-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S1x256x1024 : Shape := ⟨3, ![1, 256, 1024]⟩
abbrev S256x1024 : Shape := ⟨2, ![256, 1024]⟩
abbrev S256x3072 : Shape := ⟨2, ![256, 3072]⟩
abbrev S1x3072 : Shape := ⟨2, ![1, 3072]⟩
abbrev S1x512x1024 : Shape := ⟨3, ![1, 512, 1024]⟩
abbrev S1x1024x1024 : Shape := ⟨3, ![1, 1024, 1024]⟩
abbrev S512x1 : Shape := ⟨2, ![512, 1]⟩
abbrev S512x1024 : Shape := ⟨2, ![512, 1024]⟩
abbrev S512 : Shape := ⟨1, ![512]⟩

abbrev nBuf : Space → Nat
  | .hbm => 19
  | .vmem => 21
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x3072, .bf16⟩
  | .hbm, ⟨14, _⟩ => ⟨S3072, .f32⟩
  | .hbm, ⟨15, _⟩ => ⟨S4x2048x1024, .bf16⟩
  | .hbm, ⟨16, _⟩ => ⟨S4x2048x1024, .bf16⟩
  | .hbm, ⟨17, _⟩ => ⟨S4x2048x1024, .bf16⟩
  | .hbm, ⟨18, _⟩ => ⟨S4x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x3072, .bf16⟩
  | .local _ .vmem, ⟨3, _⟩ => ⟨S3072, .f32⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x512x1024, .f32⟩
  | .local _ .vmem, ⟨17, _⟩ => ⟨S1x512x1024, .f32⟩
  | .local _ .vmem, ⟨18, _⟩ => ⟨S512x1, .f32⟩
  | .local _ .vmem, ⟨19, _⟩ => ⟨S512x1, .f32⟩
  | .local _ .vmem, ⟨20, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![4, 4, 2], ![false, false, false]⟩

def k1_cond2 (i : grid1.Coords) : BitVec 1 :=
  let arg2 : BitVec 32 := BitVec.ofNat 32 (i 2).val
  let c1_i32 : BitVec 32 := 1#32
  let v43 : BitVec 1 := Scalar.cmpi .eq arg2 c1_i32
  let v44 : BitVec 32 := Scalar.extui v43
  let c0_i32_27 : BitVec 32 := 0#32
  let v45 : BitVec 1 := Scalar.cmpi .ne v44 c0_i32_27
  v45

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  transposes_S1024x1024_S1024x1024_1_0 : S1024x1024.Transposes [1, 0] S1024x1024
  bitsLt_bf16_f32 : FTy.bits .bf16 < FTy.bits .f32
  concatenates_S1024x1024_S1024x1024_S1024x1024_S1024x3072_d1 : Shape.Concatenates [S1024x1024, S1024x1024, S1024x1024] S1024x3072 1
  concatenates_S1024_S1024_S1024_S3072_d0 : Shape.Concatenates [S1024, S1024, S1024] S3072 0
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S3072 : S3072.ShapeCasts S3072
  shapeCasts_S3072_S1x3072 : S3072.ShapeCasts S1x3072
  broadcasts_S1x3072_S256x3072 : S1x3072.Broadcasts S256x3072
  slices_S256x3072_o0_0_S256x1024 : S256x3072.Slices ![0, 0] S256x1024
  shapeCasts_S256x1024_S1x256x1024 : S256x1024.ShapeCasts S1x256x1024
  packedbf16_S1x256x1024_S1x256x1024_0_0_0 : (Rect.unit (s := S1x256x1024) ![0, 0, 0] S1x256x1024.size inb_S1x256x1024_S1x256x1024_0_0_0).PackedRows (EltTy.packing .bf16)
  slices_S256x3072_o0_1024_S256x1024 : S256x3072.Slices ![0, 1024] S256x1024
  slices_S256x3072_o0_2048_S256x1024 : S256x3072.Slices ![0, 2048] S256x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  transposes_S1024x1024_p1_0_S1024x1024 : S1024x1024.Transposes [1, 0] S1024x1024
  reduces_S512x1024_S512 : S512x1024.Reduces [1] S512
  shapeCasts_S512_S512x1 : S512.ShapeCasts S512x1
  broadcasts_S512x1_S512x1024 : S512x1.Broadcasts S512x1024
  shapeCasts_S512x1024_S1x512x1024 : S512x1024.ShapeCasts S1x512x1024
  dot_S256x1024_S1024x3072_S256x3072_1_0_0_1_n_n_wf : DotDims.WF S256x1024 S1024x3072 S256x3072 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x2048x1024.size a
  hwx0_0 : ∀ i : grid0.Coords, EltTy.bits .f32 = 32 ∨ (Rect.block (s := S4x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S4x2048x1024.size a
  hwx0_3 : ∀ i : grid0.Coords, EltTy.bits .bf16 = 32 ∨ (Rect.block (s := S4x2048x1024) S1x256x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S4x2048x1024.size a
  hwx0_4 : ∀ i : grid0.Coords, EltTy.bits .bf16 = 32 ∨ (Rect.block (s := S4x2048x1024) S1x256x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S4x2048x1024.size a
  hwx0_5 : ∀ i : grid0.Coords, EltTy.bits .bf16 = 32 ∨ (Rect.block (s := S4x2048x1024) S1x256x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .bf16 = 32 ∨ (Rect.block (s := S4x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S4x2048x1024.size a
  hwx1_1 : ∀ i : grid1.Coords, EltTy.bits .bf16 = 32 ∨ (Rect.block (s := S4x2048x1024) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x2048x1024.size a
  hwx1_2 : ∀ i : grid1.Coords, EltTy.bits .bf16 = 32 ∨ (Rect.block (s := S4x2048x1024) S1x1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x2048x1024.size a
  hwx1_3 : ∀ i : grid1.Coords, EltTy.bits .f32 = 32 ∨ (Rect.block (s := S4x2048x1024) S1x512x1024.size (cc1_transform_3 i) (hinb1_3 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S1x256x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S1x256x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_2) S1x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v8_0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_1) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8_2) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.K.Reg0.lean ====
/- Region 0 of @main — custom_call 0, the fused q/k/v projection `cc0__qkv_kernel` (pipeline 0) — at a
   parameter `V`, the TensorCore's buffer contents when the region is entered: each window's block at a grid
   point, what the body leaves in each of the three output windows' staging buffers as a closed function of the
   three input blocks, the body's triple, the pipeline's proof data and the body obligation. -/
import proofs.«154121_j11690900980356_2_alg».proof.Proof.Gen.Kernel.Launch
import proofs.«154121_j11690900980356_2_alg».proof.Proof.Gen.Kernel.Skeleton
import proofs.«154121_j11690900980356_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the whole weight, fetched at the first point only: its block index never moves) likewise:
    where it is not fetched the buffer still holds the previous point's block, which is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (the whole bias, fetched at the first point only) likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev rX : Rect S1x256x1024 := Rect.unit (s := S1x256x1024) ![0, 0, 0] S1x256x1024.size inb_S1x256x1024_S1x256x1024_0_0_0
abbrev rW : Rect S1024x3072 := Rect.unit (s := S1024x3072) ![0, 0] S1024x3072.size inb_S1024x3072_S1024x3072_0_0
abbrev rB : Rect S3072 := Rect.unit (s := S3072) ![0] S3072.size inb_S3072_S3072_0

/-! ## What the body leaves in each output window's buffer -/

/-- Window 3's staging buffer (the q block) after the body, from the input windows' blocks: its one store. -/
def out0_3 (x0 : Vec F S1x256x1024 .f32) (x1 : Vec F S1024x3072 .bf16) (x2 : Vec F S3072 .f32) : Vec F S1x256x1024 .bf16 :=
  View.canon [⟨rX, k0_pay2 (View.ld x0 rX) (View.ld x1 rW) (View.ld x2 rB)⟩]
/-- Window 4's staging buffer (the k block) after the body. -/
def out0_4 (x0 : Vec F S1x256x1024 .f32) (x1 : Vec F S1024x3072 .bf16) (x2 : Vec F S3072 .f32) : Vec F S1x256x1024 .bf16 :=
  View.canon [⟨rX, k0_pay3 (View.ld x0 rX) (View.ld x1 rW) (View.ld x2 rB)⟩]
/-- Window 5's staging buffer (the v block) after the body. -/
def out0_5 (x0 : Vec F S1x256x1024 .f32) (x1 : Vec F S1024x3072 .bf16) (x2 : Vec F S3072 .f32) : Vec F S1x256x1024 .bf16 :=
  View.canon [⟨rX, k0_pay4 (View.ld x0 rX) (View.ld x1 rW) (View.ld x2 rB)⟩]

/-- A store of the whole buffer covers it. -/
theorem cover0 (p0 : Vec F S1x256x1024 .bf16) (y : S1x256x1024.Idx) :
    ∃ pc ∈ ([⟨rX, p0⟩] : List (View.Piece (Elt F) S1x256x1024 .bf16)), y ∈ pc.1.set :=
  View.cover_of_tiled [⟨rX, p0⟩] S1x256x1024.size (by rfl) y

/-! ## The body's triple -/

set_option maxHeartbeats 4000000 in
/-- The kernel body on whole staging memrefs, the inputs' at read contents `x0 x1 x2` and the outputs' at anything,
    runs to the continuation holding the inputs' as they were and each output's at `out0_W` of the inputs'. Each
    output buffer is loaded before it is stored, a load whose value nothing reads. -/
theorem sound_kernel0 (c : Dev nD) (E : Set ℕ) (i : grid0.Coords)
    (arg2 : Memref sig .tc .vmem S1x256x1024 .f32) (harg2 : arg2.IsWhole) (arg3 : Memref sig .tc .vmem S1024x3072 .bf16) (harg3 : arg3.IsWhole)
    (arg4 : Memref sig .tc .vmem S3072 .f32) (harg4 : arg4.IsWhole) (arg5 : Memref sig .tc .vmem S1x256x1024 .bf16) (harg5 : arg5.IsWhole)
    (arg6 : Memref sig .tc .vmem S1x256x1024 .bf16) (harg6 : arg6.IsWhole) (arg7 : Memref sig .tc .vmem S1x256x1024 .bf16) (harg7 : arg7.IsWhole)
    (x0 : Vec F S1x256x1024 .f32) (x1 : Vec F S1024x3072 .bf16) (x2 : Vec F S3072 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2) ∗ owns (c : Thread nD τ) arg6 fullShare (out0_4 x0 x1 x2)
            ∗ owns (c : Thread nD τ) arg7 fullShare (out0_5 x0 x1 x2)) -∗ K ⟨⟩))
      ⊢ wp frame (wpE (defs₀ (F := F)) Variants.none c none) E (cc0__qkv_kernel i arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## The pipeline's proof data -/

/-- The proof data of pipeline 0 on core `c`: the arrays as the region finds them (`V`); after the body at point
    `t` each input's buffer at its block and each output's at `out0_W` of the three input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- info: 'Cert.Kernel.Hand.body_obligation0' depends on axioms: [propext, Classical.choice, Quot.sound] -/
#guard_msgs in #print axioms body_obligation0

end Cert.Kernel.Hand

end
-- ==== Proof.K.Reg1Conds.lean ====
/-
  The second kernel (attention over one query tile and one key/value tile, with the running maximum, normaliser and
  weighted sum kept in three scratch buffers between grid points): the two control cases of its body.
  The grid is 4 × 4 × 2; the last coordinate is the key/value tile.  At tile 0 the body first resets the three
  scratch buffers and stores nothing into the output; at tile 1 it reads them as the point before left them and
  stores the output tile.
-/
import proofs.«154121_j11690900980356_2_alg».proof.Proof.Gen.Kernel.Launch
import proofs.«154121_j11690900980356_2_alg».proof.Proof.Gen.Kernel.Skeleton
import proofs.«154121_j11690900980356_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch (the reset of the scratch buffers) is taken when the key/value tile is 0. -/
abbrev cond1_0 (i : grid1.Coords) : Prop := (Scalar.cmpi .ne (Scalar.extui (Scalar.cmpi .eq (BitVec.ofNat 32 (i 2).val) 0#32)) 0#32) = 1#1
/-- Those are the even points of the row-major grid. -/
theorem hcond1_0 : ∀ t : Fin cfg1.N, cond1_0 (grid1.coords t) ↔ t.val % 2 = 0 :=
  (by decide +kernel : ∀ t : Fin grid1.N, cond1_0 (grid1.coords t) ↔ t.val % 2 = 0)

/-- The body's second branch (the division and the output store) is taken when the key/value tile is 1. -/
abbrev cond1_1 (i : grid1.Coords) : Prop := k1_cond2 i = 1#1
/-- Those are the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-- The inputs are never idle; the output is idle, and not written back, exactly at the even points. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem liveAt1_3_B : ∀ t : Fin cfg1.N, ¬cond1_0 (grid1.coords t) → cond1_1 (grid1.coords t) → cfg1.idle 3 (grid1.coords t) = false := by decide +kernel

/-- The staging memrefs the pipeline passes at a point, and the three scratch buffers as memrefs and views. -/
abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .f32 := win1_3.stage (cfg1.slots t 3)
abbrev hs1_3 (t : Fin cfg1.N) : (ms1_3 t).IsWhole := hstage1_3 ((cfg1.slots t 3).cast nbuf1_3)
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
abbrev VS1_0 : View sig .tc .vmem S512x1 .f32 := scM1_0.view
abbrev VS1_1 : View sig .tc .vmem S512x1 .f32 := scM1_1.view
abbrev VS1_2 : View sig .tc .vmem S512x1024 .f32 := scM1_2.view
abbrev VO1_3 : View sig .tc .vmem S1x512x1024 .f32 := (Memref.whole cc1_stg3_0 : Memref sig .tc .vmem S1x512x1024 .f32).view

end Cert.Kernel.Hand

end
-- ==== Proof.K.Reg1RunA.lean ====
/-
  The attention kernel's body at a point of key/value tile 0 (the scratch buffers reset first, no output store),
  run on whole staging memrefs: what it leaves in the three scratch buffers, as the pieces its stores wrote.
-/
import proofs.«154121_j11690900980356_2_alg».proof.Proof.K.Reg1Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At key/value tile 0 the body, on whole memrefs — the three inputs at their contents, the output at contents it
    hands back untouched, the scratch buffers at anything — runs to the continuation with the inputs and the output
    as they were and each scratch buffer with its stores written. -/
noncomputable def kernelRun1_A (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i)
    (x0 : Vec F S1x512x1024 .bf16) (x1 : Vec F S1x1024x1024 .bf16) (x2 : Vec F S1x1024x1024 .bf16) :
    Σ' (LS0 : List (View.Piece (Elt F) S512x1 .f32)) (LS1 : List (View.Piece (Elt F) S512x1 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.Reg1RunB.lean ====
/-
  The attention kernel's body at a point of key/value tile 1 (no reset; the division and the output store at the
  end), run on whole staging memrefs with the scratch buffers at the contents the point before left: what it leaves
  in the output buffer and in the three scratch buffers, as the pieces its stores wrote.
-/
import proofs.«154121_j11690900980356_2_alg».proof.Proof.K.Reg1Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At key/value tile 1 the body, on whole memrefs — the three inputs at their contents, the output at anything,
    the scratch buffers at named contents — runs to the continuation with the inputs as they were and the output and
    each scratch buffer with its stores written. -/
noncomputable def kernelRun1_B (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x1024x1024 .bf16) (x2 : Vec F S1x1024x1024 .bf16)
    (xs0 : Vec F S512x1 .f32) (xs1 : Vec F S512x1 .f32) (xs2 : Vec F S512x1024 .f32) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.K.Reg1.lean ====
/-
  The attention kernel as a pipeline region: what its three scratch buffers and its output buffer hold after each
  grid point, the region's invariant, the proof data and the body obligation — at a parameter `V`, the buffer
  contents when the region is entered, and at any float instance.
  The grid's points come in pairs (key/value tile 0, then tile 1, of one query tile): at the even point the body
  resets the scratch and folds the first key/value tile in; at the odd point it folds the second in, reading the
  scratch as the even point left it, and stores the output tile.
-/
import proofs.«154121_j11690900980356_2_alg».proof.Proof.K.Reg1RunA
import proofs.«154121_j11690900980356_2_alg».proof.Proof.K.Reg1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At tile 0 the stores into scratch buffer 0 tile it, so they cover it. -/
theorem scover1_A_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S1x512x1024 .bf16) (x1 : Vec F S1x1024x1024 .bf16) (x2 : Vec F S1x1024x1024 .bf16) (y : S512x1.Idx) :
    ∃ pc ∈ (kernelRun1_A c i arg3 harg3 arg4 harg4 arg5 harg5 arg6 harg6 arg7 harg7 arg8 harg8 arg9 harg9 hc0 hc1 x0 x1 x2).1, y ∈ pc.1.set :=
  View.cover_of_tiledL (kernelRun1_A c i arg3 harg3 arg4 harg4 arg5 harg5 arg6 harg6 arg7 harg7 arg8 harg8 arg9 harg9 hc0 hc1 x0 x1 x2).1 S512x1.size (by sl_kernel_rfl) y
/-- What the body leaves in scratch buffer 0 at tile 0: its stores read back. -/
def sout1_A_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S1x512x1024 .bf16) (x1 : Vec F S1x1024x1024 .bf16) (x2 : Vec F S1x1024x1024 .bf16) : Vec F S512x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).1)
/-- At tile 1 the stores into scratch buffer 0 tile it, so they cover it. -/
theorem scover1_B_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) (y : S512x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S512x1.size (by sl_kernel_rfl) y
/-- What the body leaves in scratch buffer 0 at tile 1: its stores read back. -/
def sout1_B_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) : Vec F S512x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

/-- At tile 0 the stores into scratch buffer 1 tile it, so they cover it. -/
theorem scover1_A_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S1x512x1024 .bf16) (x1 : Vec F S1x1024x1024 .bf16) (x2 : Vec F S1x1024x1024 .bf16) (y : S512x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S512x1.size (by sl_kernel_rfl) y
/-- What the body leaves in scratch buffer 1 at tile 0: its stores read back. -/
def sout1_A_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S1x512x1024 .bf16) (x1 : Vec F S1x1024x1024 .bf16) (x2 : Vec F S1x1024x1024 .bf16) : Vec F S512x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.1)
/-- At tile 1 the stores into scratch buffer 1 tile it, so they cover it. -/
theorem scover1_B_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) (y : S512x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S512x1.size (by sl_kernel_rfl) y
/-- What the body leaves in scratch buffer 1 at tile 1: its stores read back. -/
def sout1_B_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) : Vec F S512x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

/-- At tile 0 the stores into scratch buffer 2 tile it, so they cover it. -/
theorem scover1_A_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S1x512x1024 .bf16) (x1 : Vec F S1x1024x1024 .bf16) (x2 : Vec F S1x1024x1024 .bf16) (y : S512x1024.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S512x1024.size (by sl_kernel_rfl) y
/-- What the body leaves in scratch buffer 2 at tile 0: its stores read back. -/
def sout1_A_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S1x512x1024 .bf16) (x1 : Vec F S1x1024x1024 .bf16) (x2 : Vec F S1x1024x1024 .bf16) : Vec F S512x1024 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.1)
/-- At tile 1 the stores into scratch buffer 2 tile it, so they cover it. -/
theorem scover1_B_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) (y : S512x1024.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S512x1024.size (by sl_kernel_rfl) y
/-- What the body leaves in scratch buffer 2 at tile 1: its stores read back. -/
def sout1_B_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) : Vec F S512x1024 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

/-- At tile 1 the one store into the output buffer covers it. -/
theorem cover1_B_3 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) (y : S1x512x1024.Idx) :
    ∃ pc ∈ (kernelRun1_B c i arg3 harg3 arg4 harg4 arg5 harg5 arg6 harg6 arg7 harg7 arg8 harg8 arg9 harg9 hc0 hc1 x0 x1 x2 xs0 xs1 xs2).1, y ∈ pc.1.set :=
  View.cover_of_tiledL (kernelRun1_B c i arg3 harg3 arg4 harg4 arg5 harg5 arg6 harg6 arg7 harg7 arg8 harg8 arg9 harg9 hc0 hc1 x0 x1 x2 xs0 xs1 xs2).1 S1x512x1024.size (by sl_kernel_rfl) y
/-- What the body leaves in the output buffer at tile 1: its store read back. -/
def out1_B_3 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) : Vec F S1x512x1024 .f32 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The scratch triple (running maximum, normaliser, weighted sum). -/
abbrev Trip (F : FTy → Type) [FloatOps F] : Type := Vec F S512x1 .f32 × Vec F S512x1 .f32 × Vec F S512x1024 .f32

/-- The scratch after an even point: the body's tile-0 case on the point's blocks. -/
def atA (c : Dev nD) (t : Fin cfg1.N) (h0 : t.val % 2 = 0) : Trip F :=
  (sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => by have h' := (hcond1_1 t).mp h; omega) (iblk1 V c 0 t) (iblk1 V c 1 t) (iblk1 V c 2 t),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => by have h' := (hcond1_1 t).mp h; omega) (iblk1 V c 0 t) (iblk1 V c 1 t) (iblk1 V c 2 t),
   sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => by have h' := (hcond1_1 t).mp h; omega) (iblk1 V c 0 t) (iblk1 V c 1 t) (iblk1 V c 2 t))

/-- The scratch after an odd point, from the scratch `p` before it: the body's tile-1 case. -/
def atB (c : Dev nD) (t : Fin cfg1.N) (h1 : t.val % 2 = 1) (p : Trip F) : Trip F :=
  (sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have h' := (hcond1_0 t).mp h; omega) ((hcond1_1 t).mpr h1) (iblk1 V c 0 t) (iblk1 V c 1 t) (iblk1 V c 2 t) p.1 p.2.1 p.2.2,
   sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have h' := (hcond1_0 t).mp h; omega) ((hcond1_1 t).mpr h1) (iblk1 V c 0 t) (iblk1 V c 1 t) (iblk1 V c 2 t) p.1 p.2.1 p.2.2,
   sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have h' := (hcond1_0 t).mp h; omega) ((hcond1_1 t).mpr h1) (iblk1 V c 0 t) (iblk1 V c 1 t) (iblk1 V c 2 t) p.1 p.2.1 p.2.2)

/-- The scratch after position `n`: an even point starts afresh, an odd one continues its even predecessor. -/
def scAfter (c : Dev nD) (n : ℕ) (hn : n < cfg1.N) : Trip F :=
  if h0 : n % 2 = 0 then atA V c ⟨n, hn⟩ h0
  else atB V c ⟨n, hn⟩ (by dsimp only; omega) (atA V c ⟨n - 1, by omega⟩ (by dsimp only; omega))

theorem scAfter_even (c : Dev nD) (t : Fin cfg1.N) (h0 : t.val % 2 = 0) : scAfter V c t.val t.isLt = atA V c t h0 := by
  unfold scAfter; rw [dif_pos h0]
theorem scAfter_odd (c : Dev nD) (t : Fin cfg1.N) (h1 : t.val % 2 = 1) :
    scAfter V c t.val t.isLt = atB V c t h1 (atA V c ⟨t.val - 1, by omega⟩ (by dsimp only; omega)) := by
  unfold scAfter; rw [dif_neg (by omega)]

/-- The output buffer after point `t`: at an odd point the tile-1 case's store over the even predecessor's scratch;
    at an even point nothing is stored and nothing reads this value. -/
def outAfter (c : Dev nD) (t : Fin cfg1.N) : Vec F S1x512x1024 .f32 :=
  if h1 : t.val % 2 = 1 then
    out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have h' := (hcond1_0 t).mp h; omega) ((hcond1_1 t).mpr h1) (iblk1 V c 0 t) (iblk1 V c 1 t) (iblk1 V c 2 t)
      (atA V c ⟨t.val - 1, by omega⟩ (by dsimp only; omega)).1 (atA V c ⟨t.val - 1, by omega⟩ (by dsimp only; omega)).2.1 (atA V c ⟨t.val - 1, by omega⟩ (by dsimp only; omega)).2.2
  else VO1_3.read (Elt F) (VO1_3.writes (Elt F) VO1_3.junk [])

theorem outAfter_odd (c : Dev nD) (t : Fin cfg1.N) (h1 : t.val % 2 = 1) :
    outAfter V c t = out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have h' := (hcond1_0 t).mp h; omega) ((hcond1_1 t).mpr h1) (iblk1 V c 0 t) (iblk1 V c 1 t) (iblk1 V c 2 t)
      (atA V c ⟨t.val - 1, by omega⟩ (by dsimp only; omega)).1 (atA V c ⟨t.val - 1, by omega⟩ (by dsimp only; omega)).2.1 (atA V c ⟨t.val - 1, by omega⟩ (by dsimp only; omega)).2.2 := by
  unfold outAfter; rw [dif_pos h1]

/-! ## The region's invariant -/

/-- The scoped buffers that are neither this region's staging buffers nor its scratch: the first kernel's staging buffers, at anything. -/
def R10 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The class invariant of this region spelt out: those ten, the three scratch buffers at anything, the generator register. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

theorem PhiA1_split (c : Dev nD) :
    (Pipeline.ΦA spec1 c : sProp 𝕄) ⊢ iprop(R10 c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  rw [PhiA1_eq]; unfold R10
  iintro ⟨⟨H0, H1, H2, H3, H4, H5, H6, H7, H8, H9, HS0, HS1, HS2⟩, Hg⟩
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [HS0]; · iexact HS0
  isplitl [HS1]; · iexact HS1
  isplitl [HS2]; · iexact HS2
  iexact Hg

theorem PhiA1_join (c : Dev nD) :
    iprop(R10 c ∗ (∃ d, owns (c : Thread nD τ) scM1_0 fullShare d) ∗ (∃ d, owns (c : Thread nD τ) scM1_1 fullShare d) ∗ (∃ d, owns (c : Thread nD τ) scM1_2 fullShare d) ∗ (∃ r, prngReg c r)) ⊢ (Pipeline.ΦA spec1 c : sProp 𝕄) := by
  rw [PhiA1_eq]; unfold R10
  iintro ⟨⟨H0, H1, H2, H3, H4, H5, H6, H7, H8, H9⟩, HS0, HS1, HS2, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    iexact HS2
  iexact Hg

/-- The invariant before position `n`: before the first point the class's; afterwards the scratch buffers at what the
    point before left in them. -/
def PhiT (c : Dev nD) : (n : ℕ) → n ≤ cfg1.N → sProp 𝕄
  | 0, _ => Pipeline.ΦA spec1 c
  | n + 1, hn => iprop(R10 c ∗ owns (c : Thread nD τ) scM1_0 fullShare (scAfter V c n hn).1 ∗ owns (c : Thread nD τ) scM1_1 fullShare (scAfter V c n hn).2.1
      ∗ owns (c : Thread nD τ) scM1_2 fullShare (scAfter V c n hn).2.2 ∗ (∃ r, prngReg c r))

theorem PhiT_zero (c : Dev nD) (n : ℕ) (h : n ≤ cfg1.N) (hz : n = 0) : PhiT V c n h = Pipeline.ΦA spec1 c := by
  subst hz; rfl
theorem PhiT_succ (c : Dev nD) (n : ℕ) (hn : n < cfg1.N) :
    PhiT V c (n + 1) hn = iprop(R10 c ∗ owns (c : Thread nD τ) scM1_0 fullShare (scAfter V c n hn).1 ∗ owns (c : Thread nD τ) scM1_1 fullShare (scAfter V c n hn).2.1
      ∗ owns (c : Thread nD τ) scM1_2 fullShare (scAfter V c n hn).2.2 ∗ (∃ r, prngReg c r)) := rfl
theorem PhiT_pos (c : Dev nD) (n : ℕ) (h : n ≤ cfg1.N) (hz : n ≠ 0) :
    PhiT V c n h = iprop(R10 c ∗ owns (c : Thread nD τ) scM1_0 fullShare (scAfter V c (n - 1) (by omega)).1 ∗ owns (c : Thread nD τ) scM1_1 fullShare (scAfter V c (n - 1) (by omega)).2.1
      ∗ owns (c : Thread nD τ) scM1_2 fullShare (scAfter V c (n - 1) (by omega)).2.2 ∗ (∃ r, prngReg c r)) := by
  cases n with
  | zero => exact absurd rfl hz
  | succ n => rfl

/-- Whatever the position, the invariant holds the scratch buffers at SOME contents beside the rest. -/
theorem PhiT_any (c : Dev nD) (n : ℕ) (h : n ≤ cfg1.N) :
    PhiT V c n h ⊢ iprop(R10 c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  cases n with
  | zero => exact PhiA1_split c
  | succ n =>
    rw [PhiT_succ]
    iintro ⟨HR, HS0, HS1, HS2, Hg⟩
    isplitl [HR]; · iexact HR
    isplitl [HS0]; · iexists _; iexact HS0
    isplitl [HS1]; · iexists _; iexact HS1
    isplitl [HS2]; · iexists _; iexact HS2
    iexact Hg

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAfter V c t
  Φ t := PhiT V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiT_castSucc (c : Dev nD) (t : Fin cfg1.N) : (dat1 V c).Φ t.castSucc = PhiT V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAfter V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Region

end Cert.Kernel.Hand

end
-- ==== Proof.K.Reg1Body.lean ====
/-
  The attention kernel's body obligation: at every grid point, from the region's invariant and the windows' staging
  buffers at what they then hold, the body runs to the invariant at the next point and the buffers at what the proof
  data say it leaves.  An even point is the body's tile-0 case (the scratch may hold anything: it is reset before it
  is read; the output buffer is handed back untouched), an odd point its tile-1 case (the scratch holds what the even
  point before it left).
-/
import proofs.«154121_j11690900980356_2_alg».proof.Proof.K.Reg1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

theorem scAfter_pred (c : Dev nD) (t : Fin cfg1.N) (h1 : t.val % 2 = 1) (hlt : t.val - 1 < cfg1.N) :
    scAfter V c (t.val - 1) hlt = atA V c ⟨t.val - 1, hlt⟩ (by dsimp only; omega) := by
  unfold scAfter; rw [dif_pos (by omega)]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiT V c (t.val + 1) t.isLt from rfl, PhiT_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 32 := lt_of_lt_of_eq t.isLt (show cfg1.N = 32 from N_1)
  by_cases h0 : t.val % 2 = 0
  · have hcA0 : cond1_0 (grid1.coords t) := (hcond1_0 t).mpr h0
    have hcA1 : ¬cond1_1 (grid1.coords t) := fun h => by have h' := (hcond1_1 t).mp h; omega
    rw [Dat.leavesExact_idle (dat1 V c) 3 t (idleAt1_3_A t hcA0 hcA1) (noFlush1_3_A t hcA0 hcA1)]
    rw [scAfter_even V c t h0]
    unfold atA sout1_A_0 sout1_A_1 sout1_A_2; (try dsimp only)
    rw [PhiT_castSucc V c t]
    iintro ⟨HΦ, Ho, ⟨%d0, H0⟩, ⟨%d1, H1⟩, ⟨%d2, H2⟩, ⟨%d3, H3⟩⟩
    ihave HΦ' := (PhiT_any V c _ _) $$ HΦ
    icases HΦ' with ⟨HR, HS0, HS1, HS2, Hg⟩
    iapply ((kernelRun1_A c (grid1.coords t) _ _ _ _ _ _ _ _ _ _ _ _ _ _ hcA0 hcA1 (iblk1 V c 0 t) (iblk1 V c 1 t) (iblk1 V c 2 t)).2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%es0, HS0⟩, ⟨%es1, HS1⟩, ⟨%es2, HS2⟩⟩
    isplitl [HR HS0 HS1 HS2 Hg]
    · isplitl [HR]; · iexact HR
      isplitl [HS0]
      · unfold owns; iexists _; isplitr
        swap; · iexact HS0
        ipureintro; exact View.read_writes_of_cover _ _ _ _ _ (scover1_A_0 c _ _ _ _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _ _ _ _)
      isplitl [HS2]
      · unfold owns; iexists _; isplitr
        swap; · iexact HS2
        ipureintro; exact View.read_writes_of_cover _ _ _ _ _ (scover1_A_2 c _ _ _ _ _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · have h1 : t.val % 2 = 1 := by omega
    have hz : t.val ≠ 0 := by omega
    have hcB0 : ¬cond1_0 (grid1.coords t) := fun h => by have h' := (hcond1_0 t).mp h; omega
    have hcB1 : cond1_1 (grid1.coords t) := (hcond1_1 t).mpr h1
    rw [show (dat1 V c).leavesExact 3 t = owns (c : Thread nD τ) (ms1_3 t) fullShare ((dat1 V c).after 3 t) from by
      unfold Dat.leavesExact; rw [liveAt1_3_B t hcB0 hcB1], after1_3, outAfter_odd V c t h1]
    rw [scAfter_odd V c t h1]
    rw [PhiT_castSucc V c t, PhiT_pos V c _ _ hz, scAfter_pred V c t h1]
    unfold atB sout1_B_0 sout1_B_1 sout1_B_2 out1_B_3; (try dsimp only)
    iintro ⟨⟨HR, HS0, HS1, HS2, Hg⟩, Ho, ⟨%d0, H0⟩, ⟨%d1, H1⟩, ⟨%d2, H2⟩, ⟨%d3, H3⟩⟩
    iapply ((kernelRun1_B c (grid1.coords t) _ _ _ _ _ _ _ _ _ _ _ _ _ _ hcB0 hcB1 (iblk1 V c 0 t) (iblk1 V c 1 t) (iblk1 V c 2 t) _ _ _).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%es0, HS0⟩, ⟨%es1, HS1⟩, ⟨%es2, HS2⟩⟩
    isplitl [HR HS0 HS1 HS2 Hg]
    · isplitl [HR]; · iexact HR
      isplitl [HS0]
      · unfold owns; iexists _; isplitr
        swap; · iexact HS0
        ipureintro; exact View.read_writes_of_cover _ _ _ _ _ (scover1_B_0 c _ _ _ _ _ _ _ _ _ _ _ _ _ _ _ _ _ _ _ _ _ _ _)
      isplitl [HS1]
      · unfold owns; iexists _; isplitr
        swap; · iexact HS1
        ipureintro; exact View.read_writes_of_cover _ _ _ _ _ (scover1_B_1 c _ _ _ _ _ _ _ _ _ _ _ _ _ _ _ _ _ _ _ _ _ _ _)
      isplitl [HS2]
      · unfold owns; iexists _; isplitr
        swap; · iexact HS2
        ipureintro; exact View.read_writes_of_cover _ _ _ _ _ (scover1_B_2 c _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiT V c 0 (Nat.zero_le _) from rfl, PhiT_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiT V c (Fin.last cfg1.N).val (Nat.le_of_lt_succ (Fin.last cfg1.N).isLt) from rfl]
  exact (PhiT_any V c _ _).trans (PhiA1_join c)

end Region

end Cert.Kernel.Hand

end
-- ==== Proof.K.Run.lean ====
/-
  The whole program as a run: the host operations, then the projection kernel's region, then the attention kernel's
  region, each region entered from the buffer contents the item before it left.  The buffer contents at each boundary
  are a fold from the launch memory: after the host operations; after region 0 (its three output arrays at what its
  write-backs leave, everything else as entered); after region 1 (likewise for its one output array).  The run's
  post names every unscoped buffer at the last boundary's contents; the frame claim and the result array are read
  off it.
-/
import proofs.«154121_j11690900980356_2_alg».proof.Proof.K.Reg0
import proofs.«154121_j11690900980356_2_alg».proof.Proof.K.Reg1Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the host operations (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h1 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V2 m) c).trans h1
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh' (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final memory holds each unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.Kernel.Hand

end
-- ==== Proof.K.Frame.lean ====
/-
  The frame claim and the result array, read off the run: every argument array ends holding its launch contents
  (no host operation writes an argument, and a region's write-backs touch only its output arrays), and the result
  array ends holding what the attention region's write-backs leave.
-/
import proofs.«154121_j11690900980356_2_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- `main_arg0` ends as launched: no host operation writes it and no region's write-back touches it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.nary_writes, Finset.mem_singleton]
          repeat' apply And.intro
          all_goals exact StableHlo.devRef_ne_of_ne (by decide)))
    _ = m ((c : Thread nD τ).loc main_arg0) := rfl

/-- `main_arg1` ends as launched: no host operation writes it and no region's write-back touches it. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.nary_writes, Finset.mem_singleton]
          repeat' apply And.intro
          all_goals exact StableHlo.devRef_ne_of_ne (by decide)))
    _ = m ((c : Thread nD τ).loc main_arg1) := rfl

/-- `main_arg2` ends as launched: no host operation writes it and no region's write-back touches it. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.nary_writes, Finset.mem_singleton]
          repeat' apply And.intro
          all_goals exact StableHlo.devRef_ne_of_ne (by decide)))
    _ = m ((c : Thread nD τ).loc main_arg2) := rfl

/-- `main_arg3` ends as launched: no host operation writes it and no region's write-back touches it. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.nary_writes, Finset.mem_singleton]
          repeat' apply And.intro
          all_goals exact StableHlo.devRef_ne_of_ne (by decide)))
    _ = m ((c : Thread nD τ).loc main_arg3) := rfl

/-- `main_arg4` ends as launched: no host operation writes it and no region's write-back touches it. -/
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.nary_writes, Finset.mem_singleton]
          repeat' apply And.intro
          all_goals exact StableHlo.devRef_ne_of_ne (by decide)))
    _ = m ((c : Thread nD τ).loc main_arg4) := rfl

/-- `main_arg5` ends as launched: no host operation writes it and no region's write-back touches it. -/
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.nary_writes, Finset.mem_singleton]
          repeat' apply And.intro
          all_goals exact StableHlo.devRef_ne_of_ne (by decide)))
    _ = m ((c : Thread nD τ).loc main_arg5) := rfl

/-- `main_arg6` ends as launched: no host operation writes it and no region's write-back touches it. -/
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.nary_writes, Finset.mem_singleton]
          repeat' apply And.intro
          all_goals exact StableHlo.devRef_ne_of_ne (by decide)))
    _ = m ((c : Thread nD τ).loc main_arg6) := rfl

/-- THE FRAME, at any float instance. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W3_main_arg0 m c),
      (h c _ (mem_uc main_arg1 (by decide))).trans (W3_main_arg1 m c),
      (h c _ (mem_uc main_arg2 (by decide))).trans (W3_main_arg2 m c),
      (h c _ (mem_uc main_arg3 (by decide))).trans (W3_main_arg3 m c),
      (h c _ (mem_uc main_arg4 (by decide))).trans (W3_main_arg4 m c),
      (h c _ (mem_uc main_arg5 (by decide))).trans (W3_main_arg5 m c),
      (h c _ (mem_uc main_arg6 (by decide))).trans (W3_main_arg6 m c)⟩) (run_all m ρ)

/-- The run with the result array named: what the attention region's write-backs leave in it. -/
theorem run_result (ρ : Dev nD → PrngReg) : θ_run defs (onTc (τ := τ) (main (F := F))) ⟨m, fun _ => 0, ρ⟩ (fun r => ∀ c : Dev nD,
      r.2.mem ((c.tc : Thread nD τ).loc main_v9) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v9 (by decide))).trans (W3_arr m c 3),
      (h c _ (mem_uc main_arg0 (by decide))).trans (W3_main_arg0 m c),
      (h c _ (mem_uc main_arg1 (by decide))).trans (W3_main_arg1 m c),
      (h c _ (mem_uc main_arg2 (by decide))).trans (W3_main_arg2 m c),
      (h c _ (mem_uc main_arg3 (by decide))).trans (W3_main_arg3 m c),
      (h c _ (mem_uc main_arg4 (by decide))).trans (W3_main_arg4 m c),
      (h c _ (mem_uc main_arg5 (by decide))).trans (W3_main_arg5 m c),
      (h c _ (mem_uc main_arg6 (by decide))).trans (W3_main_arg6 m c)⟩) (run_all m ρ)

end Cert.Kernel.Hand

end
-- ==== Proof.KI.Reg0.lean ====
/- Region 0 of @main — custom_call 0, the fused q/k/v projection `cc0__qkv_kernel` (pipeline 0) — at a
   parameter `V`, the TensorCore's buffer contents when the region is entered: each window's block at a grid
   point, what the body leaves in each of the three output windows' staging buffers as a closed function of the
   three input blocks, the body's triple, the pipeline's proof data and the body obligation. -/
import proofs.«154121_j11690900980356_2_alg».proof.Proof.Gen.KernelIdeal.Launch
import proofs.«154121_j11690900980356_2_alg».proof.Proof.Gen.KernelIdeal.Skeleton
import proofs.«154121_j11690900980356_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the whole weight, fetched at the first point only: its block index never moves) likewise:
    where it is not fetched the buffer still holds the previous point's block, which is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (the whole bias, fetched at the first point only) likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev rX : Rect S1x256x1024 := Rect.unit (s := S1x256x1024) ![0, 0, 0] S1x256x1024.size inb_S1x256x1024_S1x256x1024_0_0_0
abbrev rW : Rect S1024x3072 := Rect.unit (s := S1024x3072) ![0, 0] S1024x3072.size inb_S1024x3072_S1024x3072_0_0
abbrev rB : Rect S3072 := Rect.unit (s := S3072) ![0] S3072.size inb_S3072_S3072_0

/-! ## What the body leaves in each output window's buffer -/

/-- Window 3's staging buffer (the q block) after the body, from the input windows' blocks: its one store. -/
def out0_3 (x0 : Vec F S1x256x1024 .f32) (x1 : Vec F S1024x3072 .bf16) (x2 : Vec F S3072 .f32) : Vec F S1x256x1024 .bf16 :=
  View.canon [⟨rX, k0_pay2 (View.ld x0 rX) (View.ld x1 rW) (View.ld x2 rB)⟩]
/-- Window 4's staging buffer (the k block) after the body. -/
def out0_4 (x0 : Vec F S1x256x1024 .f32) (x1 : Vec F S1024x3072 .bf16) (x2 : Vec F S3072 .f32) : Vec F S1x256x1024 .bf16 :=
  View.canon [⟨rX, k0_pay3 (View.ld x0 rX) (View.ld x1 rW) (View.ld x2 rB)⟩]
/-- Window 5's staging buffer (the v block) after the body. -/
def out0_5 (x0 : Vec F S1x256x1024 .f32) (x1 : Vec F S1024x3072 .bf16) (x2 : Vec F S3072 .f32) : Vec F S1x256x1024 .bf16 :=
  View.canon [⟨rX, k0_pay4 (View.ld x0 rX) (View.ld x1 rW) (View.ld x2 rB)⟩]

/-- A store of the whole buffer covers it. -/
theorem cover0 (p0 : Vec F S1x256x1024 .bf16) (y : S1x256x1024.Idx) :
    ∃ pc ∈ ([⟨rX, p0⟩] : List (View.Piece (Elt F) S1x256x1024 .bf16)), y ∈ pc.1.set :=
  View.cover_of_tiled [⟨rX, p0⟩] S1x256x1024.size (by rfl) y

/-! ## The body's triple -/

set_option maxHeartbeats 4000000 in
/-- The kernel body on whole staging memrefs, the inputs' at read contents `x0 x1 x2` and the outputs' at anything,
    runs to the continuation holding the inputs' as they were and each output's at `out0_W` of the inputs'. Each
    output buffer is loaded before it is stored, a load whose value nothing reads. -/
theorem sound_kernel0 (c : Dev nD) (E : Set ℕ) (i : grid0.Coords)
    (arg2 : Memref sig .tc .vmem S1x256x1024 .f32) (harg2 : arg2.IsWhole) (arg3 : Memref sig .tc .vmem S1024x3072 .bf16) (harg3 : arg3.IsWhole)
    (arg4 : Memref sig .tc .vmem S3072 .f32) (harg4 : arg4.IsWhole) (arg5 : Memref sig .tc .vmem S1x256x1024 .bf16) (harg5 : arg5.IsWhole)
    (arg6 : Memref sig .tc .vmem S1x256x1024 .bf16) (harg6 : arg6.IsWhole) (arg7 : Memref sig .tc .vmem S1x256x1024 .bf16) (harg7 : arg7.IsWhole)
    (x0 : Vec F S1x256x1024 .f32) (x1 : Vec F S1024x3072 .bf16) (x2 : Vec F S3072 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2) ∗ owns (c : Thread nD τ) arg6 fullShare (out0_4 x0 x1 x2)
            ∗ owns (c : Thread nD τ) arg7 fullShare (out0_5 x0 x1 x2)) -∗ K ⟨⟩))
      ⊢ wp frame (wpE (defs₀ (F := F)) Variants.none c none) E (cc0__qkv_kernel i arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## The pipeline's proof data -/

/-- The proof data of pipeline 0 on core `c`: the arrays as the region finds them (`V`); after the body at point
    `t` each input's buffer at its block and each output's at `out0_W` of the three input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- info: 'Cert.KernelIdeal.Hand.body_obligation0' depends on axioms: [propext, Classical.choice, Quot.sound] -/
#guard_msgs in #print axioms body_obligation0

end Cert.KernelIdeal.Hand

end
-- ==== Proof.KI.Reg1Conds.lean ====
/-
  The second kernel (attention over one query tile and one key/value tile, with the running maximum, normaliser and
  weighted sum kept in three scratch buffers between grid points): the two control cases of its body.
  The grid is 4 × 4 × 2; the last coordinate is the key/value tile.  At tile 0 the body first resets the three
  scratch buffers and stores nothing into the output; at tile 1 it reads them as the point before left them and
  stores the output tile.
-/
import proofs.«154121_j11690900980356_2_alg».proof.Proof.Gen.KernelIdeal.Launch
import proofs.«154121_j11690900980356_2_alg».proof.Proof.Gen.KernelIdeal.Skeleton
import proofs.«154121_j11690900980356_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch (the reset of the scratch buffers) is taken when the key/value tile is 0. -/
abbrev cond1_0 (i : grid1.Coords) : Prop := (Scalar.cmpi .ne (Scalar.extui (Scalar.cmpi .eq (BitVec.ofNat 32 (i 2).val) 0#32)) 0#32) = 1#1
/-- Those are the even points of the row-major grid. -/
theorem hcond1_0 : ∀ t : Fin cfg1.N, cond1_0 (grid1.coords t) ↔ t.val % 2 = 0 :=
  (by decide +kernel : ∀ t : Fin grid1.N, cond1_0 (grid1.coords t) ↔ t.val % 2 = 0)

/-- The body's second branch (the division and the output store) is taken when the key/value tile is 1. -/
abbrev cond1_1 (i : grid1.Coords) : Prop := k1_cond2 i = 1#1
/-- Those are the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-- The inputs are never idle; the output is idle, and not written back, exactly at the even points. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem liveAt1_3_B : ∀ t : Fin cfg1.N, ¬cond1_0 (grid1.coords t) → cond1_1 (grid1.coords t) → cfg1.idle 3 (grid1.coords t) = false := by decide +kernel

/-- The staging memrefs the pipeline passes at a point, and the three scratch buffers as memrefs and views. -/
abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .f32 := win1_3.stage (cfg1.slots t 3)
abbrev hs1_3 (t : Fin cfg1.N) : (ms1_3 t).IsWhole := hstage1_3 ((cfg1.slots t 3).cast nbuf1_3)
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
abbrev VS1_0 : View sig .tc .vmem S512x1 .f32 := scM1_0.view
abbrev VS1_1 : View sig .tc .vmem S512x1 .f32 := scM1_1.view
abbrev VS1_2 : View sig .tc .vmem S512x1024 .f32 := scM1_2.view
abbrev VO1_3 : View sig .tc .vmem S1x512x1024 .f32 := (Memref.whole cc1_stg3_0 : Memref sig .tc .vmem S1x512x1024 .f32).view

end Cert.KernelIdeal.Hand

end
-- ==== Proof.KI.Reg1RunA.lean ====
/-
  The attention kernel's body at a point of key/value tile 0 (the scratch buffers reset first, no output store),
  run on whole staging memrefs: what it leaves in the three scratch buffers, as the pieces its stores wrote.
-/
import proofs.«154121_j11690900980356_2_alg».proof.Proof.KI.Reg1Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At key/value tile 0 the body, on whole memrefs — the three inputs at their contents, the output at contents it
    hands back untouched, the scratch buffers at anything — runs to the continuation with the inputs and the output
    as they were and each scratch buffer with its stores written. -/
noncomputable def kernelRun1_A (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i)
    (x0 : Vec F S1x512x1024 .bf16) (x1 : Vec F S1x1024x1024 .bf16) (x2 : Vec F S1x1024x1024 .bf16) :
    Σ' (LS0 : List (View.Piece (Elt F) S512x1 .f32)) (LS1 : List (View.Piece (Elt F) S512x1 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.Reg1RunB.lean ====
/-
  The attention kernel's body at a point of key/value tile 1 (no reset; the division and the output store at the
  end), run on whole staging memrefs with the scratch buffers at the contents the point before left: what it leaves
  in the output buffer and in the three scratch buffers, as the pieces its stores wrote.
-/
import proofs.«154121_j11690900980356_2_alg».proof.Proof.KI.Reg1Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At key/value tile 1 the body, on whole memrefs — the three inputs at their contents, the output at anything,
    the scratch buffers at named contents — runs to the continuation with the inputs as they were and the output and
    each scratch buffer with its stores written. -/
noncomputable def kernelRun1_B (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x1024x1024 .bf16) (x2 : Vec F S1x1024x1024 .bf16)
    (xs0 : Vec F S512x1 .f32) (xs1 : Vec F S512x1 .f32) (xs2 : Vec F S512x1024 .f32) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.Reg1.lean ====
/-
  The attention kernel as a pipeline region: what its three scratch buffers and its output buffer hold after each
  grid point, the region's invariant, the proof data and the body obligation — at a parameter `V`, the buffer
  contents when the region is entered, and at any float instance.
  The grid's points come in pairs (key/value tile 0, then tile 1, of one query tile): at the even point the body
  resets the scratch and folds the first key/value tile in; at the odd point it folds the second in, reading the
  scratch as the even point left it, and stores the output tile.
-/
import proofs.«154121_j11690900980356_2_alg».proof.Proof.KI.Reg1RunA
import proofs.«154121_j11690900980356_2_alg».proof.Proof.KI.Reg1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At tile 0 the stores into scratch buffer 0 tile it, so they cover it. -/
theorem scover1_A_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S1x512x1024 .bf16) (x1 : Vec F S1x1024x1024 .bf16) (x2 : Vec F S1x1024x1024 .bf16) (y : S512x1.Idx) :
    ∃ pc ∈ (kernelRun1_A c i arg3 harg3 arg4 harg4 arg5 harg5 arg6 harg6 arg7 harg7 arg8 harg8 arg9 harg9 hc0 hc1 x0 x1 x2).1, y ∈ pc.1.set :=
  View.cover_of_tiledL (kernelRun1_A c i arg3 harg3 arg4 harg4 arg5 harg5 arg6 harg6 arg7 harg7 arg8 harg8 arg9 harg9 hc0 hc1 x0 x1 x2).1 S512x1.size (by sl_kernel_rfl) y
/-- What the body leaves in scratch buffer 0 at tile 0: its stores read back. -/
def sout1_A_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S1x512x1024 .bf16) (x1 : Vec F S1x1024x1024 .bf16) (x2 : Vec F S1x1024x1024 .bf16) : Vec F S512x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).1)
/-- At tile 1 the stores into scratch buffer 0 tile it, so they cover it. -/
theorem scover1_B_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) (y : S512x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S512x1.size (by sl_kernel_rfl) y
/-- What the body leaves in scratch buffer 0 at tile 1: its stores read back. -/
def sout1_B_0 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) : Vec F S512x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

/-- At tile 0 the stores into scratch buffer 1 tile it, so they cover it. -/
theorem scover1_A_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S1x512x1024 .bf16) (x1 : Vec F S1x1024x1024 .bf16) (x2 : Vec F S1x1024x1024 .bf16) (y : S512x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S512x1.size (by sl_kernel_rfl) y
/-- What the body leaves in scratch buffer 1 at tile 0: its stores read back. -/
def sout1_A_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S1x512x1024 .bf16) (x1 : Vec F S1x1024x1024 .bf16) (x2 : Vec F S1x1024x1024 .bf16) : Vec F S512x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.1)
/-- At tile 1 the stores into scratch buffer 1 tile it, so they cover it. -/
theorem scover1_B_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) (y : S512x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S512x1.size (by sl_kernel_rfl) y
/-- What the body leaves in scratch buffer 1 at tile 1: its stores read back. -/
def sout1_B_1 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) : Vec F S512x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

/-- At tile 0 the stores into scratch buffer 2 tile it, so they cover it. -/
theorem scover1_A_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S1x512x1024 .bf16) (x1 : Vec F S1x1024x1024 .bf16) (x2 : Vec F S1x1024x1024 .bf16) (y : S512x1024.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S512x1024.size (by sl_kernel_rfl) y
/-- What the body leaves in scratch buffer 2 at tile 0: its stores read back. -/
def sout1_A_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S1x512x1024 .bf16) (x1 : Vec F S1x1024x1024 .bf16) (x2 : Vec F S1x1024x1024 .bf16) : Vec F S512x1024 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.1)
/-- At tile 1 the stores into scratch buffer 2 tile it, so they cover it. -/
theorem scover1_B_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) (y : S512x1024.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S512x1024.size (by sl_kernel_rfl) y
/-- What the body leaves in scratch buffer 2 at tile 1: its stores read back. -/
def sout1_B_2 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) : Vec F S512x1024 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

/-- At tile 1 the one store into the output buffer covers it. -/
theorem cover1_B_3 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) (y : S1x512x1024.Idx) :
    ∃ pc ∈ (kernelRun1_B c i arg3 harg3 arg4 harg4 arg5 harg5 arg6 harg6 arg7 harg7 arg8 harg8 arg9 harg9 hc0 hc1 x0 x1 x2 xs0 xs1 xs2).1, y ∈ pc.1.set :=
  View.cover_of_tiledL (kernelRun1_B c i arg3 harg3 arg4 harg4 arg5 harg5 arg6 harg6 arg7 harg7 arg8 harg8 arg9 harg9 hc0 hc1 x0 x1 x2 xs0 xs1 xs2).1 S1x512x1024.size (by sl_kernel_rfl) y
/-- What the body leaves in the output buffer at tile 1: its store read back. -/
def out1_B_3 (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) : Vec F S1x512x1024 .f32 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The scratch triple (running maximum, normaliser, weighted sum). -/
abbrev Trip (F : FTy → Type) [FloatOps F] : Type := Vec F S512x1 .f32 × Vec F S512x1 .f32 × Vec F S512x1024 .f32

/-- The scratch after an even point: the body's tile-0 case on the point's blocks. -/
def atA (c : Dev nD) (t : Fin cfg1.N) (h0 : t.val % 2 = 0) : Trip F :=
  (sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => by have h' := (hcond1_1 t).mp h; omega) (iblk1 V c 0 t) (iblk1 V c 1 t) (iblk1 V c 2 t),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => by have h' := (hcond1_1 t).mp h; omega) (iblk1 V c 0 t) (iblk1 V c 1 t) (iblk1 V c 2 t),
   sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => by have h' := (hcond1_1 t).mp h; omega) (iblk1 V c 0 t) (iblk1 V c 1 t) (iblk1 V c 2 t))

/-- The scratch after an odd point, from the scratch `p` before it: the body's tile-1 case. -/
def atB (c : Dev nD) (t : Fin cfg1.N) (h1 : t.val % 2 = 1) (p : Trip F) : Trip F :=
  (sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have h' := (hcond1_0 t).mp h; omega) ((hcond1_1 t).mpr h1) (iblk1 V c 0 t) (iblk1 V c 1 t) (iblk1 V c 2 t) p.1 p.2.1 p.2.2,
   sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have h' := (hcond1_0 t).mp h; omega) ((hcond1_1 t).mpr h1) (iblk1 V c 0 t) (iblk1 V c 1 t) (iblk1 V c 2 t) p.1 p.2.1 p.2.2,
   sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have h' := (hcond1_0 t).mp h; omega) ((hcond1_1 t).mpr h1) (iblk1 V c 0 t) (iblk1 V c 1 t) (iblk1 V c 2 t) p.1 p.2.1 p.2.2)

/-- The scratch after position `n`: an even point starts afresh, an odd one continues its even predecessor. -/
def scAfter (c : Dev nD) (n : ℕ) (hn : n < cfg1.N) : Trip F :=
  if h0 : n % 2 = 0 then atA V c ⟨n, hn⟩ h0
  else atB V c ⟨n, hn⟩ (by dsimp only; omega) (atA V c ⟨n - 1, by omega⟩ (by dsimp only; omega))

theorem scAfter_even (c : Dev nD) (t : Fin cfg1.N) (h0 : t.val % 2 = 0) : scAfter V c t.val t.isLt = atA V c t h0 := by
  unfold scAfter; rw [dif_pos h0]
theorem scAfter_odd (c : Dev nD) (t : Fin cfg1.N) (h1 : t.val % 2 = 1) :
    scAfter V c t.val t.isLt = atB V c t h1 (atA V c ⟨t.val - 1, by omega⟩ (by dsimp only; omega)) := by
  unfold scAfter; rw [dif_neg (by omega)]

/-- The output buffer after point `t`: at an odd point the tile-1 case's store over the even predecessor's scratch;
    at an even point nothing is stored and nothing reads this value. -/
def outAfter (c : Dev nD) (t : Fin cfg1.N) : Vec F S1x512x1024 .f32 :=
  if h1 : t.val % 2 = 1 then
    out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have h' := (hcond1_0 t).mp h; omega) ((hcond1_1 t).mpr h1) (iblk1 V c 0 t) (iblk1 V c 1 t) (iblk1 V c 2 t)
      (atA V c ⟨t.val - 1, by omega⟩ (by dsimp only; omega)).1 (atA V c ⟨t.val - 1, by omega⟩ (by dsimp only; omega)).2.1 (atA V c ⟨t.val - 1, by omega⟩ (by dsimp only; omega)).2.2
  else VO1_3.read (Elt F) (VO1_3.writes (Elt F) VO1_3.junk [])

theorem outAfter_odd (c : Dev nD) (t : Fin cfg1.N) (h1 : t.val % 2 = 1) :
    outAfter V c t = out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have h' := (hcond1_0 t).mp h; omega) ((hcond1_1 t).mpr h1) (iblk1 V c 0 t) (iblk1 V c 1 t) (iblk1 V c 2 t)
      (atA V c ⟨t.val - 1, by omega⟩ (by dsimp only; omega)).1 (atA V c ⟨t.val - 1, by omega⟩ (by dsimp only; omega)).2.1 (atA V c ⟨t.val - 1, by omega⟩ (by dsimp only; omega)).2.2 := by
  unfold outAfter; rw [dif_pos h1]

/-! ## The region's invariant -/

/-- The scoped buffers that are neither this region's staging buffers nor its scratch: the first kernel's staging buffers, at anything. -/
def R10 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The class invariant of this region spelt out: those ten, the three scratch buffers at anything, the generator register. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

theorem PhiA1_split (c : Dev nD) :
    (Pipeline.ΦA spec1 c : sProp 𝕄) ⊢ iprop(R10 c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  rw [PhiA1_eq]; unfold R10
  iintro ⟨⟨H0, H1, H2, H3, H4, H5, H6, H7, H8, H9, HS0, HS1, HS2⟩, Hg⟩
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [HS0]; · iexact HS0
  isplitl [HS1]; · iexact HS1
  isplitl [HS2]; · iexact HS2
  iexact Hg

theorem PhiA1_join (c : Dev nD) :
    iprop(R10 c ∗ (∃ d, owns (c : Thread nD τ) scM1_0 fullShare d) ∗ (∃ d, owns (c : Thread nD τ) scM1_1 fullShare d) ∗ (∃ d, owns (c : Thread nD τ) scM1_2 fullShare d) ∗ (∃ r, prngReg c r)) ⊢ (Pipeline.ΦA spec1 c : sProp 𝕄) := by
  rw [PhiA1_eq]; unfold R10
  iintro ⟨⟨H0, H1, H2, H3, H4, H5, H6, H7, H8, H9⟩, HS0, HS1, HS2, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    iexact HS2
  iexact Hg

/-- The invariant before position `n`: before the first point the class's; afterwards the scratch buffers at what the
    point before left in them. -/
def PhiT (c : Dev nD) : (n : ℕ) → n ≤ cfg1.N → sProp 𝕄
  | 0, _ => Pipeline.ΦA spec1 c
  | n + 1, hn => iprop(R10 c ∗ owns (c : Thread nD τ) scM1_0 fullShare (scAfter V c n hn).1 ∗ owns (c : Thread nD τ) scM1_1 fullShare (scAfter V c n hn).2.1
      ∗ owns (c : Thread nD τ) scM1_2 fullShare (scAfter V c n hn).2.2 ∗ (∃ r, prngReg c r))

theorem PhiT_zero (c : Dev nD) (n : ℕ) (h : n ≤ cfg1.N) (hz : n = 0) : PhiT V c n h = Pipeline.ΦA spec1 c := by
  subst hz; rfl
theorem PhiT_succ (c : Dev nD) (n : ℕ) (hn : n < cfg1.N) :
    PhiT V c (n + 1) hn = iprop(R10 c ∗ owns (c : Thread nD τ) scM1_0 fullShare (scAfter V c n hn).1 ∗ owns (c : Thread nD τ) scM1_1 fullShare (scAfter V c n hn).2.1
      ∗ owns (c : Thread nD τ) scM1_2 fullShare (scAfter V c n hn).2.2 ∗ (∃ r, prngReg c r)) := rfl
theorem PhiT_pos (c : Dev nD) (n : ℕ) (h : n ≤ cfg1.N) (hz : n ≠ 0) :
    PhiT V c n h = iprop(R10 c ∗ owns (c : Thread nD τ) scM1_0 fullShare (scAfter V c (n - 1) (by omega)).1 ∗ owns (c : Thread nD τ) scM1_1 fullShare (scAfter V c (n - 1) (by omega)).2.1
      ∗ owns (c : Thread nD τ) scM1_2 fullShare (scAfter V c (n - 1) (by omega)).2.2 ∗ (∃ r, prngReg c r)) := by
  cases n with
  | zero => exact absurd rfl hz
  | succ n => rfl

/-- Whatever the position, the invariant holds the scratch buffers at SOME contents beside the rest. -/
theorem PhiT_any (c : Dev nD) (n : ℕ) (h : n ≤ cfg1.N) :
    PhiT V c n h ⊢ iprop(R10 c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  cases n with
  | zero => exact PhiA1_split c
  | succ n =>
    rw [PhiT_succ]
    iintro ⟨HR, HS0, HS1, HS2, Hg⟩
    isplitl [HR]; · iexact HR
    isplitl [HS0]; · iexists _; iexact HS0
    isplitl [HS1]; · iexists _; iexact HS1
    isplitl [HS2]; · iexists _; iexact HS2
    iexact Hg

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAfter V c t
  Φ t := PhiT V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiT_castSucc (c : Dev nD) (t : Fin cfg1.N) : (dat1 V c).Φ t.castSucc = PhiT V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAfter V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Region

end Cert.KernelIdeal.Hand

end
-- ==== Proof.KI.Reg1Body.lean ====
/-
  The attention kernel's body obligation: at every grid point, from the region's invariant and the windows' staging
  buffers at what they then hold, the body runs to the invariant at the next point and the buffers at what the proof
  data say it leaves.  An even point is the body's tile-0 case (the scratch may hold anything: it is reset before it
  is read; the output buffer is handed back untouched), an odd point its tile-1 case (the scratch holds what the even
  point before it left).
-/
import proofs.«154121_j11690900980356_2_alg».proof.Proof.KI.Reg1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

theorem scAfter_pred (c : Dev nD) (t : Fin cfg1.N) (h1 : t.val % 2 = 1) (hlt : t.val - 1 < cfg1.N) :
    scAfter V c (t.val - 1) hlt = atA V c ⟨t.val - 1, hlt⟩ (by dsimp only; omega) := by
  unfold scAfter; rw [dif_pos (by omega)]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiT V c (t.val + 1) t.isLt from rfl, PhiT_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 32 := lt_of_lt_of_eq t.isLt (show cfg1.N = 32 from N_1)
  by_cases h0 : t.val % 2 = 0
  · have hcA0 : cond1_0 (grid1.coords t) := (hcond1_0 t).mpr h0
    have hcA1 : ¬cond1_1 (grid1.coords t) := fun h => by have h' := (hcond1_1 t).mp h; omega
    rw [Dat.leavesExact_idle (dat1 V c) 3 t (idleAt1_3_A t hcA0 hcA1) (noFlush1_3_A t hcA0 hcA1)]
    rw [scAfter_even V c t h0]
    unfold atA sout1_A_0 sout1_A_1 sout1_A_2; (try dsimp only)
    rw [PhiT_castSucc V c t]
    iintro ⟨HΦ, Ho, ⟨%d0, H0⟩, ⟨%d1, H1⟩, ⟨%d2, H2⟩, ⟨%d3, H3⟩⟩
    ihave HΦ' := (PhiT_any V c _ _) $$ HΦ
    icases HΦ' with ⟨HR, HS0, HS1, HS2, Hg⟩
    iapply ((kernelRun1_A c (grid1.coords t) _ _ _ _ _ _ _ _ _ _ _ _ _ _ hcA0 hcA1 (iblk1 V c 0 t) (iblk1 V c 1 t) (iblk1 V c 2 t)).2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%es0, HS0⟩, ⟨%es1, HS1⟩, ⟨%es2, HS2⟩⟩
    isplitl [HR HS0 HS1 HS2 Hg]
    · isplitl [HR]; · iexact HR
      isplitl [HS0]
      · unfold owns; iexists _; isplitr
        swap; · iexact HS0
        ipureintro; exact View.read_writes_of_cover _ _ _ _ _ (scover1_A_0 c _ _ _ _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _ _ _ _)
      isplitl [HS2]
      · unfold owns; iexists _; isplitr
        swap; · iexact HS2
        ipureintro; exact View.read_writes_of_cover _ _ _ _ _ (scover1_A_2 c _ _ _ _ _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · have h1 : t.val % 2 = 1 := by omega
    have hz : t.val ≠ 0 := by omega
    have hcB0 : ¬cond1_0 (grid1.coords t) := fun h => by have h' := (hcond1_0 t).mp h; omega
    have hcB1 : cond1_1 (grid1.coords t) := (hcond1_1 t).mpr h1
    rw [show (dat1 V c).leavesExact 3 t = owns (c : Thread nD τ) (ms1_3 t) fullShare ((dat1 V c).after 3 t) from by
      unfold Dat.leavesExact; rw [liveAt1_3_B t hcB0 hcB1], after1_3, outAfter_odd V c t h1]
    rw [scAfter_odd V c t h1]
    rw [PhiT_castSucc V c t, PhiT_pos V c _ _ hz, scAfter_pred V c t h1]
    unfold atB sout1_B_0 sout1_B_1 sout1_B_2 out1_B_3; (try dsimp only)
    iintro ⟨⟨HR, HS0, HS1, HS2, Hg⟩, Ho, ⟨%d0, H0⟩, ⟨%d1, H1⟩, ⟨%d2, H2⟩, ⟨%d3, H3⟩⟩
    iapply ((kernelRun1_B c (grid1.coords t) _ _ _ _ _ _ _ _ _ _ _ _ _ _ hcB0 hcB1 (iblk1 V c 0 t) (iblk1 V c 1 t) (iblk1 V c 2 t) _ _ _).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%es0, HS0⟩, ⟨%es1, HS1⟩, ⟨%es2, HS2⟩⟩
    isplitl [HR HS0 HS1 HS2 Hg]
    · isplitl [HR]; · iexact HR
      isplitl [HS0]
      · unfold owns; iexists _; isplitr
        swap; · iexact HS0
        ipureintro; exact View.read_writes_of_cover _ _ _ _ _ (scover1_B_0 c _ _ _ _ _ _ _ _ _ _ _ _ _ _ _ _ _ _ _ _ _ _ _)
      isplitl [HS1]
      · unfold owns; iexists _; isplitr
        swap; · iexact HS1
        ipureintro; exact View.read_writes_of_cover _ _ _ _ _ (scover1_B_1 c _ _ _ _ _ _ _ _ _ _ _ _ _ _ _ _ _ _ _ _ _ _ _)
      isplitl [HS2]
      · unfold owns; iexists _; isplitr
        swap; · iexact HS2
        ipureintro; exact View.read_writes_of_cover _ _ _ _ _ (scover1_B_2 c _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiT V c 0 (Nat.zero_le _) from rfl, PhiT_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiT V c (Fin.last cfg1.N).val (Nat.le_of_lt_succ (Fin.last cfg1.N).isLt) from rfl]
  exact (PhiT_any V c _ _).trans (PhiA1_join c)

end Region

end Cert.KernelIdeal.Hand

end
-- ==== Proof.KI.Run.lean ====
/-
  The whole program as a run: the host operations, then the projection kernel's region, then the attention kernel's
  region, each region entered from the buffer contents the item before it left.  The buffer contents at each boundary
  are a fold from the launch memory: after the host operations; after region 0 (its three output arrays at what its
  write-backs leave, everything else as entered); after region 1 (likewise for its one output array).  The run's
  post names every unscoped buffer at the last boundary's contents; the frame claim and the result array are read
  off it.
-/
import proofs.«154121_j11690900980356_2_alg».proof.Proof.KI.Reg0
import proofs.«154121_j11690900980356_2_alg».proof.Proof.KI.Reg1Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the host operations (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h1 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V2 m) c).trans h1
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh' (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final memory holds each unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.KernelIdeal.Hand

end
-- ==== Proof.KI.Frame.lean ====
/-
  The frame claim and the result array, read off the run: every argument array ends holding its launch contents
  (no host operation writes an argument, and a region's write-backs touch only its output arrays), and the result
  array ends holding what the attention region's write-backs leave.
-/
import proofs.«154121_j11690900980356_2_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- `main_arg0` ends as launched: no host operation writes it and no region's write-back touches it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.nary_writes, Finset.mem_singleton]
          repeat' apply And.intro
          all_goals exact StableHlo.devRef_ne_of_ne (by decide)))
    _ = m ((c : Thread nD τ).loc main_arg0) := rfl

/-- `main_arg1` ends as launched: no host operation writes it and no region's write-back touches it. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.nary_writes, Finset.mem_singleton]
          repeat' apply And.intro
          all_goals exact StableHlo.devRef_ne_of_ne (by decide)))
    _ = m ((c : Thread nD τ).loc main_arg1) := rfl

/-- `main_arg2` ends as launched: no host operation writes it and no region's write-back touches it. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.nary_writes, Finset.mem_singleton]
          repeat' apply And.intro
          all_goals exact StableHlo.devRef_ne_of_ne (by decide)))
    _ = m ((c : Thread nD τ).loc main_arg2) := rfl

/-- `main_arg3` ends as launched: no host operation writes it and no region's write-back touches it. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.nary_writes, Finset.mem_singleton]
          repeat' apply And.intro
          all_goals exact StableHlo.devRef_ne_of_ne (by decide)))
    _ = m ((c : Thread nD τ).loc main_arg3) := rfl

/-- `main_arg4` ends as launched: no host operation writes it and no region's write-back touches it. -/
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.nary_writes, Finset.mem_singleton]
          repeat' apply And.intro
          all_goals exact StableHlo.devRef_ne_of_ne (by decide)))
    _ = m ((c : Thread nD τ).loc main_arg4) := rfl

/-- `main_arg5` ends as launched: no host operation writes it and no region's write-back touches it. -/
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.nary_writes, Finset.mem_singleton]
          repeat' apply And.intro
          all_goals exact StableHlo.devRef_ne_of_ne (by decide)))
    _ = m ((c : Thread nD τ).loc main_arg5) := rfl

/-- `main_arg6` ends as launched: no host operation writes it and no region's write-back touches it. -/
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.nary_writes, Finset.mem_singleton]
          repeat' apply And.intro
          all_goals exact StableHlo.devRef_ne_of_ne (by decide)))
    _ = m ((c : Thread nD τ).loc main_arg6) := rfl

/-- THE FRAME, at any float instance. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W3_main_arg0 m c),
      (h c _ (mem_uc main_arg1 (by decide))).trans (W3_main_arg1 m c),
      (h c _ (mem_uc main_arg2 (by decide))).trans (W3_main_arg2 m c),
      (h c _ (mem_uc main_arg3 (by decide))).trans (W3_main_arg3 m c),
      (h c _ (mem_uc main_arg4 (by decide))).trans (W3_main_arg4 m c),
      (h c _ (mem_uc main_arg5 (by decide))).trans (W3_main_arg5 m c),
      (h c _ (mem_uc main_arg6 (by decide))).trans (W3_main_arg6 m c)⟩) (run_all m ρ)

/-- The run with the result array named: what the attention region's write-backs leave in it. -/
theorem run_result (ρ : Dev nD → PrngReg) : θ_run defs (onTc (τ := τ) (main (F := F))) ⟨m, fun _ => 0, ρ⟩ (fun r => ∀ c : Dev nD,
      r.2.mem ((c.tc : Thread nD τ).loc main_v9) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v9 (by decide))).trans (W3_arr m c 3),
      (h c _ (mem_uc main_arg0 (by decide))).trans (W3_main_arg0 m c),
      (h c _ (mem_uc main_arg1 (by decide))).trans (W3_main_arg1 m c),
      (h c _ (mem_uc main_arg2 (by decide))).trans (W3_main_arg2 m c),
      (h c _ (mem_uc main_arg3 (by decide))).trans (W3_main_arg3 m c),
      (h c _ (mem_uc main_arg4 (by decide))).trans (W3_main_arg4 m c),
      (h c _ (mem_uc main_arg5 (by decide))).trans (W3_main_arg5 m c),
      (h c _ (mem_uc main_arg6 (by decide))).trans (W3_main_arg6 m c)⟩) (run_all m ρ)

end Cert.KernelIdeal.Hand

end
-- ==== Proof.Spec.lean ====
/-
  The mathematical content of the certificate, free of any program.

  Single-head scaled dot-product attention over three linear projections.  For a batch entry `n`, a query
  row `i` and an output column `d`:

      q n i e = (∑ t, x n i t · Wq e t) + bq e          (likewise k, v)
      S n i j = (∑ e, q n i e · k n j e) · c             (the scaled scores, 2048 of them per row)
      out n i d = ∑ j, (exp (S j − M) / L) · v n j d,     M = max_j S j,   L = ∑ j, exp (S j − M)

  (`attnRow`: the softmax-weighted sum, as the reference computes it.)  The kernel computes the same row in two
  halves of 1024 keys with a running maximum `m`, a running normaliser `l` and a running weighted sum `acc`,
  each rescaled by `exp (m_old − m_new)` when the maximum moves, and divides once at the end
  (`onlineStep`, `onlineRow`).  All arithmetic is that of the extended reals with the conventions of the ideal
  float instance: `Ideal.exp ⊥ = 0`, `Ideal.div`.
-/
import Idealize.ShloMosaic.PureOps.Ideal
import Idealize.ShloMosaic.Lib.ValueIdx

noncomputable section

open scoped BigOperators

namespace Cert.Attn

open Idealize.ShloMosaic Idealize.ShloMosaic.ValueIdx

/-- The activations' shape `[4, 2048, 1024]`, a weight's `[1024, 1024]`, a bias's `[1024]`. -/
abbrev SX : Shape := ⟨3, ![4, 2048, 1024]⟩
abbrev SW : Shape := ⟨2, ![1024, 1024]⟩
abbrev SB : Shape := ⟨1, ![1024]⟩

/-- One linear projection `x · Wᵀ + b` at batch entry `n`, row `s`, output feature `e`. -/
def proj (x : SX.Idx → EReal) (W : SW.Idx → EReal) (b : SB.Idx → EReal) (n : Fin 4) (s : Fin 2048) (e : Fin 1024) : EReal :=
  (∑ t : Fin 1024, x (ix3 n s t) * W (ix2 e t)) + b (ix1 e)

/-- The scaled score of query row `i` against key row `j`: the dot product of the two projected rows times `c`. -/
def score (q k : Fin 2048 → Fin 1024 → EReal) (c : EReal) (i j : Fin 2048) : EReal :=
  (∑ e : Fin 1024, q i e * k j e) * c

/-- The maximum of finitely many extended reals, from `⊥`. -/
def vmax {n : Nat} (S : Fin n → EReal) : EReal := (Finset.univ : Finset (Fin n)).fold max ⊥ S

/-- One row of softmax attention: the scores `S` of the row against all keys, one column `v` of the values. -/
def attnRow {n : Nat} (S v : Fin n → EReal) : EReal :=
  ∑ j : Fin n, Ideal.div (Ideal.exp (S j - vmax S)) (∑ j' : Fin n, Ideal.exp (S j' - vmax S)) * v j

/-- One step of the running form over a block of `n` keys: from the running maximum `m`, normaliser `l` and
    weighted sum `acc` to the new ones. -/
def onlineStep {n : Nat} (mla : EReal × EReal × EReal) (S v : Fin n → EReal) : EReal × EReal × EReal :=
  let m' := max mla.1 (vmax S)
  (m', Ideal.exp (mla.1 - m') * mla.2.1 + ∑ j : Fin n, Ideal.exp (S j - m'),
    Ideal.exp (mla.1 - m') * mla.2.2 + ∑ j : Fin n, Ideal.exp (S j - m') * v j)

/-- The running form over two blocks of 1024 keys, from `(⊥, 0, 0)`, divided once at the end. -/
def onlineRow (S0 S1 v0 v1 : Fin 1024 → EReal) : EReal :=
  let r := onlineStep (onlineStep (⊥, 0, 0) S0 v0) S1 v1
  r.2.2 * Ideal.div 1 r.2.1

/-- The first and second half of the 2048 keys. -/
def lo (j : Fin 1024) : Fin 2048 := ⟨j.val, by omega⟩
def hi (j : Fin 1024) : Fin 2048 := ⟨1024 + j.val, by omega⟩

/-- The whole function the two programs compute: attention of the three projections, at scale `c`. -/
def attn (c : EReal) (x : SX.Idx → EReal) (Wq : SW.Idx → EReal) (bq : SB.Idx → EReal) (Wk : SW.Idx → EReal) (bk : SB.Idx → EReal)
    (Wv : SW.Idx → EReal) (bv : SB.Idx → EReal) : SX.Idx → EReal := fun i =>
  attnRow (fun j : Fin 2048 => score (proj x Wq bq (i 0)) (proj x Wk bk (i 0)) c (i 1) j)
    (fun j : Fin 2048 => proj x Wv bv (i 0) j (i 2))

end Cert.Attn

end
-- ==== Proof.RefValue.lean ====
/-
  The reference program computes single-head scaled dot-product attention over three linear projections, and this
  module reads its result off index by index.

  The reference is a straight line of array operations: three products of the activations with a weight matrix
  plus a bias broadcast along the first two axes (the projections `q`, `k`, `v`); the scalar
  `1 / sqrt 1024`; the batched product of `q` with `k` over the feature axis, times that scalar broadcast to every
  entry (the scaled scores, 2048 per query row); then a softmax along the key axis — the row's maximum (a fold of
  `max` from `-∞`, once more capped below by `-∞`, which changes nothing), the scores minus it, the exponential,
  the row's sum from `0`, the quotient — and the batched product of those weights with `v` over the key axis.

  At the ideal values every one of these is the textbook operation on the extended reals, so the result at batch entry `n`,
  query row `s` and column `d` is, term for term, the specification's `attnRow` of the row's scores and the column of
  `v`. Nothing is rearranged: the only laws used are `0 + a = a` (the sum's initial value) and `max ⊥ a = a`
  (the cap), together with the identification of each operation's operand index with the coordinates `(n, s, ·)`.
  The scores' array is never expanded: every step is a statement about one symbolic entry.
-/
import proofs.«154121_j11690900980356_2_alg».proof.Defs
import proofs.«154121_j11690900980356_2_alg».proof.Proof.Gen.Pre_finite_inputs
import proofs.«154121_j11690900980356_2_alg».proof.Proof.Gen.ReferenceIdeal.Read
import proofs.«154121_j11690900980356_2_alg».proof.Proof.Spec

noncomputable section

open scoped BigOperators
open Idealize.ShloMosaic Idealize.ShloMosaic.TcCoe Idealize.SL.Sem

namespace Cert.ReferenceIdeal.RefValue

open Cert.ReferenceIdeal Cert.ReferenceIdeal.Gen Cert.ReferenceIdeal.Read Cert.Attn Idealize.ShloMosaic.ValueIdx

/-- the reference's scale: 1 / sqrt 1024, as the program computes it -/
def cref : EReal := Ideal.div (Ideal.ofBits .f32 0x3F800000#32) (Ideal.sqrt (Ideal.ofBits .f32 0x44800000#32))

variable (x : SX.Idx → EReal) (Wq : SW.Idx → EReal) (bq : SB.Idx → EReal) (Wk : SW.Idx → EReal) (bk : SB.Idx → EReal)
  (Wv : SW.Idx → EReal) (bv : SB.Idx → EReal)

/-! ## The three projections -/

/-- The query projection at `(n, s, e)`: the row `x n s ·` against the row `Wq e ·`, plus `bq e`. The product's
    left operand is read at `(n, s, t)`, its right one at `(e, t)`, and the twice-broadcast bias at `e`. -/
theorem q_apply (n : Fin 4) (s : Fin 2048) (e : Fin 1024) :
    val_main_v3 (F := Ideal) x Wq bq (ix3 n s e) = proj x Wq bq n s e := by
  rw [val_main_v3_apply, val_main_v0_apply, val_main_v2_apply, val_main_v1_apply]
  have el : ∀ t : Fin 1024, lidx_main_v0 (ix3 n s e) t = ix3 n s t := fun t => funext fun a => Fin.ext (by
    match a with | ⟨0, _⟩ => rfl | ⟨1, _⟩ => rfl | ⟨2, _⟩ => rfl)
  have er : ∀ t : Fin 1024, ridx_main_v0 (ix3 n s e) t = ix2 e t := fun t => funext fun a => Fin.ext (by
    match a with | ⟨0, _⟩ => rfl | ⟨1, _⟩ => rfl)
  have eb : idx_main_v1 (idx_main_v2 (ix3 n s e)) = ix1 e := funext fun a => Fin.ext (by
    match a with | ⟨0, _⟩ => rfl)
  simp only [el, er, eb]
  rfl

/-- The key projection at `(n, s, e)`. -/
theorem k_apply (n : Fin 4) (s : Fin 2048) (e : Fin 1024) :
    val_main_v7 (F := Ideal) x Wk bk (ix3 n s e) = proj x Wk bk n s e := by
  rw [val_main_v7_apply, val_main_v4_apply, val_main_v6_apply, val_main_v5_apply]
  have el : ∀ t : Fin 1024, lidx_main_v4 (ix3 n s e) t = ix3 n s t := fun t => funext fun a => Fin.ext (by
    match a with | ⟨0, _⟩ => rfl | ⟨1, _⟩ => rfl | ⟨2, _⟩ => rfl)
  have er : ∀ t : Fin 1024, ridx_main_v4 (ix3 n s e) t = ix2 e t := fun t => funext fun a => Fin.ext (by
    match a with | ⟨0, _⟩ => rfl | ⟨1, _⟩ => rfl)
  have eb : idx_main_v5 (idx_main_v6 (ix3 n s e)) = ix1 e := funext fun a => Fin.ext (by
    match a with | ⟨0, _⟩ => rfl)
  simp only [el, er, eb]
  rfl

/-- The value projection at `(n, s, e)`. -/
theorem v_apply (n : Fin 4) (s : Fin 2048) (e : Fin 1024) :
    val_main_v11 (F := Ideal) x Wv bv (ix3 n s e) = proj x Wv bv n s e := by
  rw [val_main_v11_apply, val_main_v8_apply, val_main_v10_apply, val_main_v9_apply]
  have el : ∀ t : Fin 1024, lidx_main_v8 (ix3 n s e) t = ix3 n s t := fun t => funext fun a => Fin.ext (by
    match a with | ⟨0, _⟩ => rfl | ⟨1, _⟩ => rfl | ⟨2, _⟩ => rfl)
  have er : ∀ t : Fin 1024, ridx_main_v8 (ix3 n s e) t = ix2 e t := fun t => funext fun a => Fin.ext (by
    match a with | ⟨0, _⟩ => rfl | ⟨1, _⟩ => rfl)
  have eb : idx_main_v9 (idx_main_v10 (ix3 n s e)) = ix1 e := funext fun a => Fin.ext (by
    match a with | ⟨0, _⟩ => rfl)
  simp only [el, er, eb]
  rfl

/-! ## The scaled scores -/

/-- The scalar the scores are multiplied by is `1 / sqrt 1024`, each operation the ideal one. -/
theorem scale_apply (j : S_.Idx) : val_main_v13 (F := Ideal) j = cref := rfl

/-- The scaled score of query row `i` against key row `j` in batch entry `n`: the two projected rows' dot product
    over the feature axis, times the scale. -/
theorem score_apply (n : Fin 4) (i j : Fin 2048) :
    val_main_v16 (F := Ideal) x Wq bq Wk bk (ix3 n i j) = score (proj x Wq bq n) (proj x Wk bk n) cref i j := by
  rw [val_main_v16_apply, val_main_v14_apply, val_main_v15_apply]
  have el : ∀ e : Fin 1024, lidx_main_v14 (ix3 n i j) e = ix3 n i e := fun e => funext fun a => Fin.ext (by
    match a with | ⟨0, _⟩ => rfl | ⟨1, _⟩ => rfl | ⟨2, _⟩ => rfl)
  have er : ∀ e : Fin 1024, ridx_main_v14 (ix3 n i j) e = ix3 n j e := fun e => funext fun a => Fin.ext (by
    match a with | ⟨0, _⟩ => rfl | ⟨1, _⟩ => rfl | ⟨2, _⟩ => rfl)
  simp only [el, er, q_apply, k_apply, scale_apply]
  rfl

/-! ## The softmax along the key axis -/

/-- The bit pattern of `-∞` denotes the bottom of the extended reals. -/
theorem ofBits_neg_inf : Ideal.ofBits .f32 0xFF800000#32 = (⊥ : EReal) := by simp [Ideal.ofBits, Ideal.ieee]

/-- The row maximum at `(n, i)`: the fold of `max` from `-∞` over the key coordinate of the row's scores (the
    reduction inserts the key coordinate `j` as the last one: `(n, i, j)`), capped below by `-∞` once more. -/
theorem max_apply (n : Fin 4) (i : Fin 2048) :
    val_main_v19 (F := Ideal) x Wq bq Wk bk (ix2 n i)
      = vmax (fun j : Fin 2048 => val_main_v16 (F := Ideal) x Wq bq Wk bk (ix3 n i j)) := by
  rw [val_main_v19_apply, val_main_v18_apply]
  unfold val_main_v17
  generalize val_main_v16 (F := Ideal) x Wq bq Wk bk = S
  have hR : S4x2048x2048.Reduces [2] S4x2048 := by decide
  rw [Host.reduce_eq_fold_single (FloatOps.maximumf (F := Ideal) (φ := .f32)) S (val_main_cst_1 (F := Ideal))
    reducesTo_S4x2048x2048_S4x2048_d2 hR h_S_ (ix2 n i)]
  have hl : (S ∘ hR.lift (ix2 n i)) = fun j : Fin 2048 => S (ix3 n i j) := funext fun j => congrArg S (funext fun a => Fin.ext (by
    match a with | ⟨0, _⟩ => rfl | ⟨1, _⟩ => rfl | ⟨2, _⟩ => rfl))
  rw [hl]
  show max (Ideal.ofBits .f32 0xFF800000#32) (Finset.univ.fold max (Ideal.ofBits .f32 0xFF800000#32) fun j : Fin 2048 => S (ix3 n i j)) = _
  rw [ofBits_neg_inf, bot_sup_eq]
  rfl

/-- The exponential at `(n, i, j)`: of the score minus the row's maximum (the maximum broadcast along the key axis). -/
theorem exp_apply (n : Fin 4) (i j : Fin 2048) :
    val_main_v23 (F := Ideal) x Wq bq Wk bk (ix3 n i j)
      = Ideal.exp (val_main_v16 (F := Ideal) x Wq bq Wk bk (ix3 n i j) - val_main_v19 (F := Ideal) x Wq bq Wk bk (ix2 n i)) := by
  rw [val_main_v23_apply, val_main_v22_apply, val_main_v21_apply, val_main_v20_apply]
  have e : idx_main_v20 (idx_main_v21 (ix3 n i j)) = ix2 n i := funext fun a => Fin.ext (by
    match a with | ⟨0, _⟩ => rfl | ⟨1, _⟩ => rfl)
  rw [e]
  rfl

/-- The row's normaliser at `(n, i)`: the sum of the exponentials over the key coordinate, from `0`. -/
theorem sum_apply (n : Fin 4) (i : Fin 2048) :
    val_main_v24 (F := Ideal) x Wq bq Wk bk (ix2 n i)
      = ∑ j : Fin 2048, val_main_v23 (F := Ideal) x Wq bq Wk bk (ix3 n i j) := by
  rw [val_main_v24_apply]
  have e : ∀ j : Fin 2048, idx_main_v24 (ix2 n i) j = ix3 n i j := fun j => funext fun a => Fin.ext (by
    match a with | ⟨0, _⟩ => rfl | ⟨1, _⟩ => rfl | ⟨2, _⟩ => rfl)
  simp only [e]
  show Ideal.ofBits .f32 0x00000000#32 + _ = _
  rw [Ideal.ofBits_zero_f32, zero_add]

/-- The softmax weight at `(n, i, j)`: the exponential over the row's normaliser (broadcast along the key axis). -/
theorem weight_apply (n : Fin 4) (i j : Fin 2048) :
    val_main_v27 (F := Ideal) x Wq bq Wk bk (ix3 n i j)
      = Ideal.div (val_main_v23 (F := Ideal) x Wq bq Wk bk (ix3 n i j)) (val_main_v24 (F := Ideal) x Wq bq Wk bk (ix2 n i)) := by
  rw [val_main_v27_apply, val_main_v26_apply, val_main_v25_apply]
  have e : idx_main_v25 (idx_main_v26 (ix3 n i j)) = ix2 n i := funext fun a => Fin.ext (by
    match a with | ⟨0, _⟩ => rfl | ⟨1, _⟩ => rfl)
  rw [e]
  rfl

/-! ## The result -/

/-- The specification at `(n, s, d)`, with the index's coordinates named. -/
theorem attn_ix3 (c : EReal) (n : Fin 4) (s : Fin 2048) (d : Fin 1024) :
    attn c x Wq bq Wk bk Wv bv (ix3 n s d)
      = attnRow (fun j : Fin 2048 => score (proj x Wq bq n) (proj x Wk bk n) c s j) (fun j : Fin 2048 => proj x Wv bv n j d) := rfl

/-- The reference's result is the specification: at `(n, s, d)` it is the sum over the key rows `j` of the softmax weight
    of `(n, s, j)` times the value projection at `(n, j, d)`, and each factor was read above. -/
theorem result_eq :
    val_main_v28 (F := Ideal) x Wq bq Wk bk Wv bv = attn cref x Wq bq Wk bk Wv bv := by
  funext i
  obtain ⟨n, s, d, rfl⟩ : ∃ (n : Fin 4) (s : Fin 2048) (d : Fin 1024), i = ix3 n s d := ⟨i 0, i 1, i 2, eq_ix3 i⟩
  rw [val_main_v28_apply, attn_ix3]
  have el : ∀ j : Fin 2048, lidx_main_v28 (ix3 n s d) j = ix3 n s j := fun j => funext fun a => Fin.ext (by
    match a with | ⟨0, _⟩ => rfl | ⟨1, _⟩ => rfl | ⟨2, _⟩ => rfl)
  have er : ∀ j : Fin 2048, ridx_main_v28 (ix3 n s d) j = ix3 n j d := fun j => funext fun a => Fin.ext (by
    match a with | ⟨0, _⟩ => rfl | ⟨1, _⟩ => rfl | ⟨2, _⟩ => rfl)
  simp only [el, er, weight_apply, sum_apply, exp_apply, max_apply, score_apply, v_apply, attnRow]

/-- every weakly fair execution of the reference ends with main_v28 at the specification of the argument arrays, the arguments unchanged -/
theorem run_attn (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v28)
            = Cert.Attn.attn cref (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) :=
  (θ_run Cert.ReferenceIdeal.defs _ _).mono
    (fun _ h c => ⟨(h c).1.trans ((val_main_v28_eq m c).trans (result_eq _ _ _ _ _ _ _)), (h c).2⟩)
    (Cert.ReferenceIdeal.Value.run (F := Ideal) m ρ)

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.AttnMath.lean ====
/-
  The mathematics that joins the two programs, over the extended reals with finite (real) data.

  * onlineRow_eq_attnRow: the two-block running softmax recurrence equals the plain softmax-weighted sum
    when every score and every value is a real number.  Both sides are the same real quotient
    (∑ j, exp (s j) · w j) / (∑ j, exp (s j)): a softmax does not depend on the shift subtracted in the
    exponent, and the sum over 2048 keys is the sum over the two halves.
  * proj_real, score_real: a projection and a score of real data are real.
  * the literals of the two programs as extended reals.
-/
import proofs.«154121_j11690900980356_2_alg».proof.Proof.Spec
import Mathlib.Analysis.SpecialFunctions.Exp
import Mathlib.Analysis.SpecialFunctions.Sqrt
import Mathlib.Algebra.BigOperators.Fin
import Mathlib.Data.Finset.Fold

noncomputable section

open scoped BigOperators

namespace Cert.Attn

open Idealize.ShloMosaic Idealize.ShloMosaic.ValueIdx

/-- finite = a coerced real -/
def IsFinite (x : EReal) : Prop := ∃ r : ℝ, x = (r : EReal)

/-! ### Coercion of finite sums, and closure of the reals under the operations -/

/-- The coercion ℝ → EReal commutes with finite sums. -/
theorem coe_finsum {ι : Type*} (t : Finset ι) (f : ι → ℝ) :
    ((∑ i ∈ t, f i : ℝ) : EReal) = ∑ i ∈ t, (f i : EReal) := by
  classical
  refine Finset.induction_on t (by simp) ?_
  intro a t ha ih
  rw [Finset.sum_insert ha, Finset.sum_insert ha, EReal.coe_add, ih]

theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem real_sum {ι : Type*} (t : Finset ι) (f : ι → EReal) (hf : ∀ i, ∃ r : ℝ, f i = (r : EReal)) :
    ∃ r : ℝ, ∑ i ∈ t, f i = (r : EReal) := by
  choose g hg using hf
  refine ⟨∑ i ∈ t, g i, ?_⟩
  rw [coe_finsum]
  exact Finset.sum_congr rfl (fun i _ => hg i)

/-! ### The maximum of finitely many reals is real -/

theorem vmax_real {n : Nat} (hn : 0 < n) (S : Fin n → EReal) (hS : ∀ j, ∃ r : ℝ, S j = (r : EReal)) :
    ∃ M : ℝ, vmax S = (M : EReal) := by
  have hlt : vmax S < ⊤ := by
    rw [vmax, Finset.fold_max_lt]
    refine ⟨bot_lt_top, ?_⟩
    intro j _
    obtain ⟨r, hr⟩ := hS j
    rw [hr]
    exact EReal.coe_lt_top r
  have hgt : ⊥ < vmax S := by
    rw [vmax, Finset.lt_fold_max]
    refine Or.inr ⟨⟨0, hn⟩, Finset.mem_univ _, ?_⟩
    obtain ⟨r, hr⟩ := hS ⟨0, hn⟩
    rw [hr]
    exact EReal.bot_lt_coe r
  exact ⟨(vmax S).toReal, (EReal.coe_toReal hlt.ne hgt.ne').symm⟩

theorem coe_max_real (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-! ### The sums of exponentials, in the reals -/

/-- A shift in the exponent is a common factor of the weighted sum. -/
theorem sum_exp_shift {ι : Type*} (t : Finset ι) (s w : ι → ℝ) (c : ℝ) :
    ∑ j ∈ t, Real.exp (s j - c) * w j = Real.exp (-c) * ∑ j ∈ t, Real.exp (s j) * w j := by
  rw [Finset.mul_sum]
  refine Finset.sum_congr rfl (fun j _ => ?_)
  rw [sub_eq_add_neg, Real.exp_add]
  ring

theorem sum_exp_shift' {ι : Type*} (t : Finset ι) (s : ι → ℝ) (c : ℝ) :
    ∑ j ∈ t, Real.exp (s j - c) = Real.exp (-c) * ∑ j ∈ t, Real.exp (s j) := by
  rw [Finset.mul_sum]
  refine Finset.sum_congr rfl (fun j _ => ?_)
  rw [sub_eq_add_neg, Real.exp_add]
  ring

/-- The sum over 2048 keys is the sum over the two halves. -/
theorem sum_lo_hi (f : Fin 2048 → ℝ) :
    ∑ j : Fin 2048, f j = ∑ j : Fin 1024, f (lo j) + ∑ j : Fin 1024, f (hi j) := by
  have h := Fin.sum_univ_add (a := 1024) (b := 1024) f
  exact h

/-! ### The running form and the plain form over real data -/

/-- The first step, from the empty state (⊥, 0, 0): the maximum, the normaliser and the weighted sum of the block. -/
theorem onlineStep_bot {n : Nat} (s w : Fin n → ℝ) (M0 : ℝ)
    (hM : vmax (fun j => (s j : EReal)) = (M0 : EReal)) :
    onlineStep (⊥, 0, 0) (fun j => (s j : EReal)) (fun j => (w j : EReal))
      = ((M0 : EReal), ((∑ j, Real.exp (s j - M0) : ℝ) : EReal),
          ((∑ j, Real.exp (s j - M0) * w j : ℝ) : EReal)) := by
  have h1 : ∀ j, Ideal.exp ((s j : EReal) - (M0 : EReal)) = ((Real.exp (s j - M0) : ℝ) : EReal) := by
    intro j
    rw [← EReal.coe_sub, Ideal.exp_coe]
  simp only [onlineStep, hM, max_bot_left, EReal.bot_sub, Ideal.exp_bot, mul_zero, zero_add, h1,
    ← EReal.coe_mul, ← coe_finsum]

/-- A step from a real state over a real block. -/
theorem onlineStep_coe {n : Nat} (m l a : ℝ) (s w : Fin n → ℝ) (M1 : ℝ)
    (hM : vmax (fun j => (s j : EReal)) = (M1 : EReal)) :
    onlineStep ((m : EReal), (l : EReal), (a : EReal)) (fun j => (s j : EReal)) (fun j => (w j : EReal))
      = (((max m M1 : ℝ) : EReal),
          ((Real.exp (m - max m M1) * l + ∑ j, Real.exp (s j - max m M1) : ℝ) : EReal),
          ((Real.exp (m - max m M1) * a + ∑ j, Real.exp (s j - max m M1) * w j : ℝ) : EReal)) := by
  have h1 : ∀ x : ℝ, Ideal.exp ((x : EReal) - ((max m M1 : ℝ) : EReal))
      = ((Real.exp (x - max m M1) : ℝ) : EReal) := by
    intro x
    rw [← EReal.coe_sub, Ideal.exp_coe]
  simp only [onlineStep, hM, coe_max_real, h1, ← EReal.coe_mul, ← coe_finsum, ← EReal.coe_add]

/-- The running form over two real blocks is a real quotient. -/
theorem onlineRow_real (s0 s1 w0 w1 : Fin 1024 → ℝ) (M0 M1 : ℝ)
    (hM0 : vmax (fun j => (s0 j : EReal)) = (M0 : EReal))
    (hM1 : vmax (fun j => (s1 j : EReal)) = (M1 : EReal)) :
    onlineRow (fun j => (s0 j : EReal)) (fun j => (s1 j : EReal)) (fun j => (w0 j : EReal)) (fun j => (w1 j : EReal))
      = (((Real.exp (M0 - max M0 M1) * (∑ j, Real.exp (s0 j - M0) * w0 j)
            + ∑ j, Real.exp (s1 j - max M0 M1) * w1 j)
          * (1 / (Real.exp (M0 - max M0 M1) * (∑ j, Real.exp (s0 j - M0))
            + ∑ j, Real.exp (s1 j - max M0 M1))) : ℝ) : EReal) := by
  have hpos : (0 : ℝ) < Real.exp (M0 - max M0 M1) * (∑ j, Real.exp (s0 j - M0))
      + ∑ j, Real.exp (s1 j - max M0 M1) := by
    refine add_pos_of_nonneg_of_pos ?_ ?_
    · exact mul_nonneg (Real.exp_pos _).le (Finset.sum_nonneg (fun j _ => (Real.exp_pos _).le))
    · exact Finset.sum_pos (fun j _ => Real.exp_pos _) Finset.univ_nonempty
  simp only [onlineRow, onlineStep_bot s0 w0 M0 hM0, onlineStep_coe _ _ _ s1 w1 M1 hM1]
  rw [Ideal.div_coe hpos.ne', one_mul, ← EReal.coe_mul]

/-- The plain form over real data is a real sum. -/
theorem attnRow_real {n : Nat} (hn : 0 < n) (s w : Fin n → ℝ) (M : ℝ)
    (hM : vmax (fun j => (s j : EReal)) = (M : EReal)) :
    attnRow (fun j => (s j : EReal)) (fun j => (w j : EReal))
      = ((∑ j, Real.exp (s j - M) * (1 / ∑ j', Real.exp (s j' - M)) * w j : ℝ) : EReal) := by
  have hpos : (0 : ℝ) < ∑ j' : Fin n, Real.exp (s j' - M) := by
    haveI : Nonempty (Fin n) := ⟨⟨0, hn⟩⟩
    exact Finset.sum_pos (fun j _ => Real.exp_pos _) Finset.univ_nonempty
  have h1 : ∀ j, Ideal.exp ((s j : EReal) - (M : EReal)) = ((Real.exp (s j - M) : ℝ) : EReal) := by
    intro j
    rw [← EReal.coe_sub, Ideal.exp_coe]
  simp only [attnRow, hM, h1, ← coe_finsum]
  simp only [Ideal.div_coe hpos.ne', ← EReal.coe_mul, ← coe_finsum]

/-- The real identity: the rescaled two-block quotient is the softmax-weighted sum, whatever the shifts. -/
theorem real_identity (s w : Fin 2048 → ℝ) (M0 M1 M : ℝ) :
    (Real.exp (M0 - max M0 M1) * (∑ j : Fin 1024, Real.exp (s (lo j) - M0) * w (lo j))
        + ∑ j : Fin 1024, Real.exp (s (hi j) - max M0 M1) * w (hi j))
      * (1 / (Real.exp (M0 - max M0 M1) * (∑ j : Fin 1024, Real.exp (s (lo j) - M0))
        + ∑ j : Fin 1024, Real.exp (s (hi j) - max M0 M1)))
    = ∑ j : Fin 2048, Real.exp (s j - M) * (1 / ∑ j' : Fin 2048, Real.exp (s j' - M)) * w j := by
  have hD : (0 : ℝ) < ∑ j : Fin 2048, Real.exp (s j) :=
    Finset.sum_pos (fun j _ => Real.exp_pos _) Finset.univ_nonempty
  have hDsplit : ∑ j : Fin 2048, Real.exp (s j)
      = ∑ j : Fin 1024, Real.exp (s (lo j)) + ∑ j : Fin 1024, Real.exp (s (hi j)) :=
    sum_lo_hi (fun j => Real.exp (s j))
  have hNsplit : ∑ j : Fin 2048, Real.exp (s j) * w j
      = ∑ j : Fin 1024, Real.exp (s (lo j)) * w (lo j) + ∑ j : Fin 1024, Real.exp (s (hi j)) * w (hi j) :=
    sum_lo_hi (fun j => Real.exp (s j) * w j)
  have e1 : Real.exp (M0 - max M0 M1) * Real.exp (-M0) = Real.exp (-(max M0 M1)) := by
    rw [← Real.exp_add]
    congr 1
    ring
  -- the right-hand side
  have hR : ∑ j : Fin 2048, Real.exp (s j - M) * (1 / ∑ j' : Fin 2048, Real.exp (s j' - M)) * w j
      = (∑ j : Fin 2048, Real.exp (s j) * w j) / (∑ j : Fin 2048, Real.exp (s j)) := by
    rw [sum_exp_shift' Finset.univ s M]
    have : ∀ j : Fin 2048, Real.exp (s j - M) * (1 / (Real.exp (-M) * ∑ j' : Fin 2048, Real.exp (s j'))) * w j
        = (1 / (Real.exp (-M) * ∑ j' : Fin 2048, Real.exp (s j'))) * (Real.exp (s j - M) * w j) := by
      intro j
      ring
    simp only [this]
    rw [← Finset.mul_sum, sum_exp_shift Finset.univ s w M]
    have hM : Real.exp (-M) ≠ 0 := (Real.exp_pos _).ne'
    field_simp
  rw [hR, sum_exp_shift Finset.univ (fun j => s (lo j)) (fun j => w (lo j)) M0,
    sum_exp_shift Finset.univ (fun j => s (hi j)) (fun j => w (hi j)) (max M0 M1),
    sum_exp_shift' Finset.univ (fun j => s (lo j)) M0,
    sum_exp_shift' Finset.univ (fun j => s (hi j)) (max M0 M1),
    ← mul_assoc, ← mul_assoc, e1, ← mul_add, ← mul_add, ← hDsplit, ← hNsplit]
  have hM' : Real.exp (-(max M0 M1)) ≠ 0 := (Real.exp_pos _).ne'
  field_simp

theorem onlineRow_eq_attnRow (S v : Fin 2048 → EReal) (hS : ∀ j, ∃ r : ℝ, S j = (r : EReal))
    (hv : ∀ j, ∃ r : ℝ, v j = (r : EReal)) :
    onlineRow (fun j => S (lo j)) (fun j => S (hi j)) (fun j => v (lo j)) (fun j => v (hi j)) = attnRow S v := by
  choose s hs using hS
  choose w hw using hv
  obtain rfl : S = fun j => (s j : EReal) := funext hs
  obtain rfl : v = fun j => (w j : EReal) := funext hw
  obtain ⟨M0, hM0⟩ := vmax_real (by norm_num) (fun j : Fin 1024 => ((s (lo j) : ℝ) : EReal)) (fun j => ⟨_, rfl⟩)
  obtain ⟨M1, hM1⟩ := vmax_real (by norm_num) (fun j : Fin 1024 => ((s (hi j) : ℝ) : EReal)) (fun j => ⟨_, rfl⟩)
  obtain ⟨M, hM⟩ := vmax_real (by norm_num) (fun j : Fin 2048 => ((s j : ℝ) : EReal)) (fun j => ⟨_, rfl⟩)
  have hL := onlineRow_real (fun j => s (lo j)) (fun j => s (hi j)) (fun j => w (lo j)) (fun j => w (hi j)) M0 M1 hM0 hM1
  have hR := attnRow_real (by norm_num) s w M hM
  refine hL.trans (Eq.trans ?_ hR.symm)
  rw [real_identity s w M0 M1 M]

/-! ### Projections and scores of real data are real -/

theorem proj_real (x : SX.Idx → EReal) (W : SW.Idx → EReal) (b : SB.Idx → EReal)
    (hx : ∀ i, ∃ r : ℝ, x i = (r : EReal)) (hW : ∀ i, ∃ r : ℝ, W i = (r : EReal))
    (hb : ∀ i, ∃ r : ℝ, b i = (r : EReal))
    (n : Fin 4) (s : Fin 2048) (e : Fin 1024) : ∃ r : ℝ, proj x W b n s e = (r : EReal) := by
  unfold proj
  exact real_add (real_sum _ _ (fun t => real_mul (hx _) (hW _))) (hb _)

theorem score_real (q k : Fin 2048 → Fin 1024 → EReal) (hq : ∀ i e, ∃ r : ℝ, q i e = (r : EReal))
    (hk : ∀ i e, ∃ r : ℝ, k i e = (r : EReal))
    (c : EReal) (hc : ∃ r : ℝ, c = (r : EReal)) (i j : Fin 2048) : ∃ r : ℝ, score q k c i j = (r : EReal) := by
  unfold score
  exact real_mul (real_sum _ _ (fun e => real_mul (hq i e) (hk j e))) hc

/-! ### The literals -/

/-- The pattern of 1.0. -/
theorem ofBits_one : Ideal.ofBits .f32 0x3F800000#32 = (1 : EReal) := by
  simp [Ideal.ofBits, Ideal.ieee, -EReal.coe_mul]; norm_num

/-- The pattern of -∞. -/
theorem ofBits_neg_inf : Ideal.ofBits .f32 0xFF800000#32 = (⊥ : EReal) := by
  simp [Ideal.ofBits, Ideal.ieee]

/-- The pattern of 1024.0. -/
theorem ofBits_1024 : Ideal.ofBits .f32 0x44800000#32 = ((1024 : ℝ) : EReal) := by
  simp [Ideal.ofBits, Ideal.ieee, -EReal.coe_mul]; norm_num

/-- The kernel's scale word 0x3D000000 is 2^(-5) = 1/32. -/
theorem scale_kernel : Ideal.ofBits .f32 0x3D000000#32 = ((1 / 32 : ℝ) : EReal) := by
  simp [Ideal.ofBits, Ideal.ieee, -EReal.coe_mul]; norm_num

/-- The reference's scale 1 / sqrt 1024 is 1/32. -/
theorem scale_ref :
    Ideal.div (Ideal.ofBits .f32 0x3F800000#32) (Ideal.sqrt (Ideal.ofBits .f32 0x44800000#32))
      = ((1 / 32 : ℝ) : EReal) := by
  have h32 : Real.sqrt 1024 = 32 := by
    rw [show (1024 : ℝ) = 32 ^ 2 by norm_num]
    exact Real.sqrt_sq (by norm_num)
  rw [ofBits_one, ofBits_1024, Ideal.sqrt_coe, if_neg (by norm_num), h32, Ideal.div_coe (by norm_num), one_mul]

end Cert.Attn

end
-- ==== Proof.KI.Reg1Value.lean ====
/-
  What the attention kernel's body leaves in its three scratch buffers and in its output tile, index by index, at the
  ideal values: one step of the running softmax recurrence (Spec.lean, onlineStep) over the scores of the query
  block's row against the 1024 key rows of the key block, and one column of the value block — from the empty state
  (-∞, 0, 0) at key/value tile 0, from the scratch as found at tile 1, where the output tile is the new weighted sum
  times the reciprocal of the new normaliser.
-/
import proofs.«154121_j11690900980356_2_alg».proof.Proof.KI.Reg1
import proofs.«154121_j11690900980356_2_alg».proof.Proof.Spec
import proofs.«154121_j11690900980356_2_alg».proof.Proof.AttnMath
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The pieces the body's stores leave, as payloads (at any float instance) -/

section Pieces
variable {F : FTy → Type} [FloatOps F]

theorem k1_hz2 : (![0, 0] : Fin 2 → Nat) = fun _ => 0 := funext fun a => by fin_cases a <;> rfl
theorem k1_hz3 : (![0, 0, 0] : Fin 3 → Nat) = fun _ => 0 := funext fun a => by fin_cases a <;> rfl

/-- What the tile-0 case leaves in the running maximum: the maximum of the reset value and the block's row maximum. -/
theorem sout1_A_0_eq (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S1x512x1024 .bf16) (x1 : Vec F S1x1024x1024 .bf16) (x2 : Vec F S1x1024x1024 .bf16) :
    sout1_A_0 c i arg3 harg3 arg4 harg4 arg5 harg5 arg6 harg6 arg7 harg7 arg8 harg8 arg9 harg9 hc0 hc1 x0 x1 x2 = k1_pay2 (k1_pay8 x0 x1 (k1_pay4 (F := F))) := by
  unfold sout1_A_0
  rw [View.read_writes_eq_canon _ _ _ (scover1_A_0 c i arg3 harg3 arg4 harg4 arg5 harg5 arg6 harg6 arg7 harg7 arg8 harg8 arg9 harg9 hc0 hc1 x0 x1 x2)]
  unfold kernelRun1_A
  dsimp only
  sl_unfold_words
  rw [View.canon_cons_unit_zero (S := S512x1) k1_hz2]
  simp only [View.readCov_unit_zero (S := S512x1) _ k1_hz2, View.readCov_unit_zero (S := S512x1024) _ k1_hz2, View.readAt_eq_ld, harg3.read_unread, harg4.read_unread, harg5.read_unread, View.ld_unit_zero (S := S1x512x1024) k1_hz3, View.ld_unit_zero (S := S1x1024x1024) k1_hz3]

/-- What the tile-0 case leaves in the normaliser. -/
theorem sout1_A_1_eq (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S1x512x1024 .bf16) (x1 : Vec F S1x1024x1024 .bf16) (x2 : Vec F S1x1024x1024 .bf16) :
    sout1_A_1 c i arg3 harg3 arg4 harg4 arg5 harg5 arg6 harg6 arg7 harg7 arg8 harg8 arg9 harg9 hc0 hc1 x0 x1 x2 = k1_pay11 x0 x1 (k1_pay4 (F := F)) (k1_pay4 (F := F)) (k1_pay5 (F := F)) := by
  unfold sout1_A_1
  rw [View.read_writes_eq_canon _ _ _ (scover1_A_1 c i arg3 harg3 arg4 harg4 arg5 harg5 arg6 harg6 arg7 harg7 arg8 harg8 arg9 harg9 hc0 hc1 x0 x1 x2)]
  unfold kernelRun1_A
  dsimp only
  sl_unfold_words
  rw [View.canon_cons_unit_zero (S := S512x1) k1_hz2]
  simp only [View.readCov_unit_zero (S := S512x1) _ k1_hz2, View.readCov_unit_zero (S := S512x1024) _ k1_hz2, View.readAt_eq_ld, harg3.read_unread, harg4.read_unread, harg5.read_unread, View.ld_unit_zero (S := S1x512x1024) k1_hz3, View.ld_unit_zero (S := S1x1024x1024) k1_hz3]

/-- What the tile-0 case leaves in the weighted sum. -/
theorem sout1_A_2_eq (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec F S1x512x1024 .bf16) (x1 : Vec F S1x1024x1024 .bf16) (x2 : Vec F S1x1024x1024 .bf16) :
    sout1_A_2 c i arg3 harg3 arg4 harg4 arg5 harg5 arg6 harg6 arg7 harg7 arg8 harg8 arg9 harg9 hc0 hc1 x0 x1 x2 = k1_pay1 (k1_pay9 x0 x1 (k1_pay4 (F := F)) (k1_pay4 (F := F))) (k1_pay10 x0 x1 (k1_pay4 (F := F))) (k1_pay12 x2) (k1_pay6 (F := F)) := by
  unfold sout1_A_2
  rw [View.read_writes_eq_canon _ _ _ (scover1_A_2 c i arg3 harg3 arg4 harg4 arg5 harg5 arg6 harg6 arg7 harg7 arg8 harg8 arg9 harg9 hc0 hc1 x0 x1 x2)]
  unfold kernelRun1_A
  dsimp only
  sl_unfold_words
  rw [View.canon_cons_unit_zero (S := S512x1024) k1_hz2]
  simp only [View.readCov_unit_zero (S := S512x1) _ k1_hz2, View.readCov_unit_zero (S := S512x1024) _ k1_hz2, View.readAt_eq_ld, harg3.read_unread, harg4.read_unread, harg5.read_unread, View.ld_unit_zero (S := S1x512x1024) k1_hz3, View.ld_unit_zero (S := S1x1024x1024) k1_hz3]

/-- What the tile-1 case leaves in the running maximum, from the scratch it finds. -/
theorem sout1_B_0_eq (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) :
    sout1_B_0 c i arg3 harg3 arg4 harg4 arg5 harg5 arg6 harg6 arg7 harg7 arg8 harg8 arg9 harg9 hc0 hc1 x0 x1 x2 xs0 xs1 xs2 = k1_pay2 (k1_pay8 x0 x1 xs0) := by
  unfold sout1_B_0
  rw [View.read_writes_eq_canon _ _ _ (scover1_B_0 c i arg3 harg3 arg4 harg4 arg5 harg5 arg6 harg6 arg7 harg7 arg8 harg8 arg9 harg9 hc0 hc1 x0 x1 x2 xs0 xs1 xs2)]
  unfold kernelRun1_B
  dsimp only
  sl_unfold_words
  rw [View.canon_unit_zero (S := S512x1) k1_hz2]
  simp only [View.readCov_unit_zero (S := S512x1) _ k1_hz2, View.readCov_unit_zero (S := S512x1024) _ k1_hz2, View.readAt_eq_ld, harg3.read_unread, harg4.read_unread, harg5.read_unread, harg7.read_unread, harg8.read_unread, harg9.read_unread, View.ld_unit_zero (S := S1x512x1024) k1_hz3, View.ld_unit_zero (S := S1x1024x1024) k1_hz3, View.ld_unit_zero (S := S512x1) k1_hz2, View.ld_unit_zero (S := S512x1024) k1_hz2]

/-- What the tile-1 case leaves in the normaliser. -/
theorem sout1_B_1_eq (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) :
    sout1_B_1 c i arg3 harg3 arg4 harg4 arg5 harg5 arg6 harg6 arg7 harg7 arg8 harg8 arg9 harg9 hc0 hc1 x0 x1 x2 xs0 xs1 xs2 = k1_pay11 x0 x1 xs0 xs0 xs1 := by
  unfold sout1_B_1
  rw [View.read_writes_eq_canon _ _ _ (scover1_B_1 c i arg3 harg3 arg4 harg4 arg5 harg5 arg6 harg6 arg7 harg7 arg8 harg8 arg9 harg9 hc0 hc1 x0 x1 x2 xs0 xs1 xs2)]
  unfold kernelRun1_B
  dsimp only
  sl_unfold_words
  rw [View.canon_unit_zero (S := S512x1) k1_hz2]
  simp only [View.readCov_unit_zero (S := S512x1) _ k1_hz2, View.readCov_unit_zero (S := S512x1024) _ k1_hz2, View.readAt_eq_ld, harg3.read_unread, harg4.read_unread, harg5.read_unread, harg7.read_unread, harg8.read_unread, harg9.read_unread, View.ld_unit_zero (S := S1x512x1024) k1_hz3, View.ld_unit_zero (S := S1x1024x1024) k1_hz3, View.ld_unit_zero (S := S512x1) k1_hz2, View.ld_unit_zero (S := S512x1024) k1_hz2]

/-- What the tile-1 case leaves in the weighted sum. -/
theorem sout1_B_2_eq (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) :
    sout1_B_2 c i arg3 harg3 arg4 harg4 arg5 harg5 arg6 harg6 arg7 harg7 arg8 harg8 arg9 harg9 hc0 hc1 x0 x1 x2 xs0 xs1 xs2 = k1_pay1 (k1_pay9 x0 x1 xs0 xs0) (k1_pay10 x0 x1 xs0) (k1_pay12 x2) xs2 := by
  unfold sout1_B_2
  rw [View.read_writes_eq_canon _ _ _ (scover1_B_2 c i arg3 harg3 arg4 harg4 arg5 harg5 arg6 harg6 arg7 harg7 arg8 harg8 arg9 harg9 hc0 hc1 x0 x1 x2 xs0 xs1 xs2)]
  unfold kernelRun1_B
  dsimp only
  sl_unfold_words
  rw [View.canon_unit_zero (S := S512x1024) k1_hz2]
  simp only [View.readCov_unit_zero (S := S512x1) _ k1_hz2, View.readCov_unit_zero (S := S512x1024) _ k1_hz2, View.readAt_eq_ld, harg3.read_unread, harg4.read_unread, harg5.read_unread, harg7.read_unread, harg8.read_unread, harg9.read_unread, View.ld_unit_zero (S := S1x512x1024) k1_hz3, View.ld_unit_zero (S := S1x1024x1024) k1_hz3, View.ld_unit_zero (S := S512x1) k1_hz2, View.ld_unit_zero (S := S512x1024) k1_hz2]

/-- What the tile-1 case stores in the output tile: the new weighted sum times the reciprocal of the new normaliser. -/
theorem out1_B_3_eq (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x1024x1024 .bf16) (x2 : Vec F S1x1024x1024 .bf16) (xs0 : Vec F S512x1 .f32) (xs1 : Vec F S512x1 .f32) (xs2 : Vec F S512x1024 .f32) :
    out1_B_3 c i arg3 harg3 arg4 harg4 arg5 harg5 arg6 harg6 arg7 harg7 arg8 harg8 arg9 harg9 hc0 hc1 x0 x1 x2 xs0 xs1 xs2
      = k1_pay3 (k1_pay1 (k1_pay9 x0 x1 xs0 xs0) (k1_pay10 x0 x1 xs0) (k1_pay12 x2) xs2) (k1_pay11 x0 x1 xs0 xs0 xs1) := by
  unfold out1_B_3
  rw [View.read_writes_eq_canon _ _ _ (cover1_B_3 c i arg3 harg3 arg4 harg4 arg5 harg5 arg6 harg6 arg7 harg7 arg8 harg8 arg9 harg9 hc0 hc1 x0 x1 x2 xs0 xs1 xs2)]
  unfold kernelRun1_B
  dsimp only
  sl_unfold_words
  rw [View.canon_unit_zero (S := S1x512x1024) k1_hz3]
  simp only [View.readCov_unit_zero (S := S512x1) _ k1_hz2, View.readCov_unit_zero (S := S512x1024) _ k1_hz2, View.readAt_eq_ld, harg3.read_unread, harg4.read_unread, harg5.read_unread, harg7.read_unread, harg8.read_unread, harg9.read_unread, View.ld_unit_zero (S := S1x512x1024) k1_hz3, View.ld_unit_zero (S := S1x1024x1024) k1_hz3, View.ld_unit_zero (S := S512x1) k1_hz2, View.ld_unit_zero (S := S512x1024) k1_hz2]

end Pieces

/-! ## The block's scores and value columns -/

/-- The scores of query row r of the [1,512,1024] query block against the 1024 key rows of the [1,1024,1024] key
    block, at the kernel's scale word. -/
def blkScore (x0 : Vec Ideal S1x512x1024 .bf16) (x1 : Vec Ideal S1x1024x1024 .bf16) (r : Fin 512) : Fin 1024 → EReal :=
  fun j => (∑ e : Fin 1024, x0 (ix3 (0 : Fin 1) r e) * x1 (ix3 (0 : Fin 1) j e)) * Ideal.ofBits .f32 0x3D000000#32
/-- Column d of the [1,1024,1024] value block. -/
def blkCol (x2 : Vec Ideal S1x1024x1024 .bf16) (d : Fin 1024) : Fin 1024 → EReal := fun j => x2 (ix3 (0 : Fin 1) j d)

/-! ## Layout operations on a column kept as a unit axis, read at an index -/

section Keepdims
variable {α : Type}

/-- An [a] array cast to [a, 1] reads, at (i, u), the operand at i. -/
theorem k1_shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column at p. -/
theorem k1_broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Keepdims

/-! ## The two reductions along the keys and the matmul, read at an index -/

/-- The row maximum: the fold of max from the accumulator word (-∞) over the row. -/
theorem k1_rowmax (src : FVec Ideal S512x1024 .f32) (r : Fin 512) :
    multiReduction (F := Ideal) .maximumf [1] S512 src 0xFF800000#32 reduces_S512x1024_S512 (.inl rfl) rfl (ix1 r)
      = Cert.Attn.vmax (fun j : Fin 1024 => src (ix2 r j)) := by
  refine (Ideal.multiReduction_maximumf_single src 0xFF800000#32 reduces_S512x1024_S512 (.inl rfl) rfl (ix1 r)).trans ?_
  show Finset.fold max (Ideal.ofBits .f32 0xFF800000#32) (fun k : Fin 1024 => src (reduces_S512x1024_S512.lift (ix1 r) k)) Finset.univ
    = Finset.fold max ⊥ (fun j : Fin 1024 => src (ix2 r j)) Finset.univ
  rw [Cert.Attn.ofBits_neg_inf]
  refine Finset.fold_congr fun k _ => congrArg src (funext fun a => Fin.ext ?_)
  match a with
  | ⟨0, _⟩ => rfl
  | ⟨1, _⟩ => rfl

/-- The row sum. -/
theorem k1_rowsum (src : FVec Ideal S512x1024 .f32) (r : Fin 512) :
    multiReduction (F := Ideal) .add [1] S512 src 0x00000000#32 reduces_S512x1024_S512 (.inl rfl) rfl (ix1 r)
      = ∑ j : Fin 1024, src (ix2 r j) := by
  refine (Ideal.multiReduction_add_single src 0x00000000#32 reduces_S512x1024_S512 (.inl rfl) rfl (ix1 r)).trans ?_
  show ∑ k : Fin 1024, src (reduces_S512x1024_S512.lift (ix1 r) k) = ∑ j : Fin 1024, src (ix2 r j)
  refine Finset.sum_congr rfl fun k _ => congrArg src (funext fun a => Fin.ext ?_)
  match a with
  | ⟨0, _⟩ => rfl
  | ⟨1, _⟩ => rfl

theorem k1D_lhs0 (j : S512x1024.Idx) (q : dot_S512x1024_S1024x1024_S512x1024_1_0_0_1_n_n.contr.Idx) : (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem k1D_lhs1 (j : S512x1024.Idx) (q : dot_S512x1024_S1024x1024_S512x1024_1_0_0_1_n_n.contr.Idx) : (dot_S512x1024_S1024x1024_S512x1024_1_0_0_1_n_n.lhsIdx j q 1).val = (q ⟨0, by decide⟩).val :=
  dot_S512x1024_S1024x1024_S512x1024_1_0_0_1_n_n.lhsIdx_val_of_single rfl j q
theorem k1D_rhs0 (j : S512x1024.Idx) (q : dot_S512x1024_S1024x1024_S512x1024_1_0_0_1_n_n.contr.Idx) : (dot_S512x1024_S1024x1024_S512x1024_1_0_0_1_n_n.rhsIdx j q 0).val = (q ⟨0, by decide⟩).val :=
  dot_S512x1024_S1024x1024_S512x1024_1_0_0_1_n_n.rhsIdx_val_of_single rfl j q
theorem k1D_rhs1 (j : S512x1024.Idx) (q : dot_S512x1024_S1024x1024_S512x1024_1_0_0_1_n_n.contr.Idx) : (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A [512,1024] by [1024,1024] matmul into a zero accumulator, at row r, column col: the dot product of row r of
    the left operand with column col of the right one. -/
theorem k1_mm_apply {φ₁ φ₂ : FTy} (A : FVec Ideal S512x1024 φ₁) (B : FVec Ideal S1024x1024 φ₂) (r : Fin 512) (col : Fin 1024) :
    matmul (F := Ideal) dot_S512x1024_S1024x1024_S512x1024_1_0_0_1_n_n none A B (constant (F := Ideal) S512x1024 .f32 0x00000000#32) (ix2 r col)
      = ∑ t : Fin 1024, A (ix2 r t) * B (ix2 t col) := by
  refine (Ideal.matmul_constant_zero_apply dot_S512x1024_S1024x1024_S512x1024_1_0_0_1_n_n none A B (ix2 r col)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r col) ((contrEquiv1 dot_S512x1024_S1024x1024_S512x1024_1_0_0_1_n_n 1024 rfl rfl).symm k) = ix2 r k :=
    funext fun a => Fin.ext (by
      match a with
      | ⟨0, _⟩ => exact k1D_lhs0 _ _
      | ⟨1, _⟩ => exact (k1D_lhs1 _ _).trans hk)
  have er : dot_S512x1024_S1024x1024_S512x1024_1_0_0_1_n_n.rhsIdx (ix2 r col) ((contrEquiv1 dot_S512x1024_S1024x1024_S512x1024_1_0_0_1_n_n 1024 rfl rfl).symm k) = ix2 k col :=
    funext fun a => Fin.ext (by
      match a with
      | ⟨0, _⟩ => exact (k1D_rhs0 _ _).trans hk
      | ⟨1, _⟩ => exact k1D_rhs1 _ _)
  exact congrArg₂ (· * ·) (congrArg A el) (congrArg B er)

/-! ## The payloads at an index -/

/-- The scaled scores of the block, at query row r and key row j. -/
theorem k1_pay7_apply (x0 : Vec Ideal S1x512x1024 .bf16) (x1 : Vec Ideal S1x1024x1024 .bf16) (r : Fin 512) (j : Fin 1024) :
    k1_pay7 (F := Ideal) x0 x1 (ix2 r j) = blkScore x0 x1 r j := by
  unfold k1_pay7
  refine (mulf_apply (s := S512x1024) (φ := .f32) _ _ (ix2 r j)).trans ?_
  refine congrArg₂ (· * ·) ?_ rfl
  refine (k1_mm_apply _ _ r j).trans ?_
  refine Finset.sum_congr rfl fun e _ => ?_
  refine congrArg₂ (· * ·) ?_ ?_
  · exact shapeCast_1ab_ab_apply x0 shapeCasts_S1x512x1024_S512x1024 r e
  · refine (transpose_ix2_apply _ transposes_S1024x1024_p1_0_S1024x1024 e j).trans ?_
    exact shapeCast_1ab_ab_apply x1 shapeCasts_S1x1024x1024_S1024x1024 j e

/-- The new running maximum at row r: the old one against the row maximum of the block's scores. -/
theorem k1_pay8_apply (x0 : Vec Ideal S1x512x1024 .bf16) (x1 : Vec Ideal S1x1024x1024 .bf16) (m : Vec Ideal S512x1 .f32) (r : Fin 512) :
    k1_pay8 (F := Ideal) x0 x1 m (ix2 r (0 : Fin 1)) = max (m (ix2 r (0 : Fin 1))) (Cert.Attn.vmax (blkScore x0 x1 r)) := by
  unfold k1_pay8
  refine (maximumf_apply (s := S512x1) (φ := .f32) _ _ (ix2 r (0 : Fin 1))).trans ?_
  refine congrArg (max (m (ix2 r (0 : Fin 1)))) ?_
  refine (k1_shapeCast_a_a1_apply _ shapeCasts_S512_S512x1 r (0 : Fin 1)).trans ?_
  refine (k1_rowmax (k1_pay7 (F := Ideal) x0 x1) r).trans ?_
  exact congrArg Cert.Attn.vmax (funext fun j => k1_pay7_apply x0 x1 r j)

/-- The rescaling factor of the old normaliser and weighted sum at row r. -/
theorem k1_pay9_apply (x0 : Vec Ideal S1x512x1024 .bf16) (x1 : Vec Ideal S1x1024x1024 .bf16) (m m2 : Vec Ideal S512x1 .f32) (r : Fin 512) :
    k1_pay9 (F := Ideal) x0 x1 m m2 (ix2 r (0 : Fin 1))
      = Ideal.exp (m2 (ix2 r (0 : Fin 1)) - max (m (ix2 r (0 : Fin 1))) (Cert.Attn.vmax (blkScore x0 x1 r))) := by
  unfold k1_pay9
  show Ideal.exp (m2 (ix2 r (0 : Fin 1)) - k1_pay8 (F := Ideal) x0 x1 m (ix2 r (0 : Fin 1))) = _
  exact congrArg (fun z => Ideal.exp (m2 (ix2 r (0 : Fin 1)) - z)) (k1_pay8_apply x0 x1 m r)

/-- The exponentials of the block's scores against the new maximum, at query row r and key row j. -/
theorem k1_pay10_apply (x0 : Vec Ideal S1x512x1024 .bf16) (x1 : Vec Ideal S1x1024x1024 .bf16) (m : Vec Ideal S512x1 .f32) (r : Fin 512) (j : Fin 1024) :
    k1_pay10 (F := Ideal) x0 x1 m (ix2 r j)
      = Ideal.exp (blkScore x0 x1 r j - max (m (ix2 r (0 : Fin 1))) (Cert.Attn.vmax (blkScore x0 x1 r))) := by
  unfold k1_pay10
  show Ideal.exp (k1_pay7 (F := Ideal) x0 x1 (ix2 r j)
      - broadcastTo S512x1024 (k1_pay8 (F := Ideal) x0 x1 m) broadcasts_S512x1_S512x1024 (ix2 r j)) = _
  refine congrArg₂ (fun a b => Ideal.exp (a - b)) (k1_pay7_apply x0 x1 r j) ?_
  refine (k1_broadcastTo_a1_ab_apply _ broadcasts_S512x1_S512x1024 r j).trans ?_
  exact k1_pay8_apply x0 x1 m r

/-- The new normaliser at row r. -/
theorem k1_pay11_apply (x0 : Vec Ideal S1x512x1024 .bf16) (x1 : Vec Ideal S1x1024x1024 .bf16) (m m2 l : Vec Ideal S512x1 .f32) (r : Fin 512) :
    k1_pay11 (F := Ideal) x0 x1 m m2 l (ix2 r (0 : Fin 1))
      = Ideal.exp (m2 (ix2 r (0 : Fin 1)) - max (m (ix2 r (0 : Fin 1))) (Cert.Attn.vmax (blkScore x0 x1 r))) * l (ix2 r (0 : Fin 1))
        + ∑ j : Fin 1024, Ideal.exp (blkScore x0 x1 r j - max (m (ix2 r (0 : Fin 1))) (Cert.Attn.vmax (blkScore x0 x1 r))) := by
  unfold k1_pay11
  refine (congrFun (shapeCast_self _ shapeCasts_S512x1_S512x1) (ix2 r (0 : Fin 1))).trans ?_
  refine (addf_apply (s := S512x1) (φ := .f32) _ _ (ix2 r (0 : Fin 1))).trans ?_
  refine congrArg₂ (· + ·) ?_ ?_
  · refine (mulf_apply (s := S512x1) (φ := .f32) _ _ (ix2 r (0 : Fin 1))).trans ?_
    exact congrArg (· * l (ix2 r (0 : Fin 1))) (k1_pay9_apply x0 x1 m m2 r)
  · refine (k1_shapeCast_a_a1_apply _ shapeCasts_S512_S512x1 r (0 : Fin 1)).trans ?_
    refine (k1_rowsum (k1_pay10 (F := Ideal) x0 x1 m) r).trans ?_
    exact Finset.sum_congr rfl fun j _ => k1_pay10_apply x0 x1 m r j

/-- The value block with its unit axis dropped. -/
theorem k1_pay12_apply (x2 : Vec Ideal S1x1024x1024 .bf16) (j d : Fin 1024) :
    k1_pay12 (F := Ideal) x2 (ix2 j d) = x2 (ix3 (0 : Fin 1) j d) := by
  unfold k1_pay12
  exact shapeCast_1ab_ab_apply x2 shapeCasts_S1x1024x1024_S1024x1024 j d

/-- The new weighted sum at row r, column d: the old one rescaled plus the exponentials' row times the values' column. -/
theorem k1_pay1_apply (v17 : FVec Ideal S512x1 .f32) (v20 : FVec Ideal S512x1024 .f32) (v30 : FVec Ideal S1024x1024 .bf16)
    (v31 : Vec Ideal S512x1024 .f32) (r : Fin 512) (d : Fin 1024) :
    k1_pay1 (F := Ideal) v17 v20 v30 v31 (ix2 r d)
      = v17 (ix2 r (0 : Fin 1)) * v31 (ix2 r d) + ∑ j : Fin 1024, v20 (ix2 r j) * v30 (ix2 j d) := by
  unfold k1_pay1
  refine (congrFun (shapeCast_self _ shapeCasts_S512x1024_S512x1024) (ix2 r d)).trans ?_
  refine (addf_apply (s := S512x1024) (φ := .f32) _ _ (ix2 r d)).trans ?_
  refine congrArg₂ (· + ·) ?_ ?_
  · refine (mulf_apply (s := S512x1024) (φ := .f32) _ _ (ix2 r d)).trans ?_
    exact congrArg (· * v31 (ix2 r d)) (k1_broadcastTo_a1_ab_apply v17 broadcasts_S512x1_S512x1024 r d)
  · exact k1_mm_apply (truncf .bf16 v20 bitsLt_bf16_f32 : FVec Ideal S512x1024 .bf16) v30 r d

/-- The output tile at row r, column d: the weighted sum times the reciprocal of the normaliser. -/
theorem k1_pay3_apply (a : Vec Ideal S512x1024 .f32) (l : Vec Ideal S512x1 .f32) (r : Fin 512) (d : Fin 1024) :
    k1_pay3 (F := Ideal) a l (ix3 (0 : Fin 1) r d) = a (ix2 r d) * Ideal.div 1 (l (ix2 r (0 : Fin 1))) := by
  unfold k1_pay3
  refine (shapeCast_ab_1ab_apply _ shapeCasts_S512x1024_S1x512x1024 (0 : Fin 1) r d).trans ?_
  refine (mulf_apply (s := S512x1024) (φ := .f32) _ _ (ix2 r d)).trans ?_
  refine congrArg (a (ix2 r d) * ·) ?_
  refine (k1_broadcastTo_a1_ab_apply _ broadcasts_S512x1_S512x1024 r d).trans ?_
  show Ideal.div (Ideal.ofBits .f32 0x3F800000#32) (l (ix2 r (0 : Fin 1))) = _
  rw [Cert.Attn.ofBits_one]

/-- The reset values: -∞ for the running maximum, 0 for the normaliser and the weighted sum. -/
theorem k1_pay4_apply (y : S512x1.Idx) : k1_pay4 (F := Ideal) y = ⊥ := by
  unfold k1_pay4
  refine (congrFun (shapeCast_self _ shapeCasts_S512x1_S512x1) y).trans ?_
  exact Cert.Attn.ofBits_neg_inf
theorem k1_pay5_apply (y : S512x1.Idx) : k1_pay5 (F := Ideal) y = 0 := by
  unfold k1_pay5
  refine (congrFun (shapeCast_self _ shapeCasts_S512x1_S512x1) y).trans ?_
  exact Ideal.ofBits_zero_f32
theorem k1_pay6_apply (y : S512x1024.Idx) : k1_pay6 (F := Ideal) y = 0 := by
  unfold k1_pay6
  refine (congrFun (shapeCast_self _ shapeCasts_S512x1024_S512x1024) y).trans ?_
  exact Ideal.ofBits_zero_f32

/-! ## One step of the running form, in the payloads -/

/-- The stored running maximum is the step's first component. -/
theorem k1_new_m (x0 : Vec Ideal S1x512x1024 .bf16) (x1 : Vec Ideal S1x1024x1024 .bf16) (m : Vec Ideal S512x1 .f32)
    (r : Fin 512) (l a : EReal) (v : Fin 1024 → EReal) :
    k1_pay2 (F := Ideal) (k1_pay8 (F := Ideal) x0 x1 m) (ix2 r (0 : Fin 1))
      = (Cert.Attn.onlineStep (m (ix2 r (0 : Fin 1)), l, a) (blkScore x0 x1 r) v).1 := by
  unfold k1_pay2
  refine (congrFun (shapeCast_self _ shapeCasts_S512x1_S512x1) (ix2 r (0 : Fin 1))).trans ?_
  exact k1_pay8_apply x0 x1 m r

/-- The stored normaliser is the step's second component. -/
theorem k1_new_l (x0 : Vec Ideal S1x512x1024 .bf16) (x1 : Vec Ideal S1x1024x1024 .bf16) (m l : Vec Ideal S512x1 .f32)
    (r : Fin 512) (a : EReal) (v : Fin 1024 → EReal) :
    k1_pay11 (F := Ideal) x0 x1 m m l (ix2 r (0 : Fin 1))
      = (Cert.Attn.onlineStep (m (ix2 r (0 : Fin 1)), l (ix2 r (0 : Fin 1)), a) (blkScore x0 x1 r) v).2.1 :=
  k1_pay11_apply x0 x1 m m l r

/-- The stored weighted sum is the step's third component. -/
theorem k1_new_acc (x0 : Vec Ideal S1x512x1024 .bf16) (x1 : Vec Ideal S1x1024x1024 .bf16) (x2 : Vec Ideal S1x1024x1024 .bf16)
    (m : Vec Ideal S512x1 .f32) (acc : Vec Ideal S512x1024 .f32) (r : Fin 512) (d : Fin 1024) (l : EReal) :
    k1_pay1 (F := Ideal) (k1_pay9 (F := Ideal) x0 x1 m m) (k1_pay10 (F := Ideal) x0 x1 m) (k1_pay12 (F := Ideal) x2) acc (ix2 r d)
      = (Cert.Attn.onlineStep (m (ix2 r (0 : Fin 1)), l, acc (ix2 r d)) (blkScore x0 x1 r) (blkCol x2 d)).2.2 := by
  refine (k1_pay1_apply _ _ _ acc r d).trans ?_
  refine congrArg₂ (· + ·) (congrArg (· * acc (ix2 r d)) (k1_pay9_apply x0 x1 m m r)) ?_
  exact Finset.sum_congr rfl fun j _ => congrArg₂ (· * ·) (k1_pay10_apply x0 x1 m r j) (k1_pay12_apply x2 j d)

/-! ## What the body leaves, at an index -/

/-- At key/value tile 0 the three scratch buffers end, at query row r (and output column d), at one step of the
    running form from the empty state over the block's scores and the block's value column. -/
theorem sout1_A_val (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : ¬cond1_1 i) (x0 : Vec Ideal S1x512x1024 .bf16) (x1 : Vec Ideal S1x1024x1024 .bf16) (x2 : Vec Ideal S1x1024x1024 .bf16) (r : Fin 512) (d : Fin 1024) :
    (sout1_A_0 (F := Ideal) c i arg3 harg3 arg4 harg4 arg5 harg5 arg6 harg6 arg7 harg7 arg8 harg8 arg9 harg9 hc0 hc1 x0 x1 x2 (ix2 r (0 : Fin 1)),
      sout1_A_1 (F := Ideal) c i arg3 harg3 arg4 harg4 arg5 harg5 arg6 harg6 arg7 harg7 arg8 harg8 arg9 harg9 hc0 hc1 x0 x1 x2 (ix2 r (0 : Fin 1)),
      sout1_A_2 (F := Ideal) c i arg3 harg3 arg4 harg4 arg5 harg5 arg6 harg6 arg7 harg7 arg8 harg8 arg9 harg9 hc0 hc1 x0 x1 x2 (ix2 r d))
      = Cert.Attn.onlineStep (⊥, 0, 0) (blkScore x0 x1 r) (blkCol x2 d) := by
  rw [sout1_A_0_eq, sout1_A_1_eq, sout1_A_2_eq]
  have key : (k1_pay2 (F := Ideal) (k1_pay8 (F := Ideal) x0 x1 (k1_pay4 (F := Ideal))) (ix2 r (0 : Fin 1)),
      k1_pay11 (F := Ideal) x0 x1 (k1_pay4 (F := Ideal)) (k1_pay4 (F := Ideal)) (k1_pay5 (F := Ideal)) (ix2 r (0 : Fin 1)),
      k1_pay1 (F := Ideal) (k1_pay9 (F := Ideal) x0 x1 (k1_pay4 (F := Ideal)) (k1_pay4 (F := Ideal))) (k1_pay10 (F := Ideal) x0 x1 (k1_pay4 (F := Ideal)))
        (k1_pay12 (F := Ideal) x2) (k1_pay6 (F := Ideal)) (ix2 r d))
      = Cert.Attn.onlineStep (k1_pay4 (F := Ideal) (ix2 r (0 : Fin 1)), k1_pay5 (F := Ideal) (ix2 r (0 : Fin 1)), k1_pay6 (F := Ideal) (ix2 r d))
          (blkScore x0 x1 r) (blkCol x2 d) :=
    Prod.ext (k1_new_m x0 x1 _ r _ _ _) (Prod.ext (k1_new_l x0 x1 _ _ r _ _) (k1_new_acc x0 x1 x2 _ _ r d _))
  refine key.trans ?_
  rw [k1_pay4_apply, k1_pay5_apply, k1_pay6_apply]

/-- At key/value tile 1 the three scratch buffers end at one step of the running form from the state they held. -/
theorem sout1_B_val (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec Ideal S1x512x1024 .bf16) (x1 : Vec Ideal S1x1024x1024 .bf16) (x2 : Vec Ideal S1x1024x1024 .bf16) (xs0 : Vec Ideal S512x1 .f32) (xs1 : Vec Ideal S512x1 .f32) (xs2 : Vec Ideal S512x1024 .f32) (r : Fin 512) (d : Fin 1024) :
    (sout1_B_0 (F := Ideal) c i arg3 harg3 arg4 harg4 arg5 harg5 arg6 harg6 arg7 harg7 arg8 harg8 arg9 harg9 hc0 hc1 x0 x1 x2 xs0 xs1 xs2 (ix2 r (0 : Fin 1)),
      sout1_B_1 (F := Ideal) c i arg3 harg3 arg4 harg4 arg5 harg5 arg6 harg6 arg7 harg7 arg8 harg8 arg9 harg9 hc0 hc1 x0 x1 x2 xs0 xs1 xs2 (ix2 r (0 : Fin 1)),
      sout1_B_2 (F := Ideal) c i arg3 harg3 arg4 harg4 arg5 harg5 arg6 harg6 arg7 harg7 arg8 harg8 arg9 harg9 hc0 hc1 x0 x1 x2 xs0 xs1 xs2 (ix2 r d))
      = Cert.Attn.onlineStep (xs0 (ix2 r (0 : Fin 1)), xs1 (ix2 r (0 : Fin 1)), xs2 (ix2 r d)) (blkScore x0 x1 r) (blkCol x2 d) := by
  rw [sout1_B_0_eq, sout1_B_1_eq, sout1_B_2_eq]
  exact Prod.ext (k1_new_m x0 x1 xs0 r _ _ _) (Prod.ext (k1_new_l x0 x1 xs0 xs1 r _ _) (k1_new_acc x0 x1 x2 xs0 xs2 r d _))

/-- At key/value tile 1 the output tile ends, at row r and column d, at that step's weighted sum times the
    reciprocal of its normaliser. -/
theorem out1_B_val (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (x0 : Vec Ideal S1x512x1024 .bf16) (x1 : Vec Ideal S1x1024x1024 .bf16) (x2 : Vec Ideal S1x1024x1024 .bf16) (xs0 : Vec Ideal S512x1 .f32) (xs1 : Vec Ideal S512x1 .f32) (xs2 : Vec Ideal S512x1024 .f32) (r : Fin 512) (d : Fin 1024) :
    out1_B_3 (F := Ideal) c i arg3 harg3 arg4 harg4 arg5 harg5 arg6 harg6 arg7 harg7 arg8 harg8 arg9 harg9 hc0 hc1 x0 x1 x2 xs0 xs1 xs2 (ix3 (0 : Fin 1) r d)
      = (Cert.Attn.onlineStep (xs0 (ix2 r (0 : Fin 1)), xs1 (ix2 r (0 : Fin 1)), xs2 (ix2 r d)) (blkScore x0 x1 r) (blkCol x2 d)).2.2
          * Ideal.div 1 (Cert.Attn.onlineStep (xs0 (ix2 r (0 : Fin 1)), xs1 (ix2 r (0 : Fin 1)), xs2 (ix2 r d)) (blkScore x0 x1 r) (blkCol x2 d)).2.1 := by
  rw [out1_B_3_eq]
  refine (k1_pay3_apply _ _ r d).trans ?_
  exact congrArg₂ (fun a l => a * Ideal.div 1 l) (k1_new_acc x0 x1 x2 xs0 xs2 r d _) (k1_new_l x0 x1 xs0 xs1 r _ _)

end Cert.KernelIdeal.Hand
end
-- ==== Proof.KI.Reg1Array.lean ====
/- What the attention kernel's output array holds after the region, at the ideal values: ONE function of the three
   arrays the region finds (the projected queries, keys and values) — per batch entry, query row and output column,
   the two-block running form of softmax attention over the scores of the row against the first and the second 1024
   key rows and the column of the value rows. The output block is written back at the odd grid points only; what an
   odd point leaves is the second step of the running form from what the even point before it left in the scratch. -/
import proofs.«154121_j11690900980356_2_alg».proof.Proof.KI.Reg1Value
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-- The attention kernel's result as one function of its three input arrays: per batch entry `i 0`, query row
    `i 1` and output column `i 2`, the two-block running form over the scaled scores of the row against the first
    and the second 1024 key rows, and column `i 2` of the value rows. -/
def attnOnline (q k v : Vec Ideal S4x2048x1024 .bf16) : S4x2048x1024.Idx → EReal := fun i =>
  Cert.Attn.onlineRow
    (fun j => Cert.Attn.score (fun s e => q (ix3 (i 0) s e)) (fun s e => k (ix3 (i 0) s e)) (Ideal.ofBits .f32 0x3D000000#32) (i 1) (Cert.Attn.lo j))
    (fun j => Cert.Attn.score (fun s e => q (ix3 (i 0) s e)) (fun s e => k (ix3 (i 0) s e)) (Ideal.ofBits .f32 0x3D000000#32) (i 1) (Cert.Attn.hi j))
    (fun j => v (ix3 (i 0) (Cert.Attn.lo j) (i 2)))
    (fun j => v (ix3 (i 0) (Cert.Attn.hi j) (i 2)))

/-- The running form over two blocks, each given by its own rows of queries, keys and values, is the running form
    over the arrays' rows when the blocks are those rows: the query block's row is the array's row `i 1`, the first
    key/value block's rows are the first 1024 rows, the second's the second 1024. -/
theorem attn_block (q k v : Vec Ideal S4x2048x1024 .bf16)
    (x0' x0 : Vec Ideal S1x512x1024 .bf16) (x1' x1 x2' x2 : Vec Ideal S1x1024x1024 .bf16) (r : Fin 512) (d : Fin 1024) (i : S4x2048x1024.Idx)
    (hq' : ∀ e : Fin 1024, x0' (ix3 (0 : Fin 1) r e) = q (ix3 (i 0) (i 1) e))
    (hq : ∀ e : Fin 1024, x0 (ix3 (0 : Fin 1) r e) = q (ix3 (i 0) (i 1) e))
    (hk' : ∀ (j e : Fin 1024), x1' (ix3 (0 : Fin 1) j e) = k (ix3 (i 0) (Cert.Attn.lo j) e))
    (hk : ∀ (j e : Fin 1024), x1 (ix3 (0 : Fin 1) j e) = k (ix3 (i 0) (Cert.Attn.hi j) e))
    (hv' : ∀ j : Fin 1024, x2' (ix3 (0 : Fin 1) j d) = v (ix3 (i 0) (Cert.Attn.lo j) (i 2)))
    (hv : ∀ j : Fin 1024, x2 (ix3 (0 : Fin 1) j d) = v (ix3 (i 0) (Cert.Attn.hi j) (i 2))) :
    Cert.Attn.onlineRow (blkScore x0' x1' r) (blkScore x0 x1 r) (blkCol x2' d) (blkCol x2 d) = attnOnline q k v i := by
  have e0 : blkScore x0' x1' r = fun j => Cert.Attn.score (fun s e => q (ix3 (i 0) s e)) (fun s e => k (ix3 (i 0) s e)) (Ideal.ofBits .f32 0x3D000000#32) (i 1) (Cert.Attn.lo j) :=
    funext fun j => by
      unfold blkScore Cert.Attn.score
      exact congrArg (· * Ideal.ofBits .f32 0x3D000000#32) (Finset.sum_congr rfl fun e _ => by rw [hq' e, hk' j e])
  have e1 : blkScore x0 x1 r = fun j => Cert.Attn.score (fun s e => q (ix3 (i 0) s e)) (fun s e => k (ix3 (i 0) s e)) (Ideal.ofBits .f32 0x3D000000#32) (i 1) (Cert.Attn.hi j) :=
    funext fun j => by
      unfold blkScore Cert.Attn.score
      exact congrArg (· * Ideal.ofBits .f32 0x3D000000#32) (Finset.sum_congr rfl fun e _ => by rw [hq e, hk j e])
  have e2 : blkCol x2' d = fun j => v (ix3 (i 0) (Cert.Attn.lo j) (i 2)) := funext fun j => by unfold blkCol; exact hv' j
  have e3 : blkCol x2 d = fun j => v (ix3 (i 0) (Cert.Attn.hi j) (i 2)) := funext fun j => by unfold blkCol; exact hv j
  unfold attnOnline
  rw [e0, e1, e2, e3]

/-! ## The windows' blocks at a point -/

variable (V : (c : Dev nD) → (b : Ref sig .tc) → Buf (Elt Ideal) ((c : Thread nD τ).loc b))

/-- The block indices over the grid (point `t` = 8 · batch entry + 2 · query tile + key/value tile): the query and
    output windows at (batch entry, query tile, 0), the key and value windows at (batch entry, key/value tile, 0). -/
theorem idx_facts1 : ∀ t : Fin cfg1.N,
    win1_0.index t (0 : Fin 3) = t.val / 8 ∧ win1_0.index t (1 : Fin 3) = t.val / 2 % 4 ∧ win1_0.index t (2 : Fin 3) = 0
    ∧ win1_1.index t (0 : Fin 3) = t.val / 8 ∧ win1_1.index t (1 : Fin 3) = t.val % 2 ∧ win1_1.index t (2 : Fin 3) = 0
    ∧ win1_2.index t (0 : Fin 3) = t.val / 8 ∧ win1_2.index t (1 : Fin 3) = t.val % 2 ∧ win1_2.index t (2 : Fin 3) = 0
    ∧ win1_3.index t (0 : Fin 3) = t.val / 8 ∧ win1_3.index t (1 : Fin 3) = t.val / 2 % 4 ∧ win1_3.index t (2 : Fin 3) = 0 :=
  (by decide +kernel : ∀ t : Fin grid1.N, _)

/-- The query block at point `t`, at an index: rows 512 · (query tile) … of the batch entry. -/
theorem iblk1_0_apply (c : Dev nD) (t : Fin cfg1.N) (r : Fin 512) (e : Fin 1024) (i : S4x2048x1024.Idx)
    (h0 : (i 0).val = t.val / 8) (h1 : (i 1).val = t.val / 2 % 4 * 512 + r.val) (h2 : (i 2).val = e.val) :
    (iblk1 V c 0 t : Vec Ideal S1x512x1024 .bf16) (ix3 (0 : Fin 1) r e) = (V c main_v8_0 : Vec Ideal S4x2048x1024 .bf16) i := by
  obtain ⟨e0, e1, e2, -⟩ := idx_facts1 t
  show (V c main_v8_0 : Vec Ideal S4x2048x1024 .bf16) (((cfg1.win 0).blk t).view.emb (ix3 (0 : Fin 1) r e)) = V c main_v8_0 i
  refine congrArg (V c main_v8_0 : Vec Ideal S4x2048x1024 .bf16) (funext fun a => Fin.ext ?_)
  match a with
  | ⟨0, _⟩ => show win1_0.index t (0 : Fin 3) * 1 + 1 * 0 = (i 0).val; omega
  | ⟨1, _⟩ => show win1_0.index t (1 : Fin 3) * 512 + 1 * r.val = (i 1).val; omega
  | ⟨2, _⟩ => show win1_0.index t (2 : Fin 3) * 1024 + 1 * e.val = (i 2).val; omega

/-- The key block at point `t`, at an index: rows 1024 · (key/value tile) … of the batch entry. -/
theorem iblk1_1_apply (c : Dev nD) (t : Fin cfg1.N) (j : Fin 1024) (e : Fin 1024) (i : S4x2048x1024.Idx)
    (h0 : (i 0).val = t.val / 8) (h1 : (i 1).val = t.val % 2 * 1024 + j.val) (h2 : (i 2).val = e.val) :
    (iblk1 V c 1 t : Vec Ideal S1x1024x1024 .bf16) (ix3 (0 : Fin 1) j e) = (V c main_v8_1 : Vec Ideal S4x2048x1024 .bf16) i := by
  obtain ⟨-, -, -, e0, e1, e2, -⟩ := idx_facts1 t
  show (V c main_v8_1 : Vec Ideal S4x2048x1024 .bf16) (((cfg1.win 1).blk t).view.emb (ix3 (0 : Fin 1) j e)) = V c main_v8_1 i
  refine congrArg (V c main_v8_1 : Vec Ideal S4x2048x1024 .bf16) (funext fun a => Fin.ext ?_)
  match a with
  | ⟨0, _⟩ => show win1_1.index t (0 : Fin 3) * 1 + 1 * 0 = (i 0).val; omega
  | ⟨1, _⟩ => show win1_1.index t (1 : Fin 3) * 1024 + 1 * j.val = (i 1).val; omega
  | ⟨2, _⟩ => show win1_1.index t (2 : Fin 3) * 1024 + 1 * e.val = (i 2).val; omega

/-- The value block at point `t`, at an index. -/
theorem iblk1_2_apply (c : Dev nD) (t : Fin cfg1.N) (j : Fin 1024) (e : Fin 1024) (i : S4x2048x1024.Idx)
    (h0 : (i 0).val = t.val / 8) (h1 : (i 1).val = t.val % 2 * 1024 + j.val) (h2 : (i 2).val = e.val) :
    (iblk1 V c 2 t : Vec Ideal S1x1024x1024 .bf16) (ix3 (0 : Fin 1) j e) = (V c main_v8_2 : Vec Ideal S4x2048x1024 .bf16) i := by
  obtain ⟨-, -, -, -, -, -, e0, e1, e2, -⟩ := idx_facts1 t
  show (V c main_v8_2 : Vec Ideal S4x2048x1024 .bf16) (((cfg1.win 2).blk t).view.emb (ix3 (0 : Fin 1) j e)) = V c main_v8_2 i
  refine congrArg (V c main_v8_2 : Vec Ideal S4x2048x1024 .bf16) (funext fun a => Fin.ext ?_)
  match a with
  | ⟨0, _⟩ => show win1_2.index t (0 : Fin 3) * 1 + 1 * 0 = (i 0).val; omega
  | ⟨1, _⟩ => show win1_2.index t (1 : Fin 3) * 1024 + 1 * j.val = (i 1).val; omega
  | ⟨2, _⟩ => show win1_2.index t (2 : Fin 3) * 1024 + 1 * e.val = (i 2).val; omega

/-- Where an element of point `t`'s output block sits in the array. -/
theorem emb1_3_val (t : Fin cfg1.N) (u : Fin 1) (r : Fin 512) (d : Fin 1024) :
    ((((cfg1.win 3).blk t).view.emb (ix3 u r d) : S4x2048x1024.Idx) 0).val = t.val / 8
    ∧ ((((cfg1.win 3).blk t).view.emb (ix3 u r d) : S4x2048x1024.Idx) 1).val = t.val / 2 % 4 * 512 + r.val
    ∧ ((((cfg1.win 3).blk t).view.emb (ix3 u r d) : S4x2048x1024.Idx) 2).val = d.val := by
  obtain ⟨-, -, -, -, -, -, -, -, -, e0, e1, e2⟩ := idx_facts1 t
  have hu : u.val < 1 := u.isLt
  refine ⟨?_, ?_, ?_⟩
  · show win1_3.index t (0 : Fin 3) * 1 + 1 * u.val = _; omega
  · show win1_3.index t (1 : Fin 3) * 512 + 1 * r.val = _; omega
  · show win1_3.index t (2 : Fin 3) * 1024 + 1 * d.val = _; omega

/-! ## What an odd point leaves in the output block -/

/-- The scratch after an even point, at a row (and a column of the weighted sum): the first step of the running
    form, from the reset scratch, over the point's blocks. -/
theorem atA_val (c : Dev nD) (t : Fin cfg1.N) (h0 : t.val % 2 = 0) (r : Fin 512) (d : Fin 1024) :
    ((atA V c t h0).1 (ix2 r (0 : Fin 1)), (atA V c t h0).2.1 (ix2 r (0 : Fin 1)), (atA V c t h0).2.2 (ix2 r d))
      = Cert.Attn.onlineStep (⊥, 0, 0) (blkScore (iblk1 V c 0 t) (iblk1 V c 1 t) r) (blkCol (iblk1 V c 2 t) d) := by
  have h := sout1_A_val c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => by have h' := (hcond1_1 t).mp h; omega)
    (iblk1 V c 0 t) (iblk1 V c 1 t) (iblk1 V c 2 t) r d
  unfold atA
  dsimp only
  exact h

/-- At an odd point the output block, at an index, is the running form over the arrays' rows: the even point before
    it folded the first 1024 key/value rows in from the reset scratch, this point folds the second 1024 in and divides. -/
theorem out_at (c : Dev nD) (t : Fin cfg1.N) (h1 : t.val % 2 = 1) (u : Fin 1) (r : Fin 512) (d : Fin 1024) :
    outAfter V c t (ix3 u r d)
      = attnOnline (V c main_v8_0) (V c main_v8_1) (V c main_v8_2) (((cfg1.win 3).blk t).view.emb (ix3 u r d)) := by
  obtain ⟨g0, g1, g2⟩ := emb1_3_val t u r d
  obtain rfl : u = (0 : Fin 1) := Subsingleton.elim _ _
  have hlt : t.val - 1 < cfg1.N := by have := t.isLt; omega
  rw [outAfter_odd V c t h1]
  refine (out1_B_val c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => by have h' := (hcond1_0 t).mp h; omega) ((hcond1_1 t).mpr h1)
    (iblk1 V c 0 t) (iblk1 V c 1 t) (iblk1 V c 2 t)
    (atA V c ⟨t.val - 1, hlt⟩ (by dsimp only; omega)).1 (atA V c ⟨t.val - 1, hlt⟩ (by dsimp only; omega)).2.1 (atA V c ⟨t.val - 1, hlt⟩ (by dsimp only; omega)).2.2 r d).trans ?_
  have hA := atA_val V c ⟨t.val - 1, hlt⟩ (by dsimp only; omega) r d
  rw [hA]
  refine Eq.trans (b := Cert.Attn.onlineRow (blkScore (iblk1 V c 0 ⟨t.val - 1, hlt⟩) (iblk1 V c 1 ⟨t.val - 1, hlt⟩) r) (blkScore (iblk1 V c 0 t) (iblk1 V c 1 t) r)
    (blkCol (iblk1 V c 2 ⟨t.val - 1, hlt⟩) d) (blkCol (iblk1 V c 2 t) d)) rfl ?_
  refine attn_block (V c main_v8_0) (V c main_v8_1) (V c main_v8_2) (iblk1 V c 0 ⟨t.val - 1, hlt⟩) (iblk1 V c 0 t) (iblk1 V c 1 ⟨t.val - 1, hlt⟩) (iblk1 V c 1 t)
    (iblk1 V c 2 ⟨t.val - 1, hlt⟩) (iblk1 V c 2 t) r d (((cfg1.win 3).blk t).view.emb (ix3 (0 : Fin 1) r d)) ?_ ?_ ?_ ?_ ?_ ?_
  · exact fun e => iblk1_0_apply V c ⟨t.val - 1, hlt⟩ r e _ (by show _ = (t.val - 1) / 8; rw [g0]; omega) (by show _ = (t.val - 1) / 2 % 4 * 512 + r.val; rw [g1]; omega) rfl
  · exact fun e => iblk1_0_apply V c t r e _ g0 g1 rfl
  · exact fun j e => iblk1_1_apply V c ⟨t.val - 1, hlt⟩ j e _ (by show _ = (t.val - 1) / 8; rw [g0]; omega) (by show j.val = (t.val - 1) % 2 * 1024 + j.val; omega) rfl
  · exact fun j e => iblk1_1_apply V c t j e _ g0 (by show 1024 + j.val = t.val % 2 * 1024 + j.val; omega) rfl
  · exact fun j => iblk1_2_apply V c ⟨t.val - 1, hlt⟩ j d _ (by show _ = (t.val - 1) / 8; rw [g0]; omega) (by show j.val = (t.val - 1) % 2 * 1024 + j.val; omega) g2
  · exact fun j => iblk1_2_apply V c t j d _ g0 (by show 1024 + j.val = t.val % 2 * 1024 + j.val; omega) g2

/-! ## From blocks to the array -/

/-- What an odd point writes back is its block of the one function. -/
theorem flushed1_3_eq (c : Dev nD) (t : Fin cfg1.N) (hf : (cfg1.win 3).flush t = true) :
    (dat1 (F := Ideal) V c).flushed 3 t
      = ((cfg1.win 3).blk t).view.read (Elt Ideal) (attnOnline (V c main_v8_0) (V c main_v8_1) (V c main_v8_2)) := by
  have h1 : t.val % 2 = 1 := (flush1_3 t).mp hf
  show (cfg1.win 3).cut (grid1.coords t) ((dat1 V c).after 3 t) = _
  rw [after1_3]
  funext j
  obtain ⟨u, r, d, rfl⟩ : ∃ (u : Fin 1) (r : Fin 512) (d : Fin 1024), j = ix3 u r d := ⟨j 0, j 1, j 2, eq_ix3 j⟩
  exact out_at V c t h1 u r d

/-- An index of the array is in point `t`'s block iff each coordinate is in the block's range on its axis. -/
theorem mem_blk1_3 (t : Fin cfg1.N) (i : S4x2048x1024.Idx) :
    i ∈ ((cfg1.win 3).blk t).view.set ↔ ∀ a : Fin 3, win1_3.index t a * S1x512x1024.size a ≤ (i a).val ∧ (i a).val < win1_3.index t a * S1x512x1024.size a + S1x512x1024.size a := by
  show i ∈ ((View.whole main_v9).slice (win1_3.rect t)).set ↔ _
  rw [View.set_slice_whole, Rect.mem_set_unit]
  exact Iff.rfl

/-- The odd points' blocks tile the array: row `s` of batch entry `n` is in the block of the odd point
    8 · n + 2 · (s / 512) + 1. -/
theorem cover1_3 (i : S4x2048x1024.Idx) : ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  have hN : cfg1.N = 32 := N_1
  let t : Fin cfg1.N := ⟨8 * (i 0).val + 2 * ((i 1).val / 512) + 1, by rw [hN]; omega⟩
  have ht : t.val = 8 * (i 0).val + 2 * ((i 1).val / 512) + 1 := rfl
  obtain ⟨-, -, -, -, -, -, -, -, -, e0, e1, e2⟩ := idx_facts1 t
  refine ⟨t, (flush1_3 t).mpr (by omega), ?_⟩
  rw [mem_blk1_3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 1024 ≤ (i 2).val ∧ (i 2).val < win1_3.index t (2 : Fin 3) * 1024 + 1024; omega

/-- After the region the output array is the running-form attention of the three arrays the region found. -/
theorem out_final (c : Dev nD) :
    (dat1 (F := Ideal) V c).arrAt 3 cfg1.N = attnOnline (V c main_v8_0) (V c main_v8_1) (V c main_v8_2) :=
  (dat1 (F := Ideal) V c).arrAt_eq_of_cover 3 (attnOnline (V c main_v8_0) (V c main_v8_1) (V c main_v8_2))
    (fun t hf => flushed1_3_eq V c t hf) cover1_3

/-- info: 'Cert.KernelIdeal.Hand.out_final' depends on axioms: [propext, Classical.choice, Quot.sound] -/
#guard_msgs in #print axioms out_final

end Cert.KernelIdeal.Hand

end
-- ==== Proof.KI.Reg0Value.lean ====
/- What the three output arrays of region 0 (the fused q/k/v projection) hold after the region, at the ideal
   values: each is ONE function of the arrays the region finds — the activations `x`, the concatenated weight
   `W` ([1024, 3072]: the three transposed weights side by side) and the concatenated bias `b` ([3072]) —,
   namely `x · W[:, off : off + 1024] + b[off : off + 1024]` with `off` 0, 1024, 2048 for q, k, v. -/
import proofs.«154121_j11690900980356_2_alg».proof.Proof.KI.Reg0
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-- Column `off + e` of the [1024, 3072] weight and of the [3072] bias: one projection, at batch entry `i 0`,
    row `i 1`, output feature `i 2`. -/
def projCat (x : Vec Ideal S4x2048x1024 .f32) (W : Vec Ideal S1024x3072 .bf16) (b : Vec Ideal S3072 .f32) (off : Nat) (hoff : off + 1024 ≤ 3072) : S4x2048x1024.Idx → EReal :=
  fun i => (∑ t : Fin 1024, x (ix3 (i 0) (i 1) t) * W (ix2 t ⟨off + (i 2).val, by have : (i 2).val < 1024 := (i 2).isLt; omega⟩)) + b (ix1 ⟨off + (i 2).val, by have : (i 2).val < 1024 := (i 2).isLt; omega⟩)

/-! ## The body's payload at an index -/

theorem lhsD_0 (j : S256x3072.Idx) (q : dot_S256x1024_S1024x3072_S256x3072_1_0_0_1_n_n.contr.Idx) : (dot_S256x1024_S1024x3072_S256x3072_1_0_0_1_n_n.lhsIdx j q 0).val = (j 0).val := by
  unfold DotDims.lhsIdx
  rw [dif_neg (show ¬(0 : Fin S256x1024.rank) ∈ dot_S256x1024_S1024x3072_S256x3072_1_0_0_1_n_n.lhsBatch by decide), dif_pos (show (0 : Fin S256x1024.rank) ∈ dot_S256x1024_S1024x3072_S256x3072_1_0_0_1_n_n.lhsNonContracting by decide)]
  rfl
theorem lhsD_1 (j : S256x3072.Idx) (q : dot_S256x1024_S1024x3072_S256x3072_1_0_0_1_n_n.contr.Idx) : (dot_S256x1024_S1024x3072_S256x3072_1_0_0_1_n_n.lhsIdx j q 1).val = (q ⟨0, by decide⟩).val :=
  dot_S256x1024_S1024x3072_S256x3072_1_0_0_1_n_n.lhsIdx_val_of_single rfl j q
theorem rhsD_0 (j : S256x3072.Idx) (q : dot_S256x1024_S1024x3072_S256x3072_1_0_0_1_n_n.contr.Idx) : (dot_S256x1024_S1024x3072_S256x3072_1_0_0_1_n_n.rhsIdx j q 0).val = (q ⟨0, by decide⟩).val :=
  dot_S256x1024_S1024x3072_S256x3072_1_0_0_1_n_n.rhsIdx_val_of_single rfl j q
theorem rhsD_1 (j : S256x3072.Idx) (q : dot_S256x1024_S1024x3072_S256x3072_1_0_0_1_n_n.contr.Idx) : (dot_S256x1024_S1024x3072_S256x3072_1_0_0_1_n_n.rhsIdx j q 1).val = (j 1).val := by
  unfold DotDims.rhsIdx
  rw [dif_neg (show ¬(1 : Fin S1024x3072.rank) ∈ dot_S256x1024_S1024x3072_S256x3072_1_0_0_1_n_n.rhsBatch by decide), dif_pos (show (1 : Fin S1024x3072.rank) ∈ dot_S256x1024_S1024x3072_S256x3072_1_0_0_1_n_n.rhsNonContracting by decide)]
  rfl

/-- The matmul of the block's rows (rounded to bf16, the identity here) with the whole weight into a zero
    accumulator, read at row `r`, column `col`: the dot product of row `r` with column `col`. -/
theorem mm_apply (x0 : Vec Ideal S1x256x1024 .f32) (x1 : Vec Ideal S1024x3072 .bf16) (r : Fin 256) (col : Fin 3072) :
    matmul (F := Ideal) dot_S256x1024_S1024x3072_S256x3072_1_0_0_1_n_n none (truncf .bf16 (shapeCast S256x1024 x0 shapeCasts_S1x256x1024_S256x1024 : FVec Ideal S256x1024 .f32) bitsLt_bf16_f32 : FVec Ideal S256x1024 .bf16)
        (shapeCast S1024x3072 x1 shapeCasts_S1024x3072_S1024x3072 : FVec Ideal S1024x3072 .bf16) (constant (F := Ideal) S256x3072 .f32 0x00000000#32) (ix2 r col)
      = ∑ t : Fin 1024, x0 (ix3 (0 : Fin 1) r t) * x1 (ix2 t col) := by
  refine (Ideal.matmul_constant_zero_apply dot_S256x1024_S1024x3072_S256x3072_1_0_0_1_n_n none _ _ (ix2 r col)).trans ?_
  rw [← Equiv.sum_comp (contrEquiv1 dot_S256x1024_S1024x3072_S256x3072_1_0_0_1_n_n 1024 rfl rfl).symm]
  refine Finset.sum_congr rfl fun k _ => ?_
  have hk := contrEquiv1_symm_val dot_S256x1024_S1024x3072_S256x3072_1_0_0_1_n_n 1024 rfl rfl k
  have el : (Fin.cons ⟨0, Nat.one_pos⟩ (dot_S256x1024_S1024x3072_S256x3072_1_0_0_1_n_n.lhsIdx (ix2 r col) ((contrEquiv1 dot_S256x1024_S1024x3072_S256x3072_1_0_0_1_n_n 1024 rfl rfl).symm k)) : S1x256x1024.Idx) = ix3 (0 : Fin 1) r k :=
    funext fun a => Fin.ext (by
      match a with
      | ⟨0, _⟩ => rfl
      | ⟨1, _⟩ => exact lhsD_0 (ix2 r col) ((contrEquiv1 dot_S256x1024_S1024x3072_S256x3072_1_0_0_1_n_n 1024 rfl rfl).symm k)
      | ⟨2, _⟩ => exact (lhsD_1 (ix2 r col) ((contrEquiv1 dot_S256x1024_S1024x3072_S256x3072_1_0_0_1_n_n 1024 rfl rfl).symm k)).trans hk)
  have er : dot_S256x1024_S1024x3072_S256x3072_1_0_0_1_n_n.rhsIdx (ix2 r col) ((contrEquiv1 dot_S256x1024_S1024x3072_S256x3072_1_0_0_1_n_n 1024 rfl rfl).symm k) = ix2 k col :=
    funext fun a => Fin.ext (by
      match a with
      | ⟨0, _⟩ => exact (rhsD_0 (ix2 r col) ((contrEquiv1 dot_S256x1024_S1024x3072_S256x3072_1_0_0_1_n_n 1024 rfl rfl).symm k)).trans hk
      | ⟨1, _⟩ => exact rhsD_1 (ix2 r col) ((contrEquiv1 dot_S256x1024_S1024x3072_S256x3072_1_0_0_1_n_n 1024 rfl rfl).symm k))
  refine congrArg₂ (· * ·) ?_ ?_
  · refine (truncf_apply (s := S256x1024) (φ := .f32) (ψ := .bf16) _ bitsLt_bf16_f32 _).trans ?_
    refine (shapeCast_dropUnit_apply ![256, 1024] x0 shapeCasts_S1x256x1024_S256x1024 _).trans ?_
    exact congrArg x0 el
  · rw [shapeCast_self]
    exact congrArg x1 er

/-- The bias broadcast along the rows, read at row `r`, column `col`: the bias at `col`. -/
theorem bias_apply (x2 : Vec Ideal S3072 .f32) (r : Fin 256) (col : Fin 3072) :
    broadcastTo S256x3072 (shapeCast S1x3072 (shapeCast S3072 x2 shapeCasts_S3072_S3072) shapeCasts_S3072_S1x3072) broadcasts_S1x3072_S256x3072 (ix2 r col)
      = x2 (ix1 col) := by
  refine (broadcastTo_apply _ broadcasts_S1x3072_S256x3072 (ix2 r col) (ix2 (0 : Fin 1) col) (fun a => ?_)).trans ?_
  · match a with
    | ⟨0, _⟩ => rfl
    | ⟨1, _⟩ => show col.val = if (3072 : Nat) = 1 then 0 else col.val; rw [if_neg (by decide)]
  refine (shapeCast_addUnit_apply ![3072] _ shapeCasts_S3072_S1x3072 (ix2 (0 : Fin 1) col)).trans ?_
  rw [shapeCast_self]
  exact congrArg x2 (funext fun a => by match a with | ⟨0, _⟩ => rfl)

/-- The fused projection of the block, before it is cut in three: at row `r`, column `col`. -/
theorem pay1_apply (x0 : Vec Ideal S1x256x1024 .f32) (x1 : Vec Ideal S1024x3072 .bf16) (x2 : Vec Ideal S3072 .f32) (r : Fin 256) (col : Fin 3072) :
    k0_pay1 (F := Ideal) x0 x1 x2 (ix2 r col) = (∑ t : Fin 1024, x0 (ix3 (0 : Fin 1) r t) * x1 (ix2 t col)) + x2 (ix1 col) := by
  unfold k0_pay1
  refine (truncf_apply (s := S256x3072) (φ := .f32) (ψ := .bf16) _ bitsLt_bf16_f32 (ix2 r col)).trans ?_
  refine (addf_apply (s := S256x3072) (φ := .f32) _ _ (ix2 r col)).trans ?_
  exact congrArg₂ (· + ·) (mm_apply x0 x1 r col) (bias_apply x2 r col)

/-- Columns `off … off + 1023` of a [256, 3072] value, stored as a [1, 256, 1024] block, at an index. -/
theorem cut_apply (P : FVec Ideal S256x3072 .bf16) (off : Nat) (hoff : off + 1024 ≤ 3072) (hs : S256x3072.Slices ![0, off] S256x1024)
    (u : Fin 1) (r : Fin 256) (e : Fin 1024) :
    shapeCast S1x256x1024 (extractStridedSlice S256x1024 ![0, off] P hs) shapeCasts_S256x1024_S1x256x1024 (ix3 u r e)
      = P (ix2 r ⟨off + e.val, by omega⟩) := by
  refine (shapeCast_addUnit_apply ![256, 1024] _ shapeCasts_S256x1024_S1x256x1024 (ix3 u r e)).trans ?_
  refine extractStridedSlice_apply _ P hs _ (ix2 r ⟨off + e.val, by omega⟩) (fun a => ?_)
  match a with
  | ⟨0, _⟩ => show r.val = 0 + r.val; omega
  | ⟨1, _⟩ => rfl

/-- The three stored blocks at an index: the projection at columns `off + e`, `off` 0, 1024, 2048. -/
theorem pay2_apply (x0 : Vec Ideal S1x256x1024 .f32) (x1 : Vec Ideal S1024x3072 .bf16) (x2 : Vec Ideal S3072 .f32) (u : Fin 1) (r : Fin 256) (e : Fin 1024) :
    k0_pay2 (F := Ideal) x0 x1 x2 (ix3 u r e) = (∑ t : Fin 1024, x0 (ix3 (0 : Fin 1) r t) * x1 (ix2 t ⟨0 + e.val, by omega⟩)) + x2 (ix1 ⟨0 + e.val, by omega⟩) := by
  unfold k0_pay2
  exact (cut_apply _ 0 (by omega) slices_S256x3072_o0_0_S256x1024 u r e).trans (pay1_apply x0 x1 x2 r _)
theorem pay3_apply (x0 : Vec Ideal S1x256x1024 .f32) (x1 : Vec Ideal S1024x3072 .bf16) (x2 : Vec Ideal S3072 .f32) (u : Fin 1) (r : Fin 256) (e : Fin 1024) :
    k0_pay3 (F := Ideal) x0 x1 x2 (ix3 u r e) = (∑ t : Fin 1024, x0 (ix3 (0 : Fin 1) r t) * x1 (ix2 t ⟨1024 + e.val, by omega⟩)) + x2 (ix1 ⟨1024 + e.val, by omega⟩) := by
  unfold k0_pay3
  exact (cut_apply _ 1024 (by omega) slices_S256x3072_o0_1024_S256x1024 u r e).trans (pay1_apply x0 x1 x2 r _)
theorem pay4_apply (x0 : Vec Ideal S1x256x1024 .f32) (x1 : Vec Ideal S1024x3072 .bf16) (x2 : Vec Ideal S3072 .f32) (u : Fin 1) (r : Fin 256) (e : Fin 1024) :
    k0_pay4 (F := Ideal) x0 x1 x2 (ix3 u r e) = (∑ t : Fin 1024, x0 (ix3 (0 : Fin 1) r t) * x1 (ix2 t ⟨2048 + e.val, by omega⟩)) + x2 (ix1 ⟨2048 + e.val, by omega⟩) := by
  unfold k0_pay4
  exact (cut_apply _ 2048 (by omega) slices_S256x3072_o0_2048_S256x1024 u r e).trans (pay1_apply x0 x1 x2 r _)

/-! ## From blocks to the arrays -/

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The input windows' block indices over the grid: the activations' block index is (batch entry, row block, 0)
    within the array; the weight's and the bias's never move. -/
theorem idx_facts_in : ∀ t : Fin cfg0.N, win0_0.index t (0 : Fin 3) ≤ 3 ∧ win0_0.index t (1 : Fin 3) ≤ 7 ∧ win0_0.index t (2 : Fin 3) = 0
    ∧ win0_1.index t (0 : Fin 2) = 0 ∧ win0_1.index t (1 : Fin 2) = 0 ∧ win0_2.index t (0 : Fin 1) = 0 :=
  (by decide +kernel : ∀ t : Fin grid0.N, _)

/-- The activations' block at point `t`, at an index: the array at block index × block size + the index. -/
theorem iblk0_0_apply (c : Dev nD) (t : Fin cfg0.N) (r : Fin 256) (k : Fin 1024) (i : S4x2048x1024.Idx)
    (h0 : (i 0).val = win0_0.index t (0 : Fin 3)) (h1 : (i 1).val = win0_0.index t (1 : Fin 3) * 256 + r.val)
    (h2 : (i 2).val = k.val) :
    (iblk0 V c 0 t : Vec Ideal S1x256x1024 .f32) (ix3 (0 : Fin 1) r k) = (V c main_arg0 : Vec Ideal S4x2048x1024 .f32) i := by
  obtain ⟨-, -, e2, -, -, -⟩ := idx_facts_in t
  show (V c main_arg0 : Vec Ideal S4x2048x1024 .f32) (((cfg0.win 0).blk t).view.emb (ix3 (0 : Fin 1) r k)) = V c main_arg0 i
  refine congrArg (V c main_arg0 : Vec Ideal S4x2048x1024 .f32) (funext fun a => Fin.ext ?_)
  match a with
  | ⟨0, _⟩ => show win0_0.index t (0 : Fin 3) * 1 + 1 * 0 = (i 0).val; omega
  | ⟨1, _⟩ => show win0_0.index t (1 : Fin 3) * 256 + 1 * r.val = (i 1).val; omega
  | ⟨2, _⟩ => show win0_0.index t (2 : Fin 3) * 1024 + 1 * k.val = (i 2).val; omega

/-- The weight's block at every point is the whole weight. -/
theorem iblk0_1_eq (c : Dev nD) (t : Fin cfg0.N) : (iblk0 V c 1 t : Vec Ideal S1024x3072 .bf16) = V c main_v6 := by
  obtain ⟨-, -, -, e0, e1, -⟩ := idx_facts_in t
  funext y
  show (V c main_v6 : Vec Ideal S1024x3072 .bf16) (((cfg0.win 1).blk t).view.emb y) = V c main_v6 y
  refine congrArg (V c main_v6 : Vec Ideal S1024x3072 .bf16) (funext fun a => Fin.ext ?_)
  match a with
  | ⟨0, _⟩ => show win0_1.index t (0 : Fin 2) * 1024 + 1 * (y 0).val = (y 0).val; omega
  | ⟨1, _⟩ => show win0_1.index t (1 : Fin 2) * 3072 + 1 * (y 1).val = (y 1).val; omega

/-- The bias's block at every point is the whole bias. -/
theorem iblk0_2_eq (c : Dev nD) (t : Fin cfg0.N) : (iblk0 V c 2 t : Vec Ideal S3072 .f32) = V c main_v7 := by
  obtain ⟨-, -, -, -, -, e0⟩ := idx_facts_in t
  funext y
  show (V c main_v7 : Vec Ideal S3072 .f32) (((cfg0.win 2).blk t).view.emb y) = V c main_v7 y
  refine congrArg (V c main_v7 : Vec Ideal S3072 .f32) (funext fun a => Fin.ext ?_)
  match a with
  | ⟨0, _⟩ => show win0_2.index t (0 : Fin 1) * 3072 + 1 * (y 0).val = (y 0).val; omega

/-- The projection of a block's row is the projection of the array's row the block's row is. -/
theorem proj_block (X : Vec Ideal S4x2048x1024 .f32) (W : Vec Ideal S1024x3072 .bf16) (B : Vec Ideal S3072 .f32)
    (x0 : Vec Ideal S1x256x1024 .f32) (x1 : Vec Ideal S1024x3072 .bf16) (x2 : Vec Ideal S3072 .f32)
    (off : Nat) (hoff : off + 1024 ≤ 3072) (r : Fin 256) (e : Fin 1024) (i : S4x2048x1024.Idx)
    (hx : ∀ k : Fin 1024, x0 (ix3 (0 : Fin 1) r k) = X (ix3 (i 0) (i 1) k)) (hw : x1 = W) (hb : x2 = B) (hi2 : (i 2).val = e.val) :
    (∑ k : Fin 1024, x0 (ix3 (0 : Fin 1) r k) * x1 (ix2 k ⟨off + e.val, by omega⟩)) + x2 (ix1 ⟨off + e.val, by omega⟩)
      = projCat X W B off hoff i := by
  subst hw hb
  unfold projCat
  have hc : (⟨off + e.val, by omega⟩ : Fin 3072) = ⟨off + (i 2).val, by have : (i 2).val < 1024 := (i 2).isLt; omega⟩ := Fin.ext (congrArg (off + ·) hi2.symm)
  rw [← hc]
  exact congrArg (· + x2 (ix1 ⟨off + e.val, by omega⟩)) (Finset.sum_congr rfl fun k _ => by rw [hx k])

/-! ## Output window 3 (q) -/

/-- Output window 3's block moves with the activations' block: batch entry and row block, all of the feature axis. -/
theorem idx_facts3 : ∀ t : Fin cfg0.N, win0_3.index t (0 : Fin 3) = win0_0.index t (0 : Fin 3)
    ∧ win0_3.index t (1 : Fin 3) = win0_0.index t (1 : Fin 3) ∧ win0_3.index t (2 : Fin 3) = 0 :=
  (by decide +kernel : ∀ t : Fin grid0.N, _)

/-- Every (batch entry, row block) is some point's. -/
theorem idx_onto3 : ∀ (q0 : Fin 4) (q1 : Fin 8), ∃ t : Fin cfg0.N, win0_3.index t (0 : Fin 3) = q0.val
    ∧ win0_3.index t (1 : Fin 3) = q1.val ∧ win0_3.index t (2 : Fin 3) = 0 :=
  (by decide +kernel : ∀ (q0 : Fin 4) (q1 : Fin 8), ∃ t : Fin grid0.N, _)

/-- Where an element of point `t`'s block of output window 3 sits in the array. -/
theorem emb3_val (t : Fin cfg0.N) (u : Fin 1) (r : Fin 256) (e : Fin 1024) :
    ((((cfg0.win 3).blk t).view.emb (ix3 u r e) : S4x2048x1024.Idx) 0).val = win0_0.index t (0 : Fin 3)
    ∧ ((((cfg0.win 3).blk t).view.emb (ix3 u r e) : S4x2048x1024.Idx) 1).val = win0_0.index t (1 : Fin 3) * 256 + r.val
    ∧ ((((cfg0.win 3).blk t).view.emb (ix3 u r e) : S4x2048x1024.Idx) 2).val = e.val := by
  obtain ⟨e0, e1, e2⟩ := idx_facts3 t
  have hu : u.val < 1 := u.isLt
  refine ⟨?_, ?_, ?_⟩
  · show win0_3.index t (0 : Fin 3) * 1 + 1 * u.val = _; omega
  · show win0_3.index t (1 : Fin 3) * 256 + 1 * r.val = _; omega
  · show win0_3.index t (2 : Fin 3) * 1024 + 1 * e.val = _; omega

/-- What point `t` writes back to output window 3 is block `t` of the projection at columns `0 + e`. -/
theorem flushed3_eq (c : Dev nD) (t : Fin cfg0.N) :
    (dat0 (F := Ideal) V c).flushed 3 t
      = ((cfg0.win 3).blk t).view.read (Elt Ideal) (projCat (V c main_arg0) (V c main_v6) (V c main_v7) 0 (by omega)) := by
  show (cfg0.win 3).cut (grid0.coords t) ((dat0 V c).after 3 t) = _
  rw [after0_3]
  unfold out0_3
  rw [View.canon_unit_zero hz3]
  simp only [View.ld_unit_zero (S := S1x256x1024) hz3, View.ld_unit_zero (S := S1024x3072) hz2, View.ld_unit_zero (S := S3072) hz1]
  funext j
  obtain ⟨u, r, e, rfl⟩ : ∃ (u : Fin 1) (r : Fin 256) (e : Fin 1024), j = ix3 u r e := ⟨j 0, j 1, j 2, eq_ix3 j⟩
  obtain ⟨h0, h1, h2⟩ := emb3_val t u r e
  show k0_pay2 (iblk0 V c 0 t) (iblk0 V c 1 t) (iblk0 V c 2 t) (ix3 u r e)
    = projCat (V c main_arg0) (V c main_v6) (V c main_v7) 0 (by omega) (((cfg0.win 3).blk t).view.emb (ix3 u r e))
  refine (pay2_apply (iblk0 V c 0 t) (iblk0 V c 1 t) (iblk0 V c 2 t) u r e).trans ?_
  exact proj_block (V c main_arg0) (V c main_v6) (V c main_v7) (iblk0 V c 0 t) (iblk0 V c 1 t) (iblk0 V c 2 t) 0 (by omega) r e
    (((cfg0.win 3).blk t).view.emb (ix3 u r e))
    (fun k => iblk0_0_apply V c t r k _ h0 h1 rfl)
    (iblk0_1_eq V c t) (iblk0_2_eq V c t) h2

/-- An index of the array is in point `t`'s block iff each coordinate is in the block's range on its axis. -/
theorem mem_blk3 (t : Fin cfg0.N) (i : S4x2048x1024.Idx) :
    i ∈ ((cfg0.win 3).blk t).view.set ↔ ∀ a : Fin 3, win0_3.index t a * S1x256x1024.size a ≤ (i a).val ∧ (i a).val < win0_3.index t a * S1x256x1024.size a + S1x256x1024.size a := by
  show i ∈ ((View.whole main_v8_0).slice (win0_3.rect t)).set ↔ _
  rw [View.set_slice_whole, Rect.mem_set_unit]
  exact Iff.rfl

/-- The blocks tile the array: row `s` of batch entry `n` is in the block of the point at (`n`, `s / 256`). -/
theorem cover3 (i : S4x2048x1024.Idx) : ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 1024 := (i 2).isLt
  obtain ⟨t, q0, q1, q2⟩ := idx_onto3 ⟨(i 0).val, hi0⟩ ⟨(i 1).val / 256, by omega⟩
  have q0' : win0_3.index t (0 : Fin 3) = (i 0).val := q0
  have q1' : win0_3.index t (1 : Fin 3) = (i 1).val / 256 := q1
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 1024 ≤ (i 2).val ∧ (i 2).val < win0_3.index t (2 : Fin 3) * 1024 + 1024; omega

/-- After the region the q array is the projection at columns `0 + e` of the arrays the region found. -/
theorem q_final (c : Dev nD) : (dat0 (F := Ideal) V c).arrAt 3 cfg0.N = projCat (V c main_arg0) (V c main_v6) (V c main_v7) 0 (by omega) :=
  (dat0 (F := Ideal) V c).arrAt_eq_of_cover 3 (projCat (V c main_arg0) (V c main_v6) (V c main_v7) 0 (by omega))
    (fun t _ => flushed3_eq V c t) cover3

/-! ## Output window 4 (k) -/

/-- Output window 4's block moves with the activations' block: batch entry and row block, all of the feature axis. -/
theorem idx_facts4 : ∀ t : Fin cfg0.N, win0_4.index t (0 : Fin 3) = win0_0.index t (0 : Fin 3)
    ∧ win0_4.index t (1 : Fin 3) = win0_0.index t (1 : Fin 3) ∧ win0_4.index t (2 : Fin 3) = 0 :=
  (by decide +kernel : ∀ t : Fin grid0.N, _)

/-- Every (batch entry, row block) is some point's. -/
theorem idx_onto4 : ∀ (q0 : Fin 4) (q1 : Fin 8), ∃ t : Fin cfg0.N, win0_4.index t (0 : Fin 3) = q0.val
    ∧ win0_4.index t (1 : Fin 3) = q1.val ∧ win0_4.index t (2 : Fin 3) = 0 :=
  (by decide +kernel : ∀ (q0 : Fin 4) (q1 : Fin 8), ∃ t : Fin grid0.N, _)

/-- Where an element of point `t`'s block of output window 4 sits in the array. -/
theorem emb4_val (t : Fin cfg0.N) (u : Fin 1) (r : Fin 256) (e : Fin 1024) :
    ((((cfg0.win 4).blk t).view.emb (ix3 u r e) : S4x2048x1024.Idx) 0).val = win0_0.index t (0 : Fin 3)
    ∧ ((((cfg0.win 4).blk t).view.emb (ix3 u r e) : S4x2048x1024.Idx) 1).val = win0_0.index t (1 : Fin 3) * 256 + r.val
    ∧ ((((cfg0.win 4).blk t).view.emb (ix3 u r e) : S4x2048x1024.Idx) 2).val = e.val := by
  obtain ⟨e0, e1, e2⟩ := idx_facts4 t
  have hu : u.val < 1 := u.isLt
  refine ⟨?_, ?_, ?_⟩
  · show win0_4.index t (0 : Fin 3) * 1 + 1 * u.val = _; omega
  · show win0_4.index t (1 : Fin 3) * 256 + 1 * r.val = _; omega
  · show win0_4.index t (2 : Fin 3) * 1024 + 1 * e.val = _; omega

/-- What point `t` writes back to output window 4 is block `t` of the projection at columns `1024 + e`. -/
theorem flushed4_eq (c : Dev nD) (t : Fin cfg0.N) :
    (dat0 (F := Ideal) V c).flushed 4 t
      = ((cfg0.win 4).blk t).view.read (Elt Ideal) (projCat (V c main_arg0) (V c main_v6) (V c main_v7) 1024 (by omega)) := by
  show (cfg0.win 4).cut (grid0.coords t) ((dat0 V c).after 4 t) = _
  rw [after0_4]
  unfold out0_4
  rw [View.canon_unit_zero hz3]
  simp only [View.ld_unit_zero (S := S1x256x1024) hz3, View.ld_unit_zero (S := S1024x3072) hz2, View.ld_unit_zero (S := S3072) hz1]
  funext j
  obtain ⟨u, r, e, rfl⟩ : ∃ (u : Fin 1) (r : Fin 256) (e : Fin 1024), j = ix3 u r e := ⟨j 0, j 1, j 2, eq_ix3 j⟩
  obtain ⟨h0, h1, h2⟩ := emb4_val t u r e
  show k0_pay3 (iblk0 V c 0 t) (iblk0 V c 1 t) (iblk0 V c 2 t) (ix3 u r e)
    = projCat (V c main_arg0) (V c main_v6) (V c main_v7) 1024 (by omega) (((cfg0.win 4).blk t).view.emb (ix3 u r e))
  refine (pay3_apply (iblk0 V c 0 t) (iblk0 V c 1 t) (iblk0 V c 2 t) u r e).trans ?_
  exact proj_block (V c main_arg0) (V c main_v6) (V c main_v7) (iblk0 V c 0 t) (iblk0 V c 1 t) (iblk0 V c 2 t) 1024 (by omega) r e
    (((cfg0.win 4).blk t).view.emb (ix3 u r e))
    (fun k => iblk0_0_apply V c t r k _ h0 h1 rfl)
    (iblk0_1_eq V c t) (iblk0_2_eq V c t) h2

/-- An index of the array is in point `t`'s block iff each coordinate is in the block's range on its axis. -/
theorem mem_blk4 (t : Fin cfg0.N) (i : S4x2048x1024.Idx) :
    i ∈ ((cfg0.win 4).blk t).view.set ↔ ∀ a : Fin 3, win0_4.index t a * S1x256x1024.size a ≤ (i a).val ∧ (i a).val < win0_4.index t a * S1x256x1024.size a + S1x256x1024.size a := by
  show i ∈ ((View.whole main_v8_1).slice (win0_4.rect t)).set ↔ _
  rw [View.set_slice_whole, Rect.mem_set_unit]
  exact Iff.rfl

/-- The blocks tile the array: row `s` of batch entry `n` is in the block of the point at (`n`, `s / 256`). -/
theorem cover4 (i : S4x2048x1024.Idx) : ∃ t : Fin cfg0.N, (cfg0.win 4).flush t = true ∧ i ∈ ((cfg0.win 4).blk t).view.set := by
  have hi0 : (i 0).val < 4 := (i 0).isLt
  have hi1 : (i 1).val < 2048 := (i 1).isLt
  have hi2 : (i 2).val < 1024 := (i 2).isLt
  obtain ⟨t, q0, q1, q2⟩ := idx_onto4 ⟨(i 0).val, hi0⟩ ⟨(i 1).val / 256, by omega⟩
  have q0' : win0_4.index t (0 : Fin 3) = (i 0).val := q0
  have q1' : win0_4.index t (1 : Fin 3) = (i 1).val / 256 := q1
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 1024 ≤ (i 2).val ∧ (i 2).val < win0_4.index t (2 : Fin 3) * 1024 + 1024; omega

/-- After the region the k array is the projection at columns `1024 + e` of the arrays the region found. -/
theorem k_final (c : Dev nD) : (dat0 (F := Ideal) V c).arrAt 4 cfg0.N = projCat (V c main_arg0) (V c main_v6) (V c main_v7) 1024 (by omega) :=
  (dat0 (F := Ideal) V c).arrAt_eq_of_cover 4 (projCat (V c main_arg0) (V c main_v6) (V c main_v7) 1024 (by omega))
    (fun t _ => flushed4_eq V c t) cover4

/-! ## Output window 5 (v) -/

/-- Output window 5's block moves with the activations' block: batch entry and row block, all of the feature axis. -/
theorem idx_facts5 : ∀ t : Fin cfg0.N, win0_5.index t (0 : Fin 3) = win0_0.index t (0 : Fin 3)
    ∧ win0_5.index t (1 : Fin 3) = win0_0.index t (1 : Fin 3) ∧ win0_5.index t (2 : Fin 3) = 0 :=
  (by decide +kernel : ∀ t : Fin grid0.N, _)

/-- Every (batch entry, row block) is some point's. -/
theorem idx_onto5 : ∀ (q0 : Fin 4) (q1 : Fin 8), ∃ t : Fin cfg0.N, win0_5.index t (0 : Fin 3) = q0.val
    ∧ win0_5.index t (1 : Fin 3) = q1.val ∧ win0_5.index t (2 : Fin 3) = 0 :=
  (by decide +kernel : ∀ (q0 : Fin 4) (q1 : Fin 8), ∃ t : Fin grid0.N, _)

/-- Where an element of point `t`'s block of output window 5 sits in the array. -/
theorem emb5_val (t : Fin cfg0.N) (u : Fin 1) (r : Fin 256) (e : Fin 1024) :
    ((((cfg0.win 5).blk t).view.emb (ix3 u r e) : S4x2048x1024.Idx) 0).val = win0_0.index t (0 : Fin 3)
    ∧ ((((cfg0.win 5).blk t).view.emb (ix3 u r e) : S4x2048x1024.Idx) 1).val = win0_0.index t (1 : Fin 3) * 256 + r.val
    ∧ ((((cfg0.win 5).blk t).view.emb (ix3 u r e) : S4x2048x1024.Idx) 2).val = e.val := by
  obtain ⟨e0, e1, e2⟩ := idx_facts5 t
  have hu : u.val < 1 := u.isLt
  refine ⟨?_, ?_, ?_⟩
  · show win0_5.index t (0 : Fin 3) * 1 + 1 * u.val = _; omega
  · show win0_5.index t (1 : Fin 3) * 256 + 1 * r.val = _; omega
  · show win0_5.index t (2 : Fin 3) * 1024 + 1 * e.val = _; omega

/-- What point `t` writes back to output window 5 is block `t` of the projection at columns `2048 + e`. -/
theorem flushed5_eq (c : Dev nD) (t : Fin cfg0.N) :
    (dat0 (F := Ideal) V c).flushed 5 t
      = ((cfg0.win 5).blk t).view.read (Elt Ideal) (projCat (V c main_arg0) (V c main_v6) (V c main_v7) 2048 (by omega)) := by
  show (cfg0.win 5).cut (grid0.coords t) ((dat0 V c).after 5 t) = _
  rw [after0_5]
  unfold out0_5
  rw [View.canon_unit_zero hz3]
  simp only [View.ld_unit_zero (S := S1x256x1024) hz3, View.ld_unit_zero (S := S1024x3072) hz2, View.ld_unit_zero (S := S3072) hz1]
  funext j
  obtain ⟨u, r, e, rfl⟩ : ∃ (u : Fin 1) (r : Fin 256) (e : Fin 1024), j = ix3 u r e := ⟨j 0, j 1, j 2, eq_ix3 j⟩
  obtain ⟨h0, h1, h2⟩ := emb5_val t u r e
  show k0_pay4 (iblk0 V c 0 t) (iblk0 V c 1 t) (iblk0 V c 2 t) (ix3 u r e)
    = projCat (V c main_arg0) (V c main_v6) (V c main_v7) 2048 (by omega) (((cfg0.win 5).blk t).view.emb (ix3 u r e))
  refine (pay4_apply (iblk0 V c 0 t) (iblk0 V c 1 t) (iblk0 V c 2 t) u r e).trans ?_
  exact proj_block (V c main_arg0) (V c main_v6) (V c main_v7) (iblk0 V c 0 t) (iblk0 V c 1 t) (iblk0 V c 2 t) 2048 (by omega) r e
    (((cfg0.win 5).blk t).view.emb (ix3 u r e))
    (fun k => iblk0_0_apply V c t r k _ h0 h1 rfl)
    (iblk0_1_eq V c t) (iblk0_2_eq V c t) h2

/-- An index of the array is in point `t`'s block iff each coordinate is in the block's range on its axis. -/
theorem mem_blk5 (t : Fin cfg0.N) (i : S4x2048x1024.Idx) :
    i ∈ ((cfg0.win 5).blk t).view.set ↔ ∀ a : Fin 3, win0_5.index t a * S1x256x1024.size a ≤ (i a).val ∧ (i a).val < win0_5.index t a * S1x256x1024.size a + S1x256x1024.size a := by
  show i ∈ ((View.whole main_v8_2).slice (win0_5.rect t)).set ↔ _
  rw [View.set_slice_whole, Rect.mem_set_unit]
  exact Iff.rfl

/-- The blocks tile the array: row `s` of batch entry `n` is in the block of the point at (`n`, `s / 256`). -/
theorem cover5 (i : S4x2048x1024.Idx) : ∃ t : Fin cfg0.N, (cfg0.win 5).flush t = true ∧ i ∈ ((cfg0.win 5).blk t).view.set := by
  have hi0 : (i 0).val < 4 := (i 0).isLt
  have hi1 : (i 1).val < 2048 := (i 1).isLt
  have hi2 : (i 2).val < 1024 := (i 2).isLt
  obtain ⟨t, q0, q1, q2⟩ := idx_onto5 ⟨(i 0).val, hi0⟩ ⟨(i 1).val / 256, by omega⟩
  have q0' : win0_5.index t (0 : Fin 3) = (i 0).val := q0
  have q1' : win0_5.index t (1 : Fin 3) = (i 1).val / 256 := q1
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 1024 ≤ (i 2).val ∧ (i 2).val < win0_5.index t (2 : Fin 3) * 1024 + 1024; omega

/-- After the region the v array is the projection at columns `2048 + e` of the arrays the region found. -/
theorem v_final (c : Dev nD) : (dat0 (F := Ideal) V c).arrAt 5 cfg0.N = projCat (V c main_arg0) (V c main_v6) (V c main_v7) 2048 (by omega) :=
  (dat0 (F := Ideal) V c).arrAt_eq_of_cover 5 (projCat (V c main_arg0) (V c main_v6) (V c main_v7) 2048 (by omega))
    (fun t _ => flushed5_eq V c t) cover5

/-- info: 'Cert.KernelIdeal.Hand.q_final' depends on axioms: [propext, Classical.choice, Quot.sound] -/
#guard_msgs in #print axioms q_final
/-- info: 'Cert.KernelIdeal.Hand.k_final' depends on axioms: [propext, Classical.choice, Quot.sound] -/
#guard_msgs in #print axioms k_final
/-- info: 'Cert.KernelIdeal.Hand.v_final' depends on axioms: [propext, Classical.choice, Quot.sound] -/
#guard_msgs in #print axioms v_final

end Cert.KernelIdeal.Hand

end
-- ==== Proof.KI.HostValue.lean ====
/-
  What the kernel program's host operations leave for its first region.

  Before the first region the program transposes each of the three weight matrices, re-types each transpose as bf16
  (at the ideal values a change of format is the identity), lays the three side by side along the column axis into one
  `[1024, 3072]` matrix, and lays the three biases end to end into one vector of length 3072. No host operation
  writes an argument.

  Read at an index: column `e`, `1024 + e`, `2048 + e` of row `t` of the wide matrix is entry `(e, t)` of the query,
  key and value weight — a concatenation reads the piece whose span holds the coordinate, at the coordinate less the
  extents before it, and a transposed matrix at `(t, e)` reads the matrix at `(e, t)`; entry `e`, `1024 + e`,
  `2048 + e` of the long vector is entry `e` of the query, key and value bias.
-/
import proofs.«154121_j11690900980356_2_alg».proof.Proof.Gen.KernelIdeal.Launch
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.TcCoe Idealize.ShloMosaic.ValueIdx
  Idealize.ShloMosaic.StableHlo

variable (m : (ℓ : Loc nD τ sig) → Buf (Elt Ideal) ℓ) (c : Dev nD)

/-- Core `c`'s buffers once the host operations before the first region have run from the launch contents. -/
local notation "W" => StableHlo.after (hostOps0 (F := Ideal)) (fun b => m (c, b))

/-- A weight matrix as the first region finds it: transposed, then re-typed (the identity at the ideal values). -/
abbrev hostWeight (w : (⟨S1024x1024, .f32⟩ : BufTy).Contents (Elt Ideal)) : (⟨S1024x1024, .bf16⟩ : BufTy).Contents (Elt Ideal) :=
  truncf (F := Ideal) .bf16 (transpose S1024x1024 [1, 0] w transposes_S1024x1024_S1024x1024_1_0 : FVec Ideal S1024x1024 .f32) bitsLt_bf16_f32

/-- `hostWeight w` at `(t, e)` is `w` at `(e, t)`. -/
theorem hostWeight_apply (w : (⟨S1024x1024, .f32⟩ : BufTy).Contents (Elt Ideal)) (t e : Fin 1024) :
    hostWeight w (ix2 t e) = w (ix2 e t) :=
  transpose_ix2_apply (w : S1024x1024.Idx → EReal) transposes_S1024x1024_S1024x1024_1_0 t e

/-- The three transposed weights, each with its shape: the pieces of the wide weight matrix, in order. -/
abbrev weightPieces : List ((s : Shape) × (s.Idx → EReal)) :=
  [⟨S1024x1024, hostWeight (m ((c : Thread nD τ).loc main_arg1))⟩, ⟨S1024x1024, hostWeight (m ((c : Thread nD τ).loc main_arg3))⟩,
    ⟨S1024x1024, hostWeight (m ((c : Thread nD τ).loc main_arg5))⟩]

/-- The three biases, each with its shape: the pieces of the long bias vector, in order. -/
abbrev biasPieces : List ((s : Shape) × (s.Idx → EReal)) :=
  [⟨S1024, m ((c : Thread nD τ).loc main_arg2)⟩, ⟨S1024, m ((c : Thread nD τ).loc main_arg4)⟩, ⟨S1024, m ((c : Thread nD τ).loc main_arg6)⟩]

/-! ## The arrays as whole terms -/

/-- No host operation writes the activations. -/
theorem host_arg0 : W (Proc.devRef .tc main_arg0) = m ((c : Thread nD τ).loc main_arg0) := by
  dsimp only [hostOps0]
  after_results

/-- The wide weight matrix: the three transposed weights side by side along the column axis. -/
theorem host_v6_eq : W (Proc.devRef .tc main_v6)
    = concatenate S1024x3072 1 (weightPieces m c) concatenates_S1024x1024_S1024x1024_S1024x1024_S1024x3072_d1 := by
  dsimp only [hostOps0]
  after_results
  rfl

/-- The long bias vector: the three biases end to end. -/
theorem host_v7_eq : W (Proc.devRef .tc main_v7)
    = concatenate S3072 0 (biasPieces m c) concatenates_S1024_S1024_S1024_S3072_d0 := by
  dsimp only [hostOps0]
  after_results
  rfl

/-! ## The wide weight matrix at an index -/

/-- Off the column axis the wide matrix's index `(t, j)` and a piece's index `(t, e)` have the same coordinate: the row. -/
theorem cols_off_axis (t e : Fin 1024) (j : Fin 3072) (b : Fin S1024x1024.rank)
    (hb : b.cast (rfl : S1024x1024.rank = S1024x3072.rank) ≠ (1 : Fin S1024x3072.rank)) :
    ((ix2 t e : S1024x1024.Idx) b).val = ((ix2 t j : S1024x3072.Idx) (b.cast (rfl : S1024x1024.rank = S1024x3072.rank))).val := by
  match b with
  | ⟨0, _⟩ => rfl
  | ⟨1, _⟩ => exact absurd (Fin.ext rfl) hb

/-- The query weight's part of the wide matrix. -/
theorem host_v6_q (t e : Fin 1024) :
    (W (Proc.devRef .tc main_v6) : S1024x3072.Idx → EReal) (ix2 t ⟨e.val, by omega⟩)
      = m ((c : Thread nD τ).loc main_arg1) (ix2 e t) := by
  refine (congrFun (host_v6_eq m c) _).trans ?_
  refine (concatenate_apply_piece (1 : Fin S1024x3072.rank) (weightPieces m c) concatenates_S1024x1024_S1024x1024_S1024x1024_S1024x3072_d1 (ix2 t _)
    0 (show 0 < 3 by decide) S1024x1024 _ rfl rfl 0 rfl (ix2 t e) (cols_off_axis t e _) (Nat.zero_add _)).trans ?_
  exact hostWeight_apply _ t e

/-- The key weight's part of the wide matrix. -/
theorem host_v6_k (t e : Fin 1024) :
    (W (Proc.devRef .tc main_v6) : S1024x3072.Idx → EReal) (ix2 t ⟨1024 + e.val, by omega⟩)
      = m ((c : Thread nD τ).loc main_arg3) (ix2 e t) := by
  refine (congrFun (host_v6_eq m c) _).trans ?_
  refine (concatenate_apply_piece (1 : Fin S1024x3072.rank) (weightPieces m c) concatenates_S1024x1024_S1024x1024_S1024x1024_S1024x3072_d1 (ix2 t _)
    1 (show 1 < 3 by decide) S1024x1024 _ rfl rfl 1024 rfl (ix2 t e) (cols_off_axis t e _) rfl).trans ?_
  exact hostWeight_apply _ t e

/-- The value weight's part of the wide matrix. -/
theorem host_v6_v (t e : Fin 1024) :
    (W (Proc.devRef .tc main_v6) : S1024x3072.Idx → EReal) (ix2 t ⟨2048 + e.val, by omega⟩)
      = m ((c : Thread nD τ).loc main_arg5) (ix2 e t) := by
  refine (congrFun (host_v6_eq m c) _).trans ?_
  refine (concatenate_apply_piece (1 : Fin S1024x3072.rank) (weightPieces m c) concatenates_S1024x1024_S1024x1024_S1024x1024_S1024x3072_d1 (ix2 t _)
    2 (show 2 < 3 by decide) S1024x1024 _ rfl rfl 2048 rfl (ix2 t e) (cols_off_axis t e _) rfl).trans ?_
  exact hostWeight_apply _ t e

/-! ## The long bias vector at an index -/

/-- A vector has no axis but the one concatenated along. -/
theorem vec_off_axis (e : Fin 1024) (j : Fin 3072) (b : Fin S1024.rank)
    (hb : b.cast (rfl : S1024.rank = S3072.rank) ≠ (0 : Fin S3072.rank)) :
    ((ix1 e : S1024.Idx) b).val = ((ix1 j : S3072.Idx) (b.cast (rfl : S1024.rank = S3072.rank))).val := by
  match b with
  | ⟨0, _⟩ => exact absurd (Fin.ext rfl) hb

/-- The query bias's part of the long vector. -/
theorem host_v7_q (e : Fin 1024) :
    (W (Proc.devRef .tc main_v7) : S3072.Idx → EReal) (ix1 ⟨e.val, by omega⟩) = m ((c : Thread nD τ).loc main_arg2) (ix1 e) := by
  refine (congrFun (host_v7_eq m c) _).trans ?_
  exact concatenate_apply_piece (0 : Fin S3072.rank) (biasPieces m c) concatenates_S1024_S1024_S1024_S3072_d0 (ix1 _)
    0 (show 0 < 3 by decide) S1024 _ rfl rfl 0 rfl (ix1 e) (vec_off_axis e _) (Nat.zero_add _)

/-- The key bias's part of the long vector. -/
theorem host_v7_k (e : Fin 1024) :
    (W (Proc.devRef .tc main_v7) : S3072.Idx → EReal) (ix1 ⟨1024 + e.val, by omega⟩) = m ((c : Thread nD τ).loc main_arg4) (ix1 e) := by
  refine (congrFun (host_v7_eq m c) _).trans ?_
  exact concatenate_apply_piece (0 : Fin S3072.rank) (biasPieces m c) concatenates_S1024_S1024_S1024_S3072_d0 (ix1 _)
    1 (show 1 < 3 by decide) S1024 _ rfl rfl 1024 rfl (ix1 e) (vec_off_axis e _) rfl

/-- The value bias's part of the long vector. -/
theorem host_v7_v (e : Fin 1024) :
    (W (Proc.devRef .tc main_v7) : S3072.Idx → EReal) (ix1 ⟨2048 + e.val, by omega⟩) = m ((c : Thread nD τ).loc main_arg6) (ix1 e) := by
  refine (congrFun (host_v7_eq m c) _).trans ?_
  exact concatenate_apply_piece (0 : Fin S3072.rank) (biasPieces m c) concatenates_S1024_S1024_S1024_S3072_d0 (ix1 _)
    2 (show 2 < 3 by decide) S1024 _ rfl rfl 2048 rfl (ix1 e) (vec_off_axis e _) rfl

end Cert.KernelIdeal.Hand

end
-- ==== Proof.KI.ProjValue.lean ====
/-
  The projection region's three output arrays are the specification's three projections of the ARGUMENTS.

  After the region each output array is one function of what the region found: the activations `x`, the wide weight
  matrix `W` (`[1024, 3072]`: the three transposed weights side by side) and the long bias `b` (length 3072) — at
  `(n, s, e)` the dot product of the row `x n s ·` with column `off + e` of `W`, plus `b (off + e)`, with `off` 0,
  1024, 2048 for the query, key and value array. What the region found is what the host operations left: `x` untouched,
  column `off + e` of row `t` of `W` the entry `(e, t)` of the matching weight argument, entry `off + e` of `b` the
  entry `e` of the matching bias argument. Put together, term by term under the sum, that is
  `(∑ t, x n s t · Wq e t) + bq e`, the specification's projection: no term is moved, so nothing here needs the
  arguments to be finite.
-/
import proofs.«154121_j11690900980356_2_alg».proof.Proof.KI.Run
import proofs.«154121_j11690900980356_2_alg».proof.Proof.KI.Reg0Value
import proofs.«154121_j11690900980356_2_alg».proof.Proof.KI.HostValue
import proofs.«154121_j11690900980356_2_alg».proof.Proof.Spec

noncomputable section

open scoped BigOperators

namespace Cert.KernelIdeal.Hand

open Cert.KernelIdeal Cert.KernelIdeal.Gen Idealize.ShloMosaic Idealize.ShloMosaic.TcCoe Idealize.ShloMosaic.ValueIdx

variable (m : (ℓ : Loc nD τ sig) → Buf (Elt Ideal) ℓ) (c : Dev nD)

/-- The dot product and the bias of one projection, read through the host operations: for an array that is the
    region's function of the entry contents at column offset `off`, with the wide matrix's column `off + e` and the long
    bias's entry `off + e` known to be a weight argument's row `e` and a bias argument's entry `e`. -/
theorem projCat_entry (off : Nat) (hoff : off + 1024 ≤ 3072) (Wa : S1024x1024.Idx → EReal) (ba : S1024.Idx → EReal)
    (n : Fin 4) (s : Fin 2048) (e : Fin 1024)
    (hW : ∀ (t : Fin 1024) (h : off + e.val < 3072),
      (V1 (F := Ideal) m c main_v6 : S1024x3072.Idx → EReal) (ix2 t ⟨off + e.val, h⟩) = Wa (ix2 e t))
    (hb : ∀ h : off + e.val < 3072, (V1 (F := Ideal) m c main_v7 : S3072.Idx → EReal) (ix1 ⟨off + e.val, h⟩) = ba (ix1 e)) :
    projCat (V1 (F := Ideal) m c main_arg0) (V1 (F := Ideal) m c main_v6) (V1 (F := Ideal) m c main_v7) off hoff (ix3 n s e)
      = Cert.Attn.proj (m ((c : Thread nD τ).loc main_arg0)) Wa ba n s e := by
  unfold projCat Cert.Attn.proj
  refine congrArg₂ (· + ·) (Finset.sum_congr rfl fun t _ => congrArg₂ (· * ·) ?_ ?_) ?_
  · exact congrFun (host_arg0 m c) (ix3 n s t)
  · exact hW t _
  · exact hb _

/-- The query array after the projection region. -/
theorem q_arr (n : Fin 4) (s : Fin 2048) (e : Fin 1024) :
    (V2 (F := Ideal) m c main_v8_0 : S4x2048x1024.Idx → EReal) (ix3 n s e)
      = Cert.Attn.proj (m ((c : Thread nD τ).loc main_arg0)) (m ((c : Thread nD τ).loc main_arg1)) (m ((c : Thread nD τ).loc main_arg2)) n s e := by
  refine (congrFun ((W2_arr (F := Ideal) m c 3).trans (q_final (V1 (F := Ideal) m) c)) (ix3 n s e)).trans ?_
  refine projCat_entry m c 0 (by omega) _ _ n s e (fun t h => ?_) (fun h => ?_)
  · have hi : (⟨0 + e.val, h⟩ : Fin 3072) = ⟨e.val, by omega⟩ := Fin.ext (Nat.zero_add _)
    rw [hi]
    exact host_v6_q m c t e
  · have hi : (⟨0 + e.val, h⟩ : Fin 3072) = ⟨e.val, by omega⟩ := Fin.ext (Nat.zero_add _)
    rw [hi]
    exact host_v7_q m c e

/-- The key array after the projection region. -/
theorem k_arr (n : Fin 4) (s : Fin 2048) (e : Fin 1024) :
    (V2 (F := Ideal) m c main_v8_1 : S4x2048x1024.Idx → EReal) (ix3 n s e)
      = Cert.Attn.proj (m ((c : Thread nD τ).loc main_arg0)) (m ((c : Thread nD τ).loc main_arg3)) (m ((c : Thread nD τ).loc main_arg4)) n s e := by
  refine (congrFun ((W2_arr (F := Ideal) m c 4).trans (k_final (V1 (F := Ideal) m) c)) (ix3 n s e)).trans ?_
  exact projCat_entry m c 1024 (by omega) _ _ n s e (fun t _ => host_v6_k m c t e) (fun _ => host_v7_k m c e)

/-- The value array after the projection region. -/
theorem v_arr (n : Fin 4) (s : Fin 2048) (e : Fin 1024) :
    (V2 (F := Ideal) m c main_v8_2 : S4x2048x1024.Idx → EReal) (ix3 n s e)
      = Cert.Attn.proj (m ((c : Thread nD τ).loc main_arg0)) (m ((c : Thread nD τ).loc main_arg5)) (m ((c : Thread nD τ).loc main_arg6)) n s e := by
  refine (congrFun ((W2_arr (F := Ideal) m c 5).trans (v_final (V1 (F := Ideal) m) c)) (ix3 n s e)).trans ?_
  exact projCat_entry m c 2048 (by omega) _ _ n s e (fun t _ => host_v6_v m c t e) (fun _ => host_v7_v m c e)

end Cert.KernelIdeal.Hand

end
-- ==== Proof.AttnJoin.lean ====
/-
  The law that joins the two programs, at whole-array level: the kernel's result — per index the two-block running
  form over the projected query, key and value arrays at the scale word 1/32 — is attention of the three projections,
  when every input entry is a real number.
-/
import proofs.«154121_j11690900980356_2_alg».proof.Proof.Spec
import proofs.«154121_j11690900980356_2_alg».proof.Proof.AttnMath

noncomputable section

open scoped BigOperators

namespace Cert.Attn

open Idealize.ShloMosaic Idealize.ShloMosaic.ValueIdx

theorem online_attn_eq (q k v : SX.Idx → EReal)
    (x : SX.Idx → EReal) (Wq : SW.Idx → EReal) (bq : SB.Idx → EReal) (Wk : SW.Idx → EReal) (bk : SB.Idx → EReal) (Wv : SW.Idx → EReal) (bv : SB.Idx → EReal)
    (hq : ∀ (n : Fin 4) (s : Fin 2048) (e : Fin 1024), q (ix3 n s e) = proj x Wq bq n s e)
    (hk : ∀ (n : Fin 4) (s : Fin 2048) (e : Fin 1024), k (ix3 n s e) = proj x Wk bk n s e)
    (hv : ∀ (n : Fin 4) (s : Fin 2048) (e : Fin 1024), v (ix3 n s e) = proj x Wv bv n s e)
    (hx : ∀ i, ∃ r : ℝ, x i = (r : EReal))
    (hWq : ∀ i, ∃ r : ℝ, Wq i = (r : EReal)) (hbq : ∀ i, ∃ r : ℝ, bq i = (r : EReal))
    (hWk : ∀ i, ∃ r : ℝ, Wk i = (r : EReal)) (hbk : ∀ i, ∃ r : ℝ, bk i = (r : EReal))
    (hWv : ∀ i, ∃ r : ℝ, Wv i = (r : EReal)) (hbv : ∀ i, ∃ r : ℝ, bv i = (r : EReal)) :
    (fun i : SX.Idx =>
      onlineRow
        (fun j => score (fun s e => q (ix3 (i 0) s e)) (fun s e => k (ix3 (i 0) s e)) (Ideal.ofBits .f32 0x3D000000#32) (i 1) (lo j))
        (fun j => score (fun s e => q (ix3 (i 0) s e)) (fun s e => k (ix3 (i 0) s e)) (Ideal.ofBits .f32 0x3D000000#32) (i 1) (hi j))
        (fun j => v (ix3 (i 0) (lo j) (i 2)))
        (fun j => v (ix3 (i 0) (hi j) (i 2))))
      = attn ((1 / 32 : ℝ) : EReal) x Wq bq Wk bk Wv bv := by
  funext i
  have e1 : (fun (s : Fin 2048) (e : Fin 1024) => q (ix3 (i 0) s e)) = proj x Wq bq (i 0) :=
    funext fun s => funext fun e => hq (i 0) s e
  have e2 : (fun (s : Fin 2048) (e : Fin 1024) => k (ix3 (i 0) s e)) = proj x Wk bk (i 0) :=
    funext fun s => funext fun e => hk (i 0) s e
  have e3 : ∀ j : Fin 2048, v (ix3 (i 0) j (i 2)) = proj x Wv bv (i 0) j (i 2) := fun j => hv (i 0) j (i 2)
  simp only [e1, e2, e3, scale_kernel]
  unfold attn
  exact onlineRow_eq_attnRow
    (fun j => score (proj x Wq bq (i 0)) (proj x Wk bk (i 0)) ((1 / 32 : ℝ) : EReal) (i 1) j)
    (fun j => proj x Wv bv (i 0) j (i 2))
    (fun j => score_real _ _ (fun s e => proj_real x Wq bq hx hWq hbq (i 0) s e) (fun s e => proj_real x Wk bk hx hWk hbk (i 0) s e) _ ⟨_, rfl⟩ (i 1) j)
    (fun j => proj_real x Wv bv hx hWv hbv (i 0) j (i 2))

end Cert.Attn

end
-- ==== Proof.Finite.lean ====
/-
  Finiteness from the precondition. The precondition `finite_inputs` is the conjunction, over the seven float
  arguments x, of `jnp.all(jnp.abs(x) < inf)`: the absolute value of x, compared (ordered less-than) with the broadcast
  word 0x7F800000, the `i1` array reduced by `and` over all axes from the constant 1, and the seven bits `and`-ed together.
  At the ideal instance a float is an extended real, |x| is max x (-x), the word 0x7F800000 is ⊤ and the comparison is the
  order's. max x (-x) < ⊤ excludes x = ⊤, and excludes x = ⊥ because -⊥ = ⊤; what is left is a real number. So the
  precondition says: every entry of every argument array is a real number.
-/
import proofs.«154121_j11690900980356_2_alg».proof.Defs
import Idealize.ShloMosaic.Lib.ReduceAll
import Idealize.ShloMosaic.Lib.ValueIdx

noncomputable section

namespace Cert.Finite

open Idealize.ShloMosaic Idealize.SL.Sem

/-- The shape of rank 0 has one index. -/
instance subsingleton_S_ : Subsingleton Cert.Pre_finite_inputs.S_.Idx := ⟨fun a b => funext fun d => d.elim0⟩

/-- The f32 word 0x7F800000 denotes +∞. -/
theorem inf_eq_top : Ideal.ofBits .f32 0x7F800000#32 = (⊤ : EReal) := by simp [Ideal.ofBits, Ideal.ieee]

/-- An extended real whose absolute value max x (-x) is below +∞ is a real number: at ⊤ the maximum is ⊤, at ⊥ it is
    -⊥ = ⊤, and ⊤ < ⊤ is false. -/
theorem real_of_abs_lt (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | coe r => exact ⟨r, rfl⟩
  | top => simp [Ideal.cmp] at h

/-- ONE ARGUMENT: if the printed `jnp.all(jnp.abs(x) < inf)` of an array x of any shape is 1, every entry of x is a real
    number. The reduce by `and` over all axes that is 1 had a 1 at every index; there the comparison is the element fact. -/
theorem all_real {s t : Shape} {axes : List (Fin s.rank)} [Subsingleton t.Idx] (x : FVec Ideal s .f32)
    (hb : Cert.Pre_finite_inputs.S_.BroadcastsInDim s (![] : Fin 0 → Fin s.rank)) (h : s.ReducesTo axes t)
    (hu : 0 < Cert.Pre_finite_inputs.S_.numel) (j : t.Idx)
    (e : Host.reduce IntOp.andi
        (cmpf .olt (Host.absf x) (broadcastInDim s ![] hb (constant (F := Ideal) Cert.Pre_finite_inputs.S_ .f32 0x7F800000#32)))
        (constantI Cert.Pre_finite_inputs.S_ 1 1#1) h hu j = 1#1) (i : s.Idx) : ∃ r : ℝ, x i = (r : EReal) :=
  real_of_abs_lt (x i) (Host.reduce_andi_all _ _ h hu j e i)

open Cert.Pre_finite_inputs in
/-- THE PRECONDITION DECODED, over any seven arrays: the printed predicate all ones says each array is real entrywise. -/
theorem fn_real [hP : Cert.Pre_finite_inputs.Facts]
    (a0 : FVec Ideal S4x2048x1024 .f32) (a1 : FVec Ideal S1024x1024 .f32) (a2 : FVec Ideal S1024 .f32)
    (a3 : FVec Ideal S1024x1024 .f32) (a4 : FVec Ideal S1024 .f32) (a5 : FVec Ideal S1024x1024 .f32)
    (a6 : FVec Ideal S1024 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) := by
  have h0 := congrFun h ValueIdx.ix0
  dsimp only [Cert.Pre_finite_inputs.fn, Cert.Pre_finite_inputs.fn_part1] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real a0 _ _ _ _ e0, all_real a1 _ _ _ _ e1, all_real a2 _ _ _ _ e2, all_real a3 _ _ _ _ e3,
    all_real a4 _ _ _ _ e4, all_real a5 _ _ _ _ e5, all_real a6 _ _ _ _ e6⟩

/-- FINITENESS: under the certificate's precondition, on every device, every entry of each of the seven argument arrays
    of the idealized kernel is a real number. -/
theorem finite_of_pre [hK : Cert.KernelIdeal.Facts] [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal)) :=
  fn_real _ _ _ _ _ _ _ (h c)

end Cert.Finite

end
-- ==== Proof.Result.lean ====
/-
  The kernel program's result array at the ideal instance, under the precondition: attention of the three
  projections at scale 1/32.  The attention region leaves, per index, the two-block running form over its three input
  arrays; those are the projection region's outputs, which are the specification's projections of the arguments (the
  host operations only transpose and concatenate the weights and biases); the precondition makes every argument entry
  a real number, over which the running form is the softmax-weighted sum.
-/
import proofs.«154121_j11690900980356_2_alg».proof.Proof.KI.Frame
import proofs.«154121_j11690900980356_2_alg».proof.Proof.KI.Reg1Array
import proofs.«154121_j11690900980356_2_alg».proof.Proof.KI.ProjValue
import proofs.«154121_j11690900980356_2_alg».proof.Proof.AttnJoin
import proofs.«154121_j11690900980356_2_alg».proof.Proof.Finite
import proofs.«154121_j11690900980356_2_alg».proof.Proof.Gen.Pre_finite_inputs

noncomputable section

namespace Cert.KernelIdeal.Hand

open Cert.KernelIdeal Cert.KernelIdeal.Gen
open Idealize.ShloMosaic Idealize.ShloMosaic.TcCoe Idealize.ShloMosaic.ValueIdx Idealize.SL.Sem

theorem result_eq (m : (ℓ : Loc nD τ sig) → Buf (Elt Ideal) ℓ) (hpre : Cert.Pre_KernelIdeal m) (c : Dev nD) :
    (dat1 (F := Ideal) (V2 m) c).arrAt 3 cfg1.N
      = Cert.Attn.attn ((1 / 32 : ℝ) : EReal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  obtain ⟨h0, h1, h2, h3, h4, h5, h6⟩ := Cert.Finite.finite_of_pre m hpre c
  rw [out_final (V2 m) c]
  exact Cert.Attn.online_attn_eq _ _ _ _ _ _ _ _ _ _ (q_arr m c) (k_arr m c) (v_arr m c) h0 h1 h2 h3 h4 h5 h6

end Cert.KernelIdeal.Hand

end
-- ==== Proof.lean ====
/-
  Single-head scaled dot-product attention over three linear projections: a fused projection kernel and a
  two-block online-softmax attention kernel against the plain softmax reference.

  The frames of the two kernel programs are read off one run of the whole program (the host operations, then the two
  pipeline regions in turn), proved once at any float instance.  The reference's frame is its run with the result
  dropped.  The idealization rewrote nothing.  At the ideal instance the kernel's result array is, index by index,
  the two-block running form of a softmax row; over finite inputs (the precondition) that running form equals the
  softmax-weighted sum the reference computes, and both programs' scale is 1/32.
-/
import proofs.«154121_j11690900980356_2_alg».proof.Defs
import proofs.«154121_j11690900980356_2_alg».proof.Proof.Gen.Kernel
import proofs.«154121_j11690900980356_2_alg».proof.Proof.Gen.KernelIdeal
import proofs.«154121_j11690900980356_2_alg».proof.Proof.Gen.ReferenceIdeal
import proofs.«154121_j11690900980356_2_alg».proof.Proof.Gen.Pre_finite_inputs
import proofs.«154121_j11690900980356_2_alg».proof.Proof.K.Frame
import proofs.«154121_j11690900980356_2_alg».proof.Proof.KI.Frame
import proofs.«154121_j11690900980356_2_alg».proof.Proof.RefValue
import proofs.«154121_j11690900980356_2_alg».proof.Proof.Result
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := Cert.ReferenceIdeal.RefValue.frame_ri

/-- The idealization rewrote no operation. -/
theorem preserves : Cert.preserves_Kernel_KernelIdeal := trivial

/-- Both programs end with the result array at attention of the three projections at scale 1/32. -/
theorem algebraic : Cert.algebraic_KernelIdeal_ReferenceIdeal := by
  intro m ρ m' ρ' hpre hagree
  refine ⟨fun c => Cert.Attn.attn ((1 / 32 : ℝ) : EReal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run (Cert.KernelIdeal.defs (F := Ideal)) _ _).mono
      (fun r h c => ⟨(h c).1.trans (Cert.KernelIdeal.Hand.result_eq m hpre c), (h c).2⟩)
      (Cert.KernelIdeal.Hand.run_result (F := Ideal) m ρ)
  · refine (θ_run (Cert.ReferenceIdeal.defs (F := Ideal)) _ _).mono (fun r h c => ⟨?_, (h c).2⟩)
      (Cert.ReferenceIdeal.RefValue.run_attn m' ρ')
    rw [(h c).1, (hagree c).1, (hagree c).2.1, (hagree c).2.2.1, (hagree c).2.2.2.1, (hagree c).2.2.2.2.1, (hagree c).2.2.2.2.2.1, (hagree c).2.2.2.2.2.2]
    exact congrArg (fun s => Cert.Attn.attn s _ _ _ _ _ _ _) Cert.Attn.scale_ref

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
